-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S2048 : Shape := ⟨1, ![2048]⟩
abbrev S2048x2048 : Shape := ⟨2, ![2048, 2048]⟩
abbrev S1024x2048 : Shape := ⟨2, ![1024, 2048]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part7 {F : FTy → Type} [FloatOps F] (main_v118 : IVec S_ 1) (main_v119 : FVec F S1024 .f32) : IVec S_ 1 :=
  let main_cst_46 : FVec F S_ .f32 := constant S_ .f32 0x7F800000#32
  let main_v120 : FVec F S1024 .f32 := broadcastInDim S1024 ![] bcast_S_S1024 main_cst_46
  let main_v121 : IVec S1024 1 := cmpf .olt main_v119 main_v120
  let main_c_47 : IVec S_ 1 := constantI S_ 1 1#1
  let main_v122 : IVec S_ 1 := (fun x v => Host.reduce IntOp.andi x v reducesTo_S1024_S_d0 h_S_) main_v121 main_c_47
  let main_v123 : IVec S_ 1 := andi main_v118 main_v122
  main_v123

def fn_part6 {F : FTy → Type} [FloatOps F] (main_arg21 : FVec F S1024x2048 .f32) (main_arg22 : FVec F S1024 .f32) (main_arg23 : FVec F S1024x2048 .f32) (main_arg24 : FVec F S1024 .f32) (main_v98 : IVec S_ 1) (main_v101 : IVec S1024 1) (main_c_39 : IVec S_ 1) : IVec S_ 1 :=
  let main_v102 : IVec S_ 1 := (fun x v => Host.reduce IntOp.andi x v reducesTo_S1024_S_d0 h_S_) main_v101 main_c_39
  let main_v103 : IVec S_ 1 := andi main_v98 main_v102
  let main_v104 : FVec F S1024x2048 .f32 := Host.absf main_arg21
  let main_cst_40 : FVec F S_ .f32 := constant S_ .f32 0x7F800000#32
  let main_v105 : FVec F S1024x2048 .f32 := broadcastInDim S1024x2048 ![] bcast_S_S1024x2048 main_cst_40
  let main_v106 : IVec S1024x2048 1 := cmpf .olt main_v104 main_v105
  let main_c_41 : IVec S_ 1 := constantI S_ 1 1#1
  let main_v107 : IVec S_ 1 := (fun x v => Host.reduce IntOp.andi x v reducesTo_S1024x2048_S_d0_1 h_S_) main_v106 main_c_41
  let main_v108 : IVec S_ 1 := andi main_v103 main_v107
  let main_v109 : FVec F S1024 .f32 := Host.absf main_arg22
  let main_cst_42 : FVec F S_ .f32 := constant S_ .f32 0x7F800000#32
  let main_v110 : FVec F S1024 .f32 := broadcastInDim S1024 ![] bcast_S_S1024 main_cst_42
  let main_v111 : IVec S1024 1 := cmpf .olt main_v109 main_v110
  let main_c_43 : IVec S_ 1 := constantI S_ 1 1#1
  let main_v112 : IVec S_ 1 := (fun x v => Host.reduce IntOp.andi x v reducesTo_S1024_S_d0 h_S_) main_v111 main_c_43
  let main_v113 : IVec S_ 1 := andi main_v108 main_v112
  let main_v114 : FVec F S1024x2048 .f32 := Host.absf main_arg23
  let main_cst_44 : FVec F S_ .f32 := constant S_ .f32 0x7F800000#32
  let main_v115 : FVec F S1024x2048 .f32 := broadcastInDim S1024x2048 ![] bcast_S_S1024x2048 main_cst_44
  let main_v116 : IVec S1024x2048 1 := cmpf .olt main_v114 main_v115
  let main_c_45 : IVec S_ 1 := constantI S_ 1 1#1
  let main_v117 : IVec S_ 1 := (fun x v => Host.reduce IntOp.andi x v reducesTo_S1024x2048_S_d0_1 h_S_) main_v116 main_c_45
  let main_v118 : IVec S_ 1 := andi main_v113 main_v117
  let main_v119 : FVec F S1024 .f32 := Host.absf main_arg24
  fn_part7 (F := F) main_v118 main_v119

def fn_part5 {F : FTy → Type} [FloatOps F] (main_arg18 : FVec F S1024 .f32) (main_arg19 : FVec F S1024x2048 .f32) (main_arg20 : FVec F S1024 .f32) (main_arg21 : FVec F S1024x2048 .f32) (main_arg22 : FVec F S1024 .f32) (main_arg23 : FVec F S1024x2048 .f32) (main_arg24 : FVec F S1024 .f32) (main_v83 : IVec S_ 1) (main_v84 : FVec F S1024x2048 .f32) (main_cst_32 : FVec F S_ .f32) : IVec S_ 1 :=
  let main_v85 : FVec F S1024x2048 .f32 := broadcastInDim S1024x2048 ![] bcast_S_S1024x2048 main_cst_32
  let main_v86 : IVec S1024x2048 1 := cmpf .olt main_v84 main_v85
  let main_c_33 : IVec S_ 1 := constantI S_ 1 1#1
  let main_v87 : IVec S_ 1 := (fun x v => Host.reduce IntOp.andi x v reducesTo_S1024x2048_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  let main_v94 : FVec F S1024x2048 .f32 := Host.absf main_arg19
  let main_cst_36 : FVec F S_ .f32 := constant S_ .f32 0x7F800000#32
  let main_v95 : FVec F S1024x2048 .f32 := broadcastInDim S1024x2048 ![] bcast_S_S1024x2048 main_cst_36
  let main_v96 : IVec S1024x2048 1 := cmpf .olt main_v94 main_v95
  let main_c_37 : IVec S_ 1 := constantI S_ 1 1#1
  let main_v97 : IVec S_ 1 := (fun x v => Host.reduce IntOp.andi x v reducesTo_S1024x2048_S_d0_1 h_S_) main_v96 main_c_37
  let main_v98 : IVec S_ 1 := andi main_v93 main_v97
  let main_v99 : FVec F S1024 .f32 := Host.absf main_arg20
  let main_cst_38 : FVec F S_ .f32 := constant S_ .f32 0x7F800000#32
  let main_v100 : FVec F S1024 .f32 := broadcastInDim S1024 ![] bcast_S_S1024 main_cst_38
  let main_v101 : IVec S1024 1 := cmpf .olt main_v99 main_v100
  let main_c_39 : IVec S_ 1 := constantI S_ 1 1#1
  fn_part6 (F := F) main_arg21 main_arg22 main_arg23 main_arg24 main_v98 main_v101 main_c_39

def fn_part4 {F : FTy → Type} [FloatOps F] (main_arg14 : FVec F S2048 .f32) (main_arg15 : FVec F S2048x2048 .f32) (main_arg16 : FVec F S2048 .f32) (main_arg17 : FVec F S1024x2048 .f32) (main_arg18 : FVec F S1024 .f32) (main_arg19 : FVec F S1024x2048 .f32) (main_arg20 : FVec F S1024 .f32) (main_arg21 : FVec F S1024x2048 .f32) (main_arg22 : FVec F S1024 .f32) (main_arg23 : FVec F S1024x2048 .f32) (main_arg24 : FVec F S1024 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  let main_v74 : FVec F S2048x2048 .f32 := Host.absf main_arg15
  let main_cst_28 : FVec F S_ .f32 := constant S_ .f32 0x7F800000#32
  let main_v75 : FVec F S2048x2048 .f32 := broadcastInDim S2048x2048 ![] bcast_S_S2048x2048 main_cst_28
  let main_v76 : IVec S2048x2048 1 := cmpf .olt main_v74 main_v75
  let main_c_29 : IVec S_ 1 := constantI S_ 1 1#1
  let main_v77 : IVec S_ 1 := (fun x v => Host.reduce IntOp.andi x v reducesTo_S2048x2048_S_d0_1 h_S_) main_v76 main_c_29
  let main_v78 : IVec S_ 1 := andi main_v73 main_v77
  let main_v79 : FVec F S2048 .f32 := Host.absf main_arg16
  let main_cst_30 : FVec F S_ .f32 := constant S_ .f32 0x7F800000#32
  let main_v80 : FVec F S2048 .f32 := broadcastInDim S2048 ![] bcast_S_S2048 main_cst_30
  let main_v81 : IVec S2048 1 := cmpf .olt main_v79 main_v80
  let main_c_31 : IVec S_ 1 := constantI S_ 1 1#1
  let main_v82 : IVec S_ 1 := (fun x v => Host.reduce IntOp.andi x v reducesTo_S2048_S_d0 h_S_) main_v81 main_c_31
  let main_v83 : IVec S_ 1 := andi main_v78 main_v82
  let main_v84 : FVec F S1024x2048 .f32 := Host.absf main_arg17
  let main_cst_32 : FVec F S_ .f32 := constant S_ .f32 0x7F800000#32
  fn_part5 (F := F) main_arg18 main_arg19 main_arg20 main_arg21 main_arg22 main_arg23 main_arg24 main_v83 main_v84 main_cst_32

def fn_part3 {F : FTy → Type} [FloatOps F] (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S1024x2048 .f32) (main_arg18 : FVec F S1024 .f32) (main_arg19 : FVec F S1024x2048 .f32) (main_arg20 : FVec F S1024 .f32) (main_arg21 : FVec F S1024x2048 .f32) (main_arg22 : FVec F S1024 .f32) (main_arg23 : FVec F S1024x2048 .f32) (main_arg24 : FVec F S1024 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x2048 .f32 := Host.absf main_arg11
  let main_cst_20 : FVec F S_ .f32 := constant S_ .f32 0x7F800000#32
  let main_v55 : FVec F S2048x2048 .f32 := broadcastInDim S2048x2048 ![] bcast_S_S2048x2048 main_cst_20
  let main_v56 : IVec S2048x2048 1 := cmpf .olt main_v54 main_v55
  let main_c_21 : IVec S_ 1 := constantI S_ 1 1#1
  let main_v57 : IVec S_ 1 := (fun x v => Host.reduce IntOp.andi x v reducesTo_S2048x2048_S_d0_1 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048x2048 .f32 := Host.absf main_arg13
  let main_cst_24 : FVec F S_ .f32 := constant S_ .f32 0x7F800000#32
  let main_v65 : FVec F S2048x2048 .f32 := broadcastInDim S2048x2048 ![] bcast_S_S2048x2048 main_cst_24
  let main_v66 : IVec S2048x2048 1 := cmpf .olt main_v64 main_v65
  let main_c_25 : IVec S_ 1 := constantI S_ 1 1#1
  let main_v67 : IVec S_ 1 := (fun x v => Host.reduce IntOp.andi x v reducesTo_S2048x2048_S_d0_1 h_S_) main_v66 main_c_25
  fn_part4 (F := F) main_arg14 main_arg15 main_arg16 main_arg17 main_arg18 main_arg19 main_arg20 main_arg21 main_arg22 main_arg23 main_arg24 main_v63 main_v67

def fn_part2 {F : FTy → Type} [FloatOps F] (main_arg7 : FVec F S2048x1024 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S1024x2048 .f32) (main_arg18 : FVec F S1024 .f32) (main_arg19 : FVec F S1024x2048 .f32) (main_arg20 : FVec F S1024 .f32) (main_arg21 : FVec F S1024x2048 .f32) (main_arg22 : FVec F S1024 .f32) (main_arg23 : FVec F S1024x2048 .f32) (main_arg24 : FVec F S1024 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_arg14 main_arg15 main_arg16 main_arg17 main_arg18 main_arg19 main_arg20 main_arg21 main_arg22 main_arg23 main_arg24 main_v48 main_v49 main_v50

def fn_part1 {F : FTy → Type} [FloatOps F] (main_arg4 : FVec F S2048 .f32) (main_arg5 : FVec F S2048x1024 .f32) (main_arg6 : FVec F S2048 .f32) (main_arg7 : FVec F S2048x1024 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S1024x2048 .f32) (main_arg18 : FVec F S1024 .f32) (main_arg19 : FVec F S1024x2048 .f32) (main_arg20 : FVec F S1024 .f32) (main_arg21 : FVec F S1024x2048 .f32) (main_arg22 : FVec F S1024 .f32) (main_arg23 : FVec F S1024x2048 .f32) (main_arg24 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S2048x1024 .f32) (main_arg1 : FVec F S2048x1024 .f32) (main_arg2 : FVec F S2048 .f32) (main_arg3 : FVec F S2048x1024 .f32) (main_arg4 : FVec F S2048 .f32) (main_arg5 : FVec F S2048x1024 .f32) (main_arg6 : FVec F S2048 .f32) (main_arg7 : FVec F S2048x1024 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S1024x2048 .f32) (main_arg18 : FVec F S1024 .f32) (main_arg19 : FVec F S1024x2048 .f32) (main_arg20 : FVec F S1024 .f32) (main_arg21 : FVec F S1024x2048 .f32) (main_arg22 : FVec F S1024 .f32) (main_arg23 : FVec F S1024x2048 .f32) (main_arg24 : FVec F S1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S2048x1024 : Shape := ⟨2, ![2048, 1024]⟩
abbrev S2048 : Shape := ⟨1, ![2048]⟩
abbrev S2048x2048 : Shape := ⟨2, ![2048, 2048]⟩
abbrev S1024x2048 : Shape := ⟨2, ![1024, 2048]⟩
abbrev S1024 : Shape := ⟨1, ![1024]⟩
abbrev S_ : Shape := ⟨0, ![]⟩
abbrev S256x1024 : Shape := ⟨2, ![256, 1024]⟩
abbrev S1x2048 : Shape := ⟨2, ![1, 2048]⟩
abbrev S512x1024 : Shape := ⟨2, ![512, 1024]⟩
abbrev S1x256 : Shape := ⟨2, ![1, 256]⟩
abbrev S512x256 : Shape := ⟨2, ![512, 256]⟩
abbrev S256x2048 : Shape := ⟨2, ![256, 2048]⟩
abbrev S512x2048 : Shape := ⟨2, ![512, 2048]⟩
abbrev S1x1024 : Shape := ⟨2, ![1, 1024]⟩
abbrev S2048x1024x1 : Shape := ⟨3, ![2048, 1024, 1]⟩
abbrev S2048x1024x2 : Shape := ⟨3, ![2048, 1024, 2]⟩

abbrev nBuf : Space → Nat
  | .hbm => 87
  | .vmem => 84
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048, .f32⟩
  | .hbm, ⟨3, _⟩ => ⟨S2048x1024, .f32⟩
  | .hbm, ⟨4, _⟩ => ⟨S2048, .f32⟩
  | .hbm, ⟨5, _⟩ => ⟨S2048x1024, .f32⟩
  | .hbm, ⟨6, _⟩ => ⟨S2048, .f32⟩
  | .hbm, ⟨7, _⟩ => ⟨S2048x1024, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2048, .f32⟩
  | .hbm, ⟨13, _⟩ => ⟨S2048x2048, .f32⟩
  | .hbm, ⟨14, _⟩ => ⟨S2048, .f32⟩
  | .hbm, ⟨15, _⟩ => ⟨S2048x2048, .f32⟩
  | .hbm, ⟨16, _⟩ => ⟨S2048, .f32⟩
  | .hbm, ⟨17, _⟩ => ⟨S1024x2048, .f32⟩
  | .hbm, ⟨18, _⟩ => ⟨S1024, .f32⟩
  | .hbm, ⟨19, _⟩ => ⟨S1024x2048, .f32⟩
  | .hbm, ⟨20, _⟩ => ⟨S1024, .f32⟩
  | .hbm, ⟨21, _⟩ => ⟨S1024x2048, .f32⟩
  | .hbm, ⟨22, _⟩ => ⟨S1024, .f32⟩
  | .hbm, ⟨23, _⟩ => ⟨S1024x2048, .f32⟩
  | .hbm, ⟨24, _⟩ => ⟨S1024, .f32⟩
  | .hbm, ⟨25, _⟩ => ⟨S2048, .f32⟩
  | .hbm, ⟨26, _⟩ => ⟨S2048, .f32⟩
  | .hbm, ⟨27, _⟩ => ⟨S_, .f32⟩
  | .hbm, ⟨28, _⟩ => ⟨S2048, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S2048, .f32⟩
  | .hbm, ⟨34, _⟩ => ⟨S2048, .f32⟩
  | .hbm, ⟨35, _⟩ => ⟨S2048, .f32⟩
  | .hbm, ⟨36, _⟩ => ⟨S2048, .f32⟩
  | .hbm, ⟨37, _⟩ => ⟨S2048, .f32⟩
  | .hbm, ⟨38, _⟩ => ⟨S2048, .f32⟩
  | .hbm, ⟨39, _⟩ => ⟨S2048x1024, .f32⟩
  | .hbm, ⟨40, _⟩ => ⟨S1x2048, .f32⟩
  | .hbm, ⟨41, _⟩ => ⟨S1x2048, .f32⟩
  | .hbm, ⟨42, _⟩ => ⟨S2048x2048, .f32⟩
  | .hbm, ⟨43, _⟩ => ⟨S2048x2048, .f32⟩
  | .hbm, ⟨44, _⟩ => ⟨S2048, .f32⟩
  | .hbm, ⟨45, _⟩ => ⟨S2048, .f32⟩
  | .hbm, ⟨46, _⟩ => ⟨S_, .f32⟩
  | .hbm, ⟨47, _⟩ => ⟨S2048, .f32⟩
  | .hbm, ⟨48, _⟩ => ⟨S2048, .f32⟩
  | .hbm, ⟨49, _⟩ => ⟨S_, .f32⟩
  | .hbm, ⟨50, _⟩ => ⟨S2048, .f32⟩
  | .hbm, ⟨51, _⟩ => ⟨S2048, .f32⟩
  | .hbm, ⟨52, _⟩ => ⟨S2048, .f32⟩
  | .hbm, ⟨53, _⟩ => ⟨S2048, .f32⟩
  | .hbm, ⟨54, _⟩ => ⟨S2048, .f32⟩
  | .hbm, ⟨55, _⟩ => ⟨S2048, .f32⟩
  | .hbm, ⟨56, _⟩ => ⟨S2048, .f32⟩
  | .hbm, ⟨57, _⟩ => ⟨S2048, .f32⟩
  | .hbm, ⟨58, _⟩ => ⟨S2048x2048, .f32⟩
  | .hbm, ⟨59, _⟩ => ⟨S2048x2048, .f32⟩
  | .hbm, ⟨60, _⟩ => ⟨S1x2048, .f32⟩
  | .hbm, ⟨61, _⟩ => ⟨S1x2048, .f32⟩
  | .hbm, ⟨62, _⟩ => ⟨S2048x2048, .f32⟩
  | .hbm, ⟨63, _⟩ => ⟨S2048x2048, .f32⟩
  | .hbm, ⟨64, _⟩ => ⟨S1024, .f32⟩
  | .hbm, ⟨65, _⟩ => ⟨S1024, .f32⟩
  | .hbm, ⟨66, _⟩ => ⟨S_, .f32⟩
  | .hbm, ⟨67, _⟩ => ⟨S1024, .f32⟩
  | .hbm, ⟨68, _⟩ => ⟨S1024, .f32⟩
  | .hbm, ⟨69, _⟩ => ⟨S_, .f32⟩
  | .hbm, ⟨70, _⟩ => ⟨S1024, .f32⟩
  | .hbm, ⟨71, _⟩ => ⟨S1024, .f32⟩
  | .hbm, ⟨72, _⟩ => ⟨S1024, .f32⟩
  | .hbm, ⟨73, _⟩ => ⟨S1024, .f32⟩
  | .hbm, ⟨74, _⟩ => ⟨S1024, .f32⟩
  | .hbm, ⟨75, _⟩ => ⟨S1024, .f32⟩
  | .hbm, ⟨76, _⟩ => ⟨S1024, .f32⟩
  | .hbm, ⟨77, _⟩ => ⟨S1024, .f32⟩
  | .hbm, ⟨78, _⟩ => ⟨S1024x2048, .f32⟩
  | .hbm, ⟨79, _⟩ => ⟨S1024x2048, .f32⟩
  | .hbm, ⟨80, _⟩ => ⟨S1x1024, .f32⟩
  | .hbm, ⟨81, _⟩ => ⟨S1x1024, .f32⟩
  | .hbm, ⟨82, _⟩ => ⟨S2048x1024, .f32⟩
  | .hbm, ⟨83, _⟩ => ⟨S2048x1024, .f32⟩
  | .hbm, ⟨84, _⟩ => ⟨S2048x1024x1, .f32⟩
  | .hbm, ⟨85, _⟩ => ⟨S2048x1024x1, .f32⟩
  | .hbm, ⟨86, _⟩ => ⟨S2048x1024x2, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S512x1024, .f32⟩
  | .local _ .vmem, ⟨11, _⟩ => ⟨S512x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S256x2048, .f32⟩
  | .local _ .vmem, ⟨25, _⟩ => ⟨S256x2048, .f32⟩
  | .local _ .vmem, ⟨26, _⟩ => ⟨S256x2048, .f32⟩
  | .local _ .vmem, ⟨27, _⟩ => ⟨S256x2048, .f32⟩
  | .local _ .vmem, ⟨28, _⟩ => ⟨S256x2048, .f32⟩
  | .local _ .vmem, ⟨29, _⟩ => ⟨S256x2048, .f32⟩
  | .local _ .vmem, ⟨30, _⟩ => ⟨S256x2048, .f32⟩
  | .local _ .vmem, ⟨31, _⟩ => ⟨S256x2048, .f32⟩
  | .local _ .vmem, ⟨32, _⟩ => ⟨S256x2048, .f32⟩
  | .local _ .vmem, ⟨33, _⟩ => ⟨S256x2048, .f32⟩
  | .local _ .vmem, ⟨34, _⟩ => ⟨S256x2048, .f32⟩
  | .local _ .vmem, ⟨35, _⟩ => ⟨S256x2048, .f32⟩
  | .local _ .vmem, ⟨36, _⟩ => ⟨S512x2048, .f32⟩
  | .local _ .vmem, ⟨37, _⟩ => ⟨S512x2048, .f32⟩
  | .local _ .vmem, ⟨38, _⟩ => ⟨S512x2048, .f32⟩
  | .local _ .vmem, ⟨39, _⟩ => ⟨S512x2048, .f32⟩
  | .local _ .vmem, ⟨40, _⟩ => ⟨S256x2048, .f32⟩
  | .local _ .vmem, ⟨41, _⟩ => ⟨S256x2048, .f32⟩
  | .local _ .vmem, ⟨42, _⟩ => ⟨S256x2048, .f32⟩
  | .local _ .vmem, ⟨43, _⟩ => ⟨S256x2048, .f32⟩
  | .local _ .vmem, ⟨44, _⟩ => ⟨S256x2048, .f32⟩
  | .local _ .vmem, ⟨45, _⟩ => ⟨S256x2048, .f32⟩
  | .local _ .vmem, ⟨46, _⟩ => ⟨S1x256, .f32⟩
  | .local _ .vmem, ⟨47, _⟩ => ⟨S1x256, .f32⟩
  | .local _ .vmem, ⟨48, _⟩ => ⟨S1x256, .f32⟩
  | .local _ .vmem, ⟨49, _⟩ => ⟨S1x256, .f32⟩
  | .local _ .vmem, ⟨50, _⟩ => ⟨S512x256, .f32⟩
  | .local _ .vmem, ⟨51, _⟩ => ⟨S512x256, .f32⟩
  | .local _ .vmem, ⟨52, _⟩ => ⟨S512x256, .f32⟩
  | .local _ .vmem, ⟨53, _⟩ => ⟨S512x256, .f32⟩
  | .local _ .vmem, ⟨54, _⟩ => ⟨S256x2048, .f32⟩
  | .local _ .vmem, ⟨55, _⟩ => ⟨S256x2048, .f32⟩
  | .local _ .vmem, ⟨56, _⟩ => ⟨S256x2048, .f32⟩
  | .local _ .vmem, ⟨57, _⟩ => ⟨S256x2048, .f32⟩
  | .local _ .vmem, ⟨58, _⟩ => ⟨S256x2048, .f32⟩
  | .local _ .vmem, ⟨59, _⟩ => ⟨S256x2048, .f32⟩
  | .local _ .vmem, ⟨60, _⟩ => ⟨S256x2048, .f32⟩
  | .local _ .vmem, ⟨61, _⟩ => ⟨S256x2048, .f32⟩
  | .local _ .vmem, ⟨62, _⟩ => ⟨S256x2048, .f32⟩
  | .local _ .vmem, ⟨63, _⟩ => ⟨S256x2048, .f32⟩
  | .local _ .vmem, ⟨64, _⟩ => ⟨S256x2048, .f32⟩
  | .local _ .vmem, ⟨65, _⟩ => ⟨S256x2048, .f32⟩
  | .local _ .vmem, ⟨66, _⟩ => ⟨S512x2048, .f32⟩
  | .local _ .vmem, ⟨67, _⟩ => ⟨S512x2048, .f32⟩
  | .local _ .vmem, ⟨68, _⟩ => ⟨S512x2048, .f32⟩
  | .local _ .vmem, ⟨69, _⟩ => ⟨S512x2048, .f32⟩
  | .local _ .vmem, ⟨70, _⟩ => ⟨S256x2048, .f32⟩
  | .local _ .vmem, ⟨71, _⟩ => ⟨S256x2048, .f32⟩
  | .local _ .vmem, ⟨72, _⟩ => ⟨S256x2048, .f32⟩
  | .local _ .vmem, ⟨73, _⟩ => ⟨S256x2048, .f32⟩
  | .local _ .vmem, ⟨74, _⟩ => ⟨S256x2048, .f32⟩
  | .local _ .vmem, ⟨75, _⟩ => ⟨S256x2048, .f32⟩
  | .local _ .vmem, ⟨76, _⟩ => ⟨S1x256, .f32⟩
  | .local _ .vmem, ⟨77, _⟩ => ⟨S1x256, .f32⟩
  | .local _ .vmem, ⟨78, _⟩ => ⟨S1x256, .f32⟩
  | .local _ .vmem, ⟨79, _⟩ => ⟨S1x256, .f32⟩
  | .local _ .vmem, ⟨80, _⟩ => ⟨S512x256, .f32⟩
  | .local _ .vmem, ⟨81, _⟩ => ⟨S512x256, .f32⟩
  | .local _ .vmem, ⟨82, _⟩ => ⟨S512x256, .f32⟩
  | .local _ .vmem, ⟨83, _⟩ => ⟨S512x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_cst : Ref sig .tc := ⟨.hbm, 27, rfl⟩
abbrev main_v2 : Ref sig .tc := ⟨.hbm, 28, rfl⟩
abbrev main_v3 : Ref sig .tc := ⟨.hbm, 29, rfl⟩
abbrev main_cst_0 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15_0 : Ref sig .tc := ⟨.hbm, 42, rfl⟩
abbrev main_v15_1 : Ref sig .tc := ⟨.hbm, 43, rfl⟩
abbrev main_v16 : Ref sig .tc := ⟨.hbm, 44, rfl⟩
abbrev main_v17 : Ref sig .tc := ⟨.hbm, 45, rfl⟩
abbrev main_cst_1 : Ref sig .tc := ⟨.hbm, 46, rfl⟩
abbrev main_v18 : Ref sig .tc := ⟨.hbm, 47, rfl⟩
abbrev main_v19 : Ref sig .tc := ⟨.hbm, 48, rfl⟩
abbrev main_cst_2 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28_0 : Ref sig .tc := ⟨.hbm, 58, rfl⟩
abbrev main_v28_1 : Ref sig .tc := ⟨.hbm, 59, rfl⟩
abbrev main_v29 : Ref sig .tc := ⟨.hbm, 60, rfl⟩
abbrev main_v30 : Ref sig .tc := ⟨.hbm, 61, rfl⟩
abbrev main_v31_0 : Ref sig .tc := ⟨.hbm, 62, rfl⟩
abbrev main_v31_1 : Ref sig .tc := ⟨.hbm, 63, rfl⟩
abbrev main_v32 : Ref sig .tc := ⟨.hbm, 64, rfl⟩
abbrev main_v33 : Ref sig .tc := ⟨.hbm, 65, rfl⟩
abbrev main_cst_3 : Ref sig .tc := ⟨.hbm, 66, rfl⟩
abbrev main_v34 : Ref sig .tc := ⟨.hbm, 67, rfl⟩
abbrev main_v35 : Ref sig .tc := ⟨.hbm, 68, rfl⟩
abbrev main_cst_4 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44_0 : Ref sig .tc := ⟨.hbm, 78, rfl⟩
abbrev main_v44_1 : Ref sig .tc := ⟨.hbm, 79, rfl⟩
abbrev main_v45 : Ref sig .tc := ⟨.hbm, 80, rfl⟩
abbrev main_v46 : Ref sig .tc := ⟨.hbm, 81, rfl⟩
abbrev main_v47_0 : Ref sig .tc := ⟨.hbm, 82, rfl⟩
abbrev main_v47_1 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg4_1 : Ref sig .tc := ⟨.vmem, 33, rfl⟩
abbrev cc2_stg5_0 : Ref sig .tc := ⟨.vmem, 34, rfl⟩
abbrev cc2_stg5_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg3_1 : Ref sig .tc := ⟨.vmem, 43, rfl⟩
abbrev cc3_stg4_0 : Ref sig .tc := ⟨.vmem, 44, rfl⟩
abbrev cc3_stg4_1 : Ref sig .tc := ⟨.vmem, 45, rfl⟩
abbrev cc3_stg5_0 : Ref sig .tc := ⟨.vmem, 46, rfl⟩
abbrev cc3_stg5_1 : Ref sig .tc := ⟨.vmem, 47, rfl⟩
abbrev cc3_stg6_0 : Ref sig .tc := ⟨.vmem, 48, rfl⟩
abbrev cc3_stg6_1 : Ref sig .tc := ⟨.vmem, 49, rfl⟩
abbrev cc3_stg7_0 : Ref sig .tc := ⟨.vmem, 50, rfl⟩
abbrev cc3_stg7_1 : Ref sig .tc := ⟨.vmem, 51, rfl⟩
abbrev cc3_stg8_0 : Ref sig .tc := ⟨.vmem, 52, rfl⟩
abbrev cc3_stg8_1 : Ref sig .tc := ⟨.vmem, 53, rfl⟩
abbrev cc4_stg0_0 : Ref sig .tc := ⟨.vmem, 54, rfl⟩
abbrev cc4_stg0_1 : Ref sig .tc := ⟨.vmem, 55, rfl⟩
abbrev cc4_stg1_0 : Ref sig .tc := ⟨.vmem, 56, rfl⟩
abbrev cc4_stg1_1 : Ref sig .tc := ⟨.vmem, 57, rfl⟩
abbrev cc4_stg2_0 : Ref sig .tc := ⟨.vmem, 58, rfl⟩
abbrev cc4_stg2_1 : Ref sig .tc := ⟨.vmem, 59, rfl⟩
abbrev cc4_stg3_0 : Ref sig .tc := ⟨.vmem, 60, rfl⟩
abbrev cc4_stg3_1 : Ref sig .tc := ⟨.vmem, 61, rfl⟩
abbrev cc4_stg4_0 : Ref sig .tc := ⟨.vmem, 62, rfl⟩
abbrev cc4_stg4_1 : Ref sig .tc := ⟨.vmem, 63, rfl⟩
abbrev cc4_stg5_0 : Ref sig .tc := ⟨.vmem, 64, rfl⟩
abbrev cc4_stg5_1 : Ref sig .tc := ⟨.vmem, 65, rfl⟩
abbrev cc5_stg0_0 : Ref sig .tc := ⟨.vmem, 66, rfl⟩
abbrev cc5_stg0_1 : Ref sig .tc := ⟨.vmem, 67, rfl⟩
abbrev cc5_stg1_0 : Ref sig .tc := ⟨.vmem, 68, rfl⟩
abbrev cc5_stg1_1 : Ref sig .tc := ⟨.vmem, 69, rfl⟩
abbrev cc5_stg2_0 : Ref sig .tc := ⟨.vmem, 70, rfl⟩
abbrev cc5_stg2_1 : Ref sig .tc := ⟨.vmem, 71, rfl⟩
abbrev cc5_stg3_0 : Ref sig .tc := ⟨.vmem, 72, rfl⟩
abbrev cc5_stg3_1 : Ref sig .tc := ⟨.vmem, 73, rfl⟩
abbrev cc5_stg4_0 : Ref sig .tc := ⟨.vmem, 74, rfl⟩
abbrev cc5_stg4_1 : Ref sig .tc := ⟨.vmem, 75, rfl⟩
abbrev cc5_stg5_0 : Ref sig .tc := ⟨.vmem, 76, rfl⟩
abbrev cc5_stg5_1 : Ref sig .tc := ⟨.vmem, 77, rfl⟩
abbrev cc5_stg6_0 : Ref sig .tc := ⟨.vmem, 78, rfl⟩
abbrev cc5_stg6_1 : Ref sig .tc := ⟨.vmem, 79, rfl⟩
abbrev cc5_stg7_0 : Ref sig .tc := ⟨.vmem, 80, rfl⟩
abbrev cc5_stg7_1 : Ref sig .tc := ⟨.vmem, 81, rfl⟩
abbrev cc5_stg8_0 : Ref sig .tc := ⟨.vmem, 82, rfl⟩
abbrev cc5_stg8_1 : Ref sig .tc := ⟨.vmem, 83, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem4_1 : DmaSem sig := 33
abbrev cc2_sem5_0 : DmaSem sig := 34
abbrev cc2_sem5_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem3_1 : DmaSem sig := 43
abbrev cc3_sem4_0 : DmaSem sig := 44
abbrev cc3_sem4_1 : DmaSem sig := 45
abbrev cc3_sem5_0 : DmaSem sig := 46
abbrev cc3_sem5_1 : DmaSem sig := 47
abbrev cc3_sem6_0 : DmaSem sig := 48
abbrev cc3_sem6_1 : DmaSem sig := 49
abbrev cc3_sem7_0 : DmaSem sig := 50
abbrev cc3_sem7_1 : DmaSem sig := 51
abbrev cc3_sem8_0 : DmaSem sig := 52
abbrev cc3_sem8_1 : DmaSem sig := 53
abbrev cc4_sem0_0 : DmaSem sig := 54
abbrev cc4_sem0_1 : DmaSem sig := 55
abbrev cc4_sem1_0 : DmaSem sig := 56
abbrev cc4_sem1_1 : DmaSem sig := 57
abbrev cc4_sem2_0 : DmaSem sig := 58
abbrev cc4_sem2_1 : DmaSem sig := 59
abbrev cc4_sem3_0 : DmaSem sig := 60
abbrev cc4_sem3_1 : DmaSem sig := 61
abbrev cc4_sem4_0 : DmaSem sig := 62
abbrev cc4_sem4_1 : DmaSem sig := 63
abbrev cc4_sem5_0 : DmaSem sig := 64
abbrev cc4_sem5_1 : DmaSem sig := 65
abbrev cc5_sem0_0 : DmaSem sig := 66
abbrev cc5_sem0_1 : DmaSem sig := 67
abbrev cc5_sem1_0 : DmaSem sig := 68
abbrev cc5_sem1_1 : DmaSem sig := 69
abbrev cc5_sem2_0 : DmaSem sig := 70
abbrev cc5_sem2_1 : DmaSem sig := 71
abbrev cc5_sem3_0 : DmaSem sig := 72
abbrev cc5_sem3_1 : DmaSem sig := 73
abbrev cc5_sem4_0 : DmaSem sig := 74
abbrev cc5_sem4_1 : DmaSem sig := 75
abbrev cc5_sem5_0 : DmaSem sig := 76
abbrev cc5_sem5_1 : DmaSem sig := 77
abbrev cc5_sem6_0 : DmaSem sig := 78
abbrev cc5_sem6_1 : DmaSem sig := 79
abbrev cc5_sem7_0 : DmaSem sig := 80
abbrev cc5_sem7_1 : DmaSem sig := 81
abbrev cc5_sem8_0 : DmaSem sig := 82
abbrev cc5_sem8_1 : DmaSem sig := 83

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S512x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨2, ![4, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S512x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S256x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S256x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S256x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![false, true]

abbrev stage3_5 : Fin 2 → Memref sig .tc .vmem S1x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![false, true]

abbrev stage3_6 : Fin 2 → Memref sig .tc .vmem S1x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![false, true]

abbrev stage3_7 : Fin 2 → Memref sig .tc .vmem S512x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev stage3_8 : Fin 2 → Memref sig .tc .vmem S512x256 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x2048 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S256x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S256x2048 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S256x2048 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S256x2048 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨2, ![4, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_6 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_7 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_8 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S512x2048 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S512x2048 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S256x2048 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true]

abbrev stage5_3 : Fin 2 → Memref sig .tc .vmem S256x2048 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![false, true]

abbrev stage5_4 : Fin 2 → Memref sig .tc .vmem S256x2048 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![false, true]

abbrev stage5_5 : Fin 2 → Memref sig .tc .vmem S1x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![false, true]

abbrev stage5_6 : Fin 2 → Memref sig .tc .vmem S1x256 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![false, true]

abbrev stage5_7 : Fin 2 → Memref sig .tc .vmem S512x256 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true, true]

abbrev stage5_8 : Fin 2 → Memref sig .tc .vmem S512x256 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true, true]

class Facts₀ : Prop where
  bcast_S_S2048 : S_.BroadcastsInDim S2048 (![] : Fin 0 → Fin S2048.rank)
  inb_S256x1024_S256x1024_0_0 : ∀ a, (![0, 0] : Fin 2 → Nat) a + S256x1024.size a ≤ S256x1024.size a
  h_S256x1024 : 0 < S256x1024.numel
  shapeCasts_S2048_S1x2048 : S2048.ShapeCasts S1x2048
  inb_S512x1024_S512x1024_0_0 : ∀ a, (![0, 0] : Fin 2 → Nat) a + S512x1024.size a ≤ S512x1024.size a
  h_S512x1024 : 0 < S512x1024.numel
  shapeCasts_S256x1024_S256x1024 : S256x1024.ShapeCasts S256x1024
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  inb_S256x2048_S256x2048_0_0 : ∀ a, (![0, 0] : Fin 2 → Nat) a + S256x2048.size a ≤ S256x2048.size a
  h_S256x2048 : 0 < S256x2048.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  shapeCasts_S256x2048_S256x2048 : S256x2048.ShapeCasts S256x2048
  bcast_S_S1024 : S_.BroadcastsInDim S1024 (![] : Fin 0 → Fin S1024.rank)
  shapeCasts_S1024_S1x1024 : S1024.ShapeCasts S1x1024
  bcast_S2048x1024_S2048x1024x1_0_1 : S2048x1024.BroadcastsInDim S2048x1024x1 (![0, 1] : Fin 2 → Fin S2048x1024x1.rank)
  concatenates_S2048x1024x1_S2048x1024x1_S2048x1024x2_d2 : Shape.Concatenates [S2048x1024x1, S2048x1024x1] S2048x1024x2 2
  dot_S512x1024_S256x1024_S512x256_1_1_0_0_n_n_wf : DotDims.WF S512x1024 S256x1024 S512x256 [1] [1] [0] [0] [] []
  dot_S512x2048_S256x2048_S512x256_1_1_0_0_n_n_wf : DotDims.WF S512x2048 S256x2048 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S2048x1024.size a
  hwx0_0 : ∀ i : grid0.Coords, EltTy.bits .f32 = 32 ∨ (Rect.block (s := S2048x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S2048x1024.size a
  hwx0_1 : ∀ i : grid0.Coords, EltTy.bits .f32 = 32 ∨ (Rect.block (s := S2048x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S2048x1024.size a
  hwx0_2 : ∀ i : grid0.Coords, EltTy.bits .f32 = 32 ∨ (Rect.block (s := S2048x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S2048x1024.size a
  hwx0_3 : ∀ i : grid0.Coords, EltTy.bits .f32 = 32 ∨ (Rect.block (s := S2048x1024) S256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S2048x1024.size a
  hwx0_4 : ∀ i : grid0.Coords, EltTy.bits .f32 = 32 ∨ (Rect.block (s := S2048x1024) S256x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S2048x1024.size a
  hwx1_0 : ∀ i : grid1.Coords, EltTy.bits .f32 = 32 ∨ (Rect.block (s := S2048x1024) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S2048x1024.size a
  hwx1_1 : ∀ i : grid1.Coords, EltTy.bits .f32 = 32 ∨ (Rect.block (s := S2048x1024) S256x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S2048x1024.size a
  hwx1_2 : ∀ i : grid1.Coords, EltTy.bits .f32 = 32 ∨ (Rect.block (s := S2048x1024) S256x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x2048.size a
  hwx1_3 : ∀ i : grid1.Coords, EltTy.bits .f32 = 32 ∨ (Rect.block (s := S1x2048) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x2048.size a
  hwx1_4 : ∀ i : grid1.Coords, EltTy.bits .f32 = 32 ∨ (Rect.block (s := S1x2048) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x256.size a ≤ S2048x2048.size a
  hwx1_5 : ∀ i : grid1.Coords, EltTy.bits .f32 = 32 ∨ (Rect.block (s := S2048x2048) S512x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x256.size a ≤ S2048x2048.size a
  hwx1_6 : ∀ i : grid1.Coords, EltTy.bits .f32 = 32 ∨ (Rect.block (s := S2048x2048) S512x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x2048.size a ≤ S2048x2048.size a
  hwx2_0 : ∀ i : grid2.Coords, EltTy.bits .f32 = 32 ∨ (Rect.block (s := S2048x2048) S256x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x2048.size a ≤ S2048x2048.size a
  hwx2_1 : ∀ i : grid2.Coords, EltTy.bits .f32 = 32 ∨ (Rect.block (s := S2048x2048) S256x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x2048.size a ≤ S2048x2048.size a
  hwx2_2 : ∀ i : grid2.Coords, EltTy.bits .f32 = 32 ∨ (Rect.block (s := S2048x2048) S256x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x2048.size a ≤ S2048x2048.size a
  hwx2_3 : ∀ i : grid2.Coords, EltTy.bits .f32 = 32 ∨ (Rect.block (s := S2048x2048) S256x2048.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S256x2048.size a ≤ S2048x2048.size a
  hwx2_4 : ∀ i : grid2.Coords, EltTy.bits .f32 = 32 ∨ (Rect.block (s := S2048x2048) S256x2048.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S256x2048.size a ≤ S2048x2048.size a
  hwx2_5 : ∀ i : grid2.Coords, EltTy.bits .f32 = 32 ∨ (Rect.block (s := S2048x2048) S256x2048.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x2048.size a ≤ S2048x2048.size a
  hwx3_0 : ∀ i : grid3.Coords, EltTy.bits .f32 = 32 ∨ (Rect.block (s := S2048x2048) S512x2048.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x2048.size a ≤ S2048x2048.size a
  hwx3_1 : ∀ i : grid3.Coords, EltTy.bits .f32 = 32 ∨ (Rect.block (s := S2048x2048) S512x2048.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x2048.size a ≤ S2048x2048.size a
  hwx3_2 : ∀ i : grid3.Coords, EltTy.bits .f32 = 32 ∨ (Rect.block (s := S2048x2048) S256x2048.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x2048.size a ≤ S2048x2048.size a
  hwx3_3 : ∀ i : grid3.Coords, EltTy.bits .f32 = 32 ∨ (Rect.block (s := S2048x2048) S256x2048.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S256x2048.size a ≤ S2048x2048.size a
  hwx3_4 : ∀ i : grid3.Coords, EltTy.bits .f32 = 32 ∨ (Rect.block (s := S2048x2048) S256x2048.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x2048.size a
  hwx3_5 : ∀ i : grid3.Coords, EltTy.bits .f32 = 32 ∨ (Rect.block (s := S1x2048) S1x256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x2048.size a
  hwx3_6 : ∀ i : grid3.Coords, EltTy.bits .f32 = 32 ∨ (Rect.block (s := S1x2048) S1x256.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S512x256.size a ≤ S2048x2048.size a
  hwx3_7 : ∀ i : grid3.Coords, EltTy.bits .f32 = 32 ∨ (Rect.block (s := S2048x2048) S512x256.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S512x256.size a ≤ S2048x2048.size a
  hwx3_8 : ∀ i : grid3.Coords, EltTy.bits .f32 = 32 ∨ (Rect.block (s := S2048x2048) S512x256.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x2048.size a ≤ S1024x2048.size a
  hwx4_0 : ∀ i : grid4.Coords, EltTy.bits .f32 = 32 ∨ (Rect.block (s := S1024x2048) S256x2048.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S256x2048.size a ≤ S1024x2048.size a
  hwx4_1 : ∀ i : grid4.Coords, EltTy.bits .f32 = 32 ∨ (Rect.block (s := S1024x2048) S256x2048.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S256x2048.size a ≤ S1024x2048.size a
  hwx4_2 : ∀ i : grid4.Coords, EltTy.bits .f32 = 32 ∨ (Rect.block (s := S1024x2048) S256x2048.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S256x2048.size a ≤ S1024x2048.size a
  hwx4_3 : ∀ i : grid4.Coords, EltTy.bits .f32 = 32 ∨ (Rect.block (s := S1024x2048) S256x2048.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S256x2048.size a ≤ S1024x2048.size a
  hwx4_4 : ∀ i : grid4.Coords, EltTy.bits .f32 = 32 ∨ (Rect.block (s := S1024x2048) S256x2048.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S256x2048.size a ≤ S1024x2048.size a
  hwx4_5 : ∀ i : grid4.Coords, EltTy.bits .f32 = 32 ∨ (Rect.block (s := S1024x2048) S256x2048.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x2048.size a ≤ S2048x2048.size a
  hwx5_0 : ∀ i : grid5.Coords, EltTy.bits .f32 = 32 ∨ (Rect.block (s := S2048x2048) S512x2048.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S512x2048.size a ≤ S2048x2048.size a
  hwx5_1 : ∀ i : grid5.Coords, EltTy.bits .f32 = 32 ∨ (Rect.block (s := S2048x2048) S512x2048.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S256x2048.size a ≤ S1024x2048.size a
  hwx5_2 : ∀ i : grid5.Coords, EltTy.bits .f32 = 32 ∨ (Rect.block (s := S1024x2048) S256x2048.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S256x2048.size a ≤ S1024x2048.size a
  hwx5_3 : ∀ i : grid5.Coords, EltTy.bits .f32 = 32 ∨ (Rect.block (s := S1024x2048) S256x2048.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S256x2048.size a ≤ S1024x2048.size a
  hwx5_4 : ∀ i : grid5.Coords, EltTy.bits .f32 = 32 ∨ (Rect.block (s := S1024x2048) S256x2048.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1x256.size a ≤ S1x1024.size a
  hwx5_5 : ∀ i : grid5.Coords, EltTy.bits .f32 = 32 ∨ (Rect.block (s := S1x1024) S1x256.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S1x256.size a ≤ S1x1024.size a
  hwx5_6 : ∀ i : grid5.Coords, EltTy.bits .f32 = 32 ∨ (Rect.block (s := S1x1024) S1x256.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S512x256.size a ≤ S2048x1024.size a
  hwx5_7 : ∀ i : grid5.Coords, EltTy.bits .f32 = 32 ∨ (Rect.block (s := S2048x1024) S512x256.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S512x256.size a ≤ S2048x1024.size a
  hwx5_8 : ∀ i : grid5.Coords, EltTy.bits .f32 = 32 ∨ (Rect.block (s := S2048x1024) S512x256.size (cc5_transform_8 i) (hinb5_8 i)).WholeWords (EltTy.packing .f32)

variable [Facts₀]

def dot_S512x1024_S256x1024_S512x256_1_1_0_0_n_n : DotDims S512x1024 S256x1024 S512x256 where
  lhsContracting := [1]
  rhsContracting := [1]
  lhsNonContracting := [0]
  rhsNonContracting := [0]
  lhsBatch := []
  rhsBatch := []
  wf := dot_S512x1024_S256x1024_S512x256_1_1_0_0_n_n_wf
def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf

abbrev win0_0 : Pipeline.Window sig grid0 :=
  Pipeline.Window.ofSpec (Memref.whole main_arg1) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S256x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v15_0) S512x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v15_1) S512x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg9) S256x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S256x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg13) S256x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg15) S256x2048.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v28_0) S256x2048.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v28_1) S256x2048.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v15_0) S512x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15_1) S512x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S256x2048.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v28_0) S256x2048.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v28_1) S256x2048.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v29) S1x256.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v30) S1x256.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v31_0) S512x256.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v31_1) S512x256.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_arg17) S256x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg19) S256x2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg21) S256x2048.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg23) S256x2048.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v44_0) S256x2048.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v44_1) S256x2048.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v31_0) S512x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v31_1) S512x2048.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg17) S256x2048.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v44_0) S256x2048.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v44_1) S256x2048.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v45) S1x256.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v46) S1x256.size cc5_transform_6 reads5_6 false false 2 stage5_6 sem5_6
    hrank5 hreads5_6 hinb5_6 nbuf5_6 (Memref.isWhole_whole _) hwx5_6 hstage5_6

abbrev win5_7 : Pipeline.Window sig grid5 :=
  Pipeline.Window.ofSpec (Memref.whole main_v47_0) S512x256.size cc5_transform_7 reads5_7 true false 2 stage5_7 sem5_7
    hrank5 hreads5_7 hinb5_7 nbuf5_7 (Memref.isWhole_whole _) hwx5_7 hstage5_7

abbrev win5_8 : Pipeline.Window sig grid5 :=
  Pipeline.Window.ofSpec (Memref.whole main_v47_1) S512x256.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

class Facts : Prop extends Facts₀ where

variable [Facts]
-- ==== ReferenceIdeal.lean ====
abbrev S2048x1024 : Shape := ⟨2, ![2048, 1024]⟩
abbrev S2048 : Shape := ⟨1, ![2048]⟩
abbrev S2048x2048 : Shape := ⟨2, ![2048, 2048]⟩
abbrev S1024x2048 : Shape := ⟨2, ![1024, 2048]⟩
abbrev S1024 : Shape := ⟨1, ![1024]⟩
abbrev S_ : Shape := ⟨0, ![]⟩
abbrev S1x2048 : Shape := ⟨2, ![1, 2048]⟩
abbrev S1x1024 : Shape := ⟨2, ![1, 1024]⟩
abbrev S2048x1024x1 : Shape := ⟨3, ![2048, 1024, 1]⟩
abbrev S2048x1024x2 : Shape := ⟨3, ![2048, 1024, 2]⟩

abbrev nBuf : Space → Nat
  | .hbm => 235
  | .vmem => 0
  | .smem => 0
  | _ => 0

abbrev hbmTy0_0 (i : Nat) : BufTy := match i % 128 with
  | 0 => ⟨S2048x1024, .f32⟩
  | 1 => ⟨S2048x1024, .f32⟩
  | 2 => ⟨S2048, .f32⟩
  | 3 => ⟨S2048x1024, .f32⟩
  | 4 => ⟨S2048, .f32⟩
  | 5 => ⟨S2048x1024, .f32⟩
  | 6 => ⟨S2048, .f32⟩
  | 7 => ⟨S2048x1024, .f32⟩
  | 8 => ⟨S2048, .f32⟩
  | 9 => ⟨S2048x2048, .f32⟩
  | 10 => ⟨S2048, .f32⟩
  | 11 => ⟨S2048x2048, .f32⟩
  | 12 => ⟨S2048, .f32⟩
  | 13 => ⟨S2048x2048, .f32⟩
  | 14 => ⟨S2048, .f32⟩
  | 15 => ⟨S2048x2048, .f32⟩
  | 16 => ⟨S2048, .f32⟩
  | 17 => ⟨S1024x2048, .f32⟩
  | 18 => ⟨S1024, .f32⟩
  | 19 => ⟨S1024x2048, .f32⟩
  | 20 => ⟨S1024, .f32⟩
  | 21 => ⟨S1024x2048, .f32⟩
  | 22 => ⟨S1024, .f32⟩
  | 23 => ⟨S1024x2048, .f32⟩
  | 24 => ⟨S1024, .f32⟩
  | 25 => ⟨S2048x1024, .f32⟩
  | 26 => ⟨S2048x1024, .f32⟩
  | 27 => ⟨S2048x1024, .f32⟩
  | 28 => ⟨S2048x1024, .f32⟩
  | 29 => ⟨S2048x1024, .f32⟩
  | 30 => ⟨S2048x1024, .f32⟩
  | 31 => ⟨S2048x1024, .f32⟩
  | 32 => ⟨S_, .f32⟩
  | 33 => ⟨S2048x1024, .f32⟩
  | 34 => ⟨S2048x1024, .f32⟩
  | 35 => ⟨S_, .f32⟩
  | 36 => ⟨S2048x1024, .f32⟩
  | 37 => ⟨S2048x1024, .f32⟩
  | 38 => ⟨S2048x1024, .f32⟩
  | 39 => ⟨S2048, .f32⟩
  | 40 => ⟨S2048, .f32⟩
  | 41 => ⟨S2048, .f32⟩
  | 42 => ⟨S2048, .f32⟩
  | 43 => ⟨S2048, .f32⟩
  | 44 => ⟨S2048, .f32⟩
  | 45 => ⟨S2048, .f32⟩
  | 46 => ⟨S_, .f32⟩
  | 47 => ⟨S2048, .f32⟩
  | 48 => ⟨S2048, .f32⟩
  | 49 => ⟨S_, .f32⟩
  | 50 => ⟨S2048, .f32⟩
  | 51 => ⟨S2048, .f32⟩
  | 52 => ⟨S2048, .f32⟩
  | 53 => ⟨S2048x1024, .f32⟩
  | 54 => ⟨S2048x1024, .f32⟩
  | 55 => ⟨S1024x2048, .f32⟩
  | 56 => ⟨S1024x2048, .f32⟩
  | 57 => ⟨S2048x1024, .f32⟩
  | 58 => ⟨S_, .f32⟩
  | 59 => ⟨S2048x1024, .f32⟩
  | 60 => ⟨S2048x1024, .f32⟩
  | 61 => ⟨S2048x1024, .f32⟩
  | 62 => ⟨S_, .f32⟩
  | 63 => ⟨S2048x1024, .f32⟩
  | 64 => ⟨S2048x1024, .f32⟩
  | 65 => ⟨S1024x2048, .f32⟩
  | 66 => ⟨S_, .f32⟩
  | 67 => ⟨S1024x2048, .f32⟩
  | 68 => ⟨S1024x2048, .f32⟩
  | 69 => ⟨S1024x2048, .f32⟩
  | 70 => ⟨S_, .f32⟩
  | 71 => ⟨S1024x2048, .f32⟩
  | 72 => ⟨S1024x2048, .f32⟩
  | 73 => ⟨S2048x2048, .f32⟩
  | 74 => ⟨S2048x1024, .f32⟩
  | 75 => ⟨S2048x2048, .f32⟩
  | 76 => ⟨S1024x2048, .f32⟩
  | 77 => ⟨S1024x2048, .f32⟩
  | 78 => ⟨S2048x2048, .f32⟩
  | 79 => ⟨S2048x2048, .f32⟩
  | 80 => ⟨S2048x2048, .f32⟩
  | 81 => ⟨S2048x2048, .f32⟩
  | 82 => ⟨S2048, .f32⟩
  | 83 => ⟨S1x2048, .f32⟩
  | 84 => ⟨S2048x2048, .f32⟩
  | 85 => ⟨S2048x2048, .f32⟩
  | 86 => ⟨S2048, .f32⟩
  | 87 => ⟨S1x2048, .f32⟩
  | 88 => ⟨S2048x2048, .f32⟩
  | 89 => ⟨S2048x2048, .f32⟩
  | 90 => ⟨S_, .f32⟩
  | 91 => ⟨S2048x2048, .f32⟩
  | 92 => ⟨S2048x2048, .f32⟩
  | 93 => ⟨S_, .f32⟩
  | 94 => ⟨S2048x2048, .f32⟩
  | 95 => ⟨S2048x2048, .f32⟩
  | 96 => ⟨S2048x2048, .f32⟩
  | 97 => ⟨S2048x2048, .f32⟩
  | 98 => ⟨S2048x2048, .f32⟩
  | 99 => ⟨S2048x2048, .f32⟩
  | 100 => ⟨S2048x2048, .f32⟩
  | 101 => ⟨S2048x2048, .f32⟩
  | 102 => ⟨S2048x2048, .f32⟩
  | 103 => ⟨S_, .f32⟩
  | 104 => ⟨S2048x2048, .f32⟩
  | 105 => ⟨S2048x2048, .f32⟩
  | 106 => ⟨S_, .f32⟩
  | 107 => ⟨S2048x2048, .f32⟩
  | 108 => ⟨S2048x2048, .f32⟩
  | 109 => ⟨S2048x2048, .f32⟩
  | 110 => ⟨S2048, .f32⟩
  | 111 => ⟨S2048, .f32⟩
  | 112 => ⟨S2048, .f32⟩
  | 113 => ⟨S2048, .f32⟩
  | 114 => ⟨S2048, .f32⟩
  | 115 => ⟨S2048, .f32⟩
  | 116 => ⟨S2048, .f32⟩
  | 117 => ⟨S_, .f32⟩
  | 118 => ⟨S2048, .f32⟩
  | 119 => ⟨S2048, .f32⟩
  | 120 => ⟨S_, .f32⟩
  | 121 => ⟨S2048, .f32⟩
  | 122 => ⟨S2048, .f32⟩
  | 123 => ⟨S2048, .f32⟩
  | 124 => ⟨S2048x2048, .f32⟩
  | 125 => ⟨S2048x2048, .f32⟩
  | 126 => ⟨S2048x2048, .f32⟩
  | 127 => ⟨S2048x2048, .f32⟩
  | _ => ⟨S2048x1024, .f32⟩

abbrev hbmTy0_1 (i : Nat) : BufTy := match i % 128 with
  | 0 => ⟨S2048x2048, .f32⟩
  | 1 => ⟨S_, .f32⟩
  | 2 => ⟨S2048x2048, .f32⟩
  | 3 => ⟨S2048x2048, .f32⟩
  | 4 => ⟨S2048x2048, .f32⟩
  | 5 => ⟨S_, .f32⟩
  | 6 => ⟨S2048x2048, .f32⟩
  | 7 => ⟨S2048x2048, .f32⟩
  | 8 => ⟨S2048x2048, .f32⟩
  | 9 => ⟨S_, .f32⟩
  | 10 => ⟨S2048x2048, .f32⟩
  | 11 => ⟨S2048x2048, .f32⟩
  | 12 => ⟨S2048x2048, .f32⟩
  | 13 => ⟨S_, .f32⟩
  | 14 => ⟨S2048x2048, .f32⟩
  | 15 => ⟨S2048x2048, .f32⟩
  | 16 => ⟨S2048x2048, .f32⟩
  | 17 => ⟨S2048x2048, .f32⟩
  | 18 => ⟨S2048x2048, .f32⟩
  | 19 => ⟨S2048x2048, .f32⟩
  | 20 => ⟨S2048x2048, .f32⟩
  | 21 => ⟨S2048x2048, .f32⟩
  | 22 => ⟨S2048x2048, .f32⟩
  | 23 => ⟨S2048x2048, .f32⟩
  | 24 => ⟨S2048x2048, .f32⟩
  | 25 => ⟨S2048, .f32⟩
  | 26 => ⟨S1x2048, .f32⟩
  | 27 => ⟨S2048x2048, .f32⟩
  | 28 => ⟨S2048x2048, .f32⟩
  | 29 => ⟨S2048, .f32⟩
  | 30 => ⟨S1x2048, .f32⟩
  | 31 => ⟨S2048x2048, .f32⟩
  | 32 => ⟨S2048x2048, .f32⟩
  | 33 => ⟨S_, .f32⟩
  | 34 => ⟨S2048x2048, .f32⟩
  | 35 => ⟨S2048x2048, .f32⟩
  | 36 => ⟨S_, .f32⟩
  | 37 => ⟨S2048x2048, .f32⟩
  | 38 => ⟨S2048x2048, .f32⟩
  | 39 => ⟨S1024x2048, .f32⟩
  | 40 => ⟨S1024x2048, .f32⟩
  | 41 => ⟨S1024x2048, .f32⟩
  | 42 => ⟨S1024x2048, .f32⟩
  | 43 => ⟨S1024x2048, .f32⟩
  | 44 => ⟨S1024x2048, .f32⟩
  | 45 => ⟨S1024x2048, .f32⟩
  | 46 => ⟨S_, .f32⟩
  | 47 => ⟨S1024x2048, .f32⟩
  | 48 => ⟨S1024x2048, .f32⟩
  | 49 => ⟨S_, .f32⟩
  | 50 => ⟨S1024x2048, .f32⟩
  | 51 => ⟨S1024x2048, .f32⟩
  | 52 => ⟨S1024x2048, .f32⟩
  | 53 => ⟨S1024, .f32⟩
  | 54 => ⟨S1024, .f32⟩
  | 55 => ⟨S1024, .f32⟩
  | 56 => ⟨S1024, .f32⟩
  | 57 => ⟨S1024, .f32⟩
  | 58 => ⟨S1024, .f32⟩
  | 59 => ⟨S1024, .f32⟩
  | 60 => ⟨S_, .f32⟩
  | 61 => ⟨S1024, .f32⟩
  | 62 => ⟨S1024, .f32⟩
  | 63 => ⟨S_, .f32⟩
  | 64 => ⟨S1024, .f32⟩
  | 65 => ⟨S1024, .f32⟩
  | 66 => ⟨S1024, .f32⟩
  | 67 => ⟨S1024x2048, .f32⟩
  | 68 => ⟨S1024x2048, .f32⟩
  | 69 => ⟨S2048x1024, .f32⟩
  | 70 => ⟨S2048x1024, .f32⟩
  | 71 => ⟨S2048x2048, .f32⟩
  | 72 => ⟨S_, .f32⟩
  | 73 => ⟨S2048x2048, .f32⟩
  | 74 => ⟨S2048x2048, .f32⟩
  | 75 => ⟨S2048x2048, .f32⟩
  | 76 => ⟨S_, .f32⟩
  | 77 => ⟨S2048x2048, .f32⟩
  | 78 => ⟨S2048x2048, .f32⟩
  | 79 => ⟨S2048x1024, .f32⟩
  | 80 => ⟨S_, .f32⟩
  | 81 => ⟨S2048x1024, .f32⟩
  | 82 => ⟨S2048x1024, .f32⟩
  | 83 => ⟨S2048x1024, .f32⟩
  | 84 => ⟨S_, .f32⟩
  | 85 => ⟨S2048x1024, .f32⟩
  | 86 => ⟨S2048x1024, .f32⟩
  | 87 => ⟨S2048x1024, .f32⟩
  | 88 => ⟨S2048x2048, .f32⟩
  | 89 => ⟨S2048x1024, .f32⟩
  | 90 => ⟨S2048x1024, .f32⟩
  | 91 => ⟨S2048x1024, .f32⟩
  | 92 => ⟨S2048x1024, .f32⟩
  | 93 => ⟨S2048x1024, .f32⟩
  | 94 => ⟨S2048x1024, .f32⟩
  | 95 => ⟨S2048x1024, .f32⟩
  | 96 => ⟨S1024, .f32⟩
  | 97 => ⟨S1x1024, .f32⟩
  | 98 => ⟨S2048x1024, .f32⟩
  | 99 => ⟨S2048x1024, .f32⟩
  | 100 => ⟨S1024, .f32⟩
  | 101 => ⟨S1x1024, .f32⟩
  | 102 => ⟨S2048x1024, .f32⟩
  | 103 => ⟨S2048x1024, .f32⟩
  | 104 => ⟨S2048x1024x1, .f32⟩
  | 105 => ⟨S2048x1024x1, .f32⟩
  | 106 => ⟨S2048x1024x2, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst : Ref sig .tc := ⟨.hbm, 32, rfl⟩
abbrev main_v7 : Ref sig .tc := ⟨.hbm, 33, rfl⟩
abbrev main_v8 : Ref sig .tc := ⟨.hbm, 34, rfl⟩
abbrev main_cst_0 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_1 : Ref sig .tc := ⟨.hbm, 46, rfl⟩
abbrev main_v19 : Ref sig .tc := ⟨.hbm, 47, rfl⟩
abbrev main_v20 : Ref sig .tc := ⟨.hbm, 48, rfl⟩
abbrev main_cst_2 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_cst_3 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_4 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_5 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_cst_6 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_call0_cst : Ref sig .tc := ⟨.hbm, 90, rfl⟩
abbrev main_call0_v0 : Ref sig .tc := ⟨.hbm, 91, rfl⟩
abbrev main_v57 : Ref sig .tc := ⟨.hbm, 92, rfl⟩
abbrev main_call1_cst : Ref sig .tc := ⟨.hbm, 93, rfl⟩
abbrev main_call1_v0 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_7 : Ref sig .tc := ⟨.hbm, 103, rfl⟩
abbrev main_v66 : Ref sig .tc := ⟨.hbm, 104, rfl⟩
abbrev main_v67 : Ref sig .tc := ⟨.hbm, 105, rfl⟩
abbrev main_cst_8 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_9 : Ref sig .tc := ⟨.hbm, 117, rfl⟩
abbrev main_v78 : Ref sig .tc := ⟨.hbm, 118, rfl⟩
abbrev main_v79 : Ref sig .tc := ⟨.hbm, 119, rfl⟩
abbrev main_cst_10 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_11 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_12 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_cst_13 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_14 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_call2_cst : Ref sig .tc := ⟨.hbm, 161, rfl⟩
abbrev main_call2_v0 : Ref sig .tc := ⟨.hbm, 162, rfl⟩
abbrev main_v116 : Ref sig .tc := ⟨.hbm, 163, rfl⟩
abbrev main_call3_cst : Ref sig .tc := ⟨.hbm, 164, rfl⟩
abbrev main_call3_v0 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_cst_15 : Ref sig .tc := ⟨.hbm, 174, rfl⟩
abbrev main_v125 : Ref sig .tc := ⟨.hbm, 175, rfl⟩
abbrev main_v126 : Ref sig .tc := ⟨.hbm, 176, rfl⟩
abbrev main_cst_16 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_cst_17 : Ref sig .tc := ⟨.hbm, 188, rfl⟩
abbrev main_v137 : Ref sig .tc := ⟨.hbm, 189, rfl⟩
abbrev main_v138 : Ref sig .tc := ⟨.hbm, 190, rfl⟩
abbrev main_cst_18 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_cst_19 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_cst_20 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_cst_21 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_cst_22 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩

abbrev nD : Nat := 1
abbrev τ : Topo := Topo.v7x

variable {F : FTy → Type} [FloatOps F]

class Facts₀ : Prop where
  bcast_S_S2048x1024 : S_.BroadcastsInDim S2048x1024 (![] : Fin 0 → Fin S2048x1024.rank)
  bcast_S_S2048 : S_.BroadcastsInDim S2048 (![] : Fin 0 → Fin S2048.rank)
  transposes_S2048x1024_S1024x2048_1_0 : S2048x1024.Transposes [1, 0] S1024x2048
  bcast_S_S1024x2048 : S_.BroadcastsInDim S1024x2048 (![] : Fin 0 → Fin S1024x2048.rank)
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  bcast_S_S2048x2048 : S_.BroadcastsInDim S2048x2048 (![] : Fin 0 → Fin S2048x2048.rank)
  transposes_S2048x2048_S2048x2048_1_0 : S2048x2048.Transposes [1, 0] S2048x2048
  bcast_S_S1024 : S_.BroadcastsInDim S1024 (![] : Fin 0 → Fin S1024.rank)
  transposes_S1024x2048_S2048x1024_1_0 : S1024x2048.Transposes [1, 0] S2048x1024
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  bcast_S2048x1024_S2048x1024x1_0_1 : S2048x1024.BroadcastsInDim S2048x1024x1 (![0, 1] : Fin 2 → Fin S2048x1024x1.rank)
  concatenates_S2048x1024x1_S2048x1024x1_S2048x1024x2_d2 : Shape.Concatenates [S2048x1024x1, S2048x1024x1] S2048x1024x2 2
  dot_S2048x1024_S1024x2048_S2048x2048_1_0_0_1_n_n_wf : DotDims.WF S2048x1024 S1024x2048 S2048x2048 [1] [0] [0] [1] [] []
  dot_S2048x2048_S2048x2048_S2048x2048_1_0_0_1_n_n_wf : DotDims.WF S2048x2048 S2048x2048 S2048x2048 [1] [0] [0] [1] [] []
  dot_S2048x2048_S2048x1024_S2048x1024_1_0_0_1_n_n_wf : DotDims.WF S2048x2048 S2048x1024 S2048x1024 [1] [0] [0] [1] [] []

variable [Facts₀]

def dot_S2048x1024_S1024x2048_S2048x2048_1_0_0_1_n_n : DotDims S2048x1024 S1024x2048 S2048x2048 where
  lhsContracting := [1]
  rhsContracting := [0]
  lhsNonContracting := [0]
  rhsNonContracting := [1]
  lhsBatch := []
  rhsBatch := []
  wf := dot_S2048x1024_S1024x2048_S2048x2048_1_0_0_1_n_n_wf
def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def dot_S2048x2048_S2048x1024_S2048x1024_1_0_0_1_n_n : DotDims S2048x2048 S2048x1024 S2048x1024 where
  lhsContracting := [1]
  rhsContracting := [0]
  lhsNonContracting := [0]
  rhsNonContracting := [1]
  lhsBatch := []
  rhsBatch := []
  wf := dot_S2048x2048_S2048x1024_S2048x1024_1_0_0_1_n_n_wf

class Facts : Prop extends Facts₀ where

variable [Facts]
-- ==== Proof.KernelRun.lean ====
/-
  The idealized kernel program's run with its RESULT named.  Every weakly fair execution of @main on the
  TensorCores terminates without a fault; in every final state the returned buffer holds what the last
  boundary of the segment chain holds at it (the host stretches' composed results over the six regions'
  write-backs), and every argument array is as launched.  The chain of segments, the thread states and
  the per-boundary contents are the frame module's; only the post reads one more buffer.
-/
import proofs.«181910_j61117384622159_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library theorem's implicit arguments are found by unifying its conclusion with this statement, which
-- takes unfolding plain definitions in a metavariable's type
set_option backward.isDefEq.respectTransparency.types false in
/-- The run, the returned buffer at the last boundary's contents and the arguments kept. -/
theorem run : θ_run defs (onTc (τ := τ) (main (F := F))) ⟨m, fun _ => 0, ρ⟩ (fun r => ∀ c : Dev nD,
      r.2.mem ((c.tc : Thread nD τ).loc main_v50) = W13 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v50 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c),
       (h c _ (mem_uc main_arg15 (by decide))).trans (W13_main_arg15 m ρ c),
       (h c _ (mem_uc main_arg16 (by decide))).trans (W13_main_arg16 m ρ c),
       (h c _ (mem_uc main_arg17 (by decide))).trans (W13_main_arg17 m ρ c),
       (h c _ (mem_uc main_arg18 (by decide))).trans (W13_main_arg18 m ρ c),
       (h c _ (mem_uc main_arg19 (by decide))).trans (W13_main_arg19 m ρ c),
       (h c _ (mem_uc main_arg20 (by decide))).trans (W13_main_arg20 m ρ c),
       (h c _ (mem_uc main_arg21 (by decide))).trans (W13_main_arg21 m ρ c),
       (h c _ (mem_uc main_arg22 (by decide))).trans (W13_main_arg22 m ρ c),
       (h c _ (mem_uc main_arg23 (by decide))).trans (W13_main_arg23 m ρ c),
       (h c _ (mem_uc main_arg24 (by decide))).trans (W13_main_arg24 m ρ c)⟩)

end Cert.KernelIdeal.RunValue

end
-- ==== Proof.Back.lean ====
/-
  Reading a buffer back through the program's boundaries.  @main is thirteen segments: seven stretches of host
  operations and, between them, six kernel regions.  A host stretch changes only the buffers its operations
  write; a region changes only its windows' arrays.  So a buffer that nothing before boundary k writes holds at
  boundary k what the launch memory held, and a buffer written once holds, at every later boundary up to the
  next writer, what its writer left.
-/
import proofs.«181910_j61117384622159_2_alg».proof.Proof.Gen.KernelIdeal.Frame
import Idealize.ShloMosaic.Lib.StableHlo.Run

set_option maxRecDepth 16384

noncomputable section

namespace Cert.KernelIdeal.Back

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- "No operation of this host stretch writes the buffer": each operation's one written reference is another. -/
macro "not_written" : tactic => `(tactic| (
  refine List.forall_iff_forall_mem.mp ?_
  simp only [hostOps0, hostOps1, hostOps2, hostOps3, hostOps4, hostOps5, hostOps6, List.flatten_cons, List.flatten_nil,
    List.append_nil, List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-- What "a stretch does not write `b`" says. -/
abbrev Skips (ops : List (HloOp τ sig (Elt F))) (b : Ref sig .tc) : Prop := ∀ op ∈ ops, Proc.devRef .tc b ∉ op.writes

/-! ## A buffer nothing has written yet holds the launch memory's contents -/

theorem at1 (c : Dev nD) (b : Ref sig .tc) (h0 : Skips (F := F) hostOps0 b) :
    W1 m ρ c (Proc.devRef .tc b) = m ((c : Thread nD τ).loc b) :=
  StableHlo.after_of_forall_not_mem _ _ h0
theorem at2 (c : Dev nD) (b : Ref sig .tc) (h0 : Skips (F := F) hostOps0 b) (r0 : W2 m ρ c (Proc.devRef .tc b) = W1 m ρ c (Proc.devRef .tc b)) :
    W2 m ρ c (Proc.devRef .tc b) = m ((c : Thread nD τ).loc b) :=
  r0.trans (at1 m ρ c b h0)
theorem at3 (c : Dev nD) (b : Ref sig .tc) (h0 : Skips (F := F) hostOps0 b) (r0 : W2 m ρ c (Proc.devRef .tc b) = W1 m ρ c (Proc.devRef .tc b))
    (h1 : Skips (F := F) hostOps1 b) : W3 m ρ c (Proc.devRef .tc b) = m ((c : Thread nD τ).loc b) :=
  (StableHlo.after_of_forall_not_mem _ _ h1).trans (at2 m ρ c b h0 r0)
theorem at4 (c : Dev nD) (b : Ref sig .tc) (h0 : Skips (F := F) hostOps0 b) (r0 : W2 m ρ c (Proc.devRef .tc b) = W1 m ρ c (Proc.devRef .tc b))
    (h1 : Skips (F := F) hostOps1 b) (r1 : W4 m ρ c (Proc.devRef .tc b) = W3 m ρ c (Proc.devRef .tc b)) :
    W4 m ρ c (Proc.devRef .tc b) = m ((c : Thread nD τ).loc b) :=
  r1.trans (at3 m ρ c b h0 r0 h1)
theorem at5 (c : Dev nD) (b : Ref sig .tc) (h0 : Skips (F := F) hostOps0 b) (r0 : W2 m ρ c (Proc.devRef .tc b) = W1 m ρ c (Proc.devRef .tc b))
    (h1 : Skips (F := F) hostOps1 b) (r1 : W4 m ρ c (Proc.devRef .tc b) = W3 m ρ c (Proc.devRef .tc b)) (h2 : Skips (F := F) hostOps2 b) :
    W5 m ρ c (Proc.devRef .tc b) = m ((c : Thread nD τ).loc b) :=
  (StableHlo.after_of_forall_not_mem _ _ h2).trans (at4 m ρ c b h0 r0 h1 r1)
theorem at6 (c : Dev nD) (b : Ref sig .tc) (h0 : Skips (F := F) hostOps0 b) (r0 : W2 m ρ c (Proc.devRef .tc b) = W1 m ρ c (Proc.devRef .tc b))
    (h1 : Skips (F := F) hostOps1 b) (r1 : W4 m ρ c (Proc.devRef .tc b) = W3 m ρ c (Proc.devRef .tc b)) (h2 : Skips (F := F) hostOps2 b)
    (r2 : W6 m ρ c (Proc.devRef .tc b) = W5 m ρ c (Proc.devRef .tc b)) : W6 m ρ c (Proc.devRef .tc b) = m ((c : Thread nD τ).loc b) :=
  r2.trans (at5 m ρ c b h0 r0 h1 r1 h2)
theorem at7 (c : Dev nD) (b : Ref sig .tc) (h0 : Skips (F := F) hostOps0 b) (r0 : W2 m ρ c (Proc.devRef .tc b) = W1 m ρ c (Proc.devRef .tc b))
    (h1 : Skips (F := F) hostOps1 b) (r1 : W4 m ρ c (Proc.devRef .tc b) = W3 m ρ c (Proc.devRef .tc b)) (h2 : Skips (F := F) hostOps2 b)
    (r2 : W6 m ρ c (Proc.devRef .tc b) = W5 m ρ c (Proc.devRef .tc b)) (h3 : Skips (F := F) hostOps3 b) :
    W7 m ρ c (Proc.devRef .tc b) = m ((c : Thread nD τ).loc b) :=
  (StableHlo.after_of_forall_not_mem _ _ h3).trans (at6 m ρ c b h0 r0 h1 r1 h2 r2)
theorem at8 (c : Dev nD) (b : Ref sig .tc) (h0 : Skips (F := F) hostOps0 b) (r0 : W2 m ρ c (Proc.devRef .tc b) = W1 m ρ c (Proc.devRef .tc b))
    (h1 : Skips (F := F) hostOps1 b) (r1 : W4 m ρ c (Proc.devRef .tc b) = W3 m ρ c (Proc.devRef .tc b)) (h2 : Skips (F := F) hostOps2 b)
    (r2 : W6 m ρ c (Proc.devRef .tc b) = W5 m ρ c (Proc.devRef .tc b)) (h3 : Skips (F := F) hostOps3 b) (r3 : W8 m ρ c (Proc.devRef .tc b) = W7 m ρ c (Proc.devRef .tc b)) :
    W8 m ρ c (Proc.devRef .tc b) = m ((c : Thread nD τ).loc b) :=
  r3.trans (at7 m ρ c b h0 r0 h1 r1 h2 r2 h3)
theorem at9 (c : Dev nD) (b : Ref sig .tc) (h0 : Skips (F := F) hostOps0 b) (r0 : W2 m ρ c (Proc.devRef .tc b) = W1 m ρ c (Proc.devRef .tc b))
    (h1 : Skips (F := F) hostOps1 b) (r1 : W4 m ρ c (Proc.devRef .tc b) = W3 m ρ c (Proc.devRef .tc b)) (h2 : Skips (F := F) hostOps2 b)
    (r2 : W6 m ρ c (Proc.devRef .tc b) = W5 m ρ c (Proc.devRef .tc b)) (h3 : Skips (F := F) hostOps3 b) (r3 : W8 m ρ c (Proc.devRef .tc b) = W7 m ρ c (Proc.devRef .tc b))
    (h4 : Skips (F := F) hostOps4 b) : W9 m ρ c (Proc.devRef .tc b) = m ((c : Thread nD τ).loc b) :=
  (StableHlo.after_of_forall_not_mem _ _ h4).trans (at8 m ρ c b h0 r0 h1 r1 h2 r2 h3 r3)
theorem at10 (c : Dev nD) (b : Ref sig .tc) (h0 : Skips (F := F) hostOps0 b) (r0 : W2 m ρ c (Proc.devRef .tc b) = W1 m ρ c (Proc.devRef .tc b))
    (h1 : Skips (F := F) hostOps1 b) (r1 : W4 m ρ c (Proc.devRef .tc b) = W3 m ρ c (Proc.devRef .tc b)) (h2 : Skips (F := F) hostOps2 b)
    (r2 : W6 m ρ c (Proc.devRef .tc b) = W5 m ρ c (Proc.devRef .tc b)) (h3 : Skips (F := F) hostOps3 b) (r3 : W8 m ρ c (Proc.devRef .tc b) = W7 m ρ c (Proc.devRef .tc b))
    (h4 : Skips (F := F) hostOps4 b) (r4 : W10 m ρ c (Proc.devRef .tc b) = W9 m ρ c (Proc.devRef .tc b)) :
    W10 m ρ c (Proc.devRef .tc b) = m ((c : Thread nD τ).loc b) :=
  r4.trans (at9 m ρ c b h0 r0 h1 r1 h2 r2 h3 r3 h4)
theorem at11 (c : Dev nD) (b : Ref sig .tc) (h0 : Skips (F := F) hostOps0 b) (r0 : W2 m ρ c (Proc.devRef .tc b) = W1 m ρ c (Proc.devRef .tc b))
    (h1 : Skips (F := F) hostOps1 b) (r1 : W4 m ρ c (Proc.devRef .tc b) = W3 m ρ c (Proc.devRef .tc b)) (h2 : Skips (F := F) hostOps2 b)
    (r2 : W6 m ρ c (Proc.devRef .tc b) = W5 m ρ c (Proc.devRef .tc b)) (h3 : Skips (F := F) hostOps3 b) (r3 : W8 m ρ c (Proc.devRef .tc b) = W7 m ρ c (Proc.devRef .tc b))
    (h4 : Skips (F := F) hostOps4 b) (r4 : W10 m ρ c (Proc.devRef .tc b) = W9 m ρ c (Proc.devRef .tc b)) (h5 : Skips (F := F) hostOps5 b) :
    W11 m ρ c (Proc.devRef .tc b) = m ((c : Thread nD τ).loc b) :=
  (StableHlo.after_of_forall_not_mem _ _ h5).trans (at10 m ρ c b h0 r0 h1 r1 h2 r2 h3 r3 h4 r4)

/-! ## The argument arrays each region and each bias stretch reads, at the boundary where it reads them -/

theorem V1_arg1 (c : Dev nD) : V1 m ρ c main_arg1 = m ((c : Thread nD τ).loc main_arg1) := at1 m ρ c main_arg1 (by not_written)
theorem V1_arg3 (c : Dev nD) : V1 m ρ c main_arg3 = m ((c : Thread nD τ).loc main_arg3) := at1 m ρ c main_arg3 (by not_written)
theorem V1_arg5 (c : Dev nD) : V1 m ρ c main_arg5 = m ((c : Thread nD τ).loc main_arg5) := at1 m ρ c main_arg5 (by not_written)
theorem V1_arg7 (c : Dev nD) : V1 m ρ c main_arg7 = m ((c : Thread nD τ).loc main_arg7) := at1 m ρ c main_arg7 (by not_written)

theorem V3_arg0 (c : Dev nD) : V3 m ρ c main_arg0 = m ((c : Thread nD τ).loc main_arg0) :=
  at3 m ρ c main_arg0 (by not_written) (W2_of_ne m ρ c main_arg0 (by decide)) (by not_written)
/-- The first layer's weights are an INPUT window of region 0: the region reads them and writes nothing back. -/
theorem V3_arg1 (c : Dev nD) : V3 m ρ c main_arg1 = m ((c : Thread nD τ).loc main_arg1) :=
  at3 m ρ c main_arg1 (by not_written)
    ((W2_arr m ρ c 0).trans (((dat0 (V1 m ρ) c).arrAt_in 0 rfl _).trans (A_eq0 (V1 m ρ) c 0))) (by not_written)

/-! The first layer's bias side, read by the reshape stretch after region 0. -/
theorem W2_arg2 (c : Dev nD) : W2 m ρ c (Proc.devRef .tc main_arg2) = m ((c : Thread nD τ).loc main_arg2) :=
  at2 m ρ c main_arg2 (by not_written) (W2_of_ne m ρ c main_arg2 (by decide))

/-! Layer 1's arrays: region 2 and the bias stretch before it read them after regions 0 and 1. -/
theorem V5_arg9 (c : Dev nD) : V5 m ρ c main_arg9 = m ((c : Thread nD τ).loc main_arg9) :=
  at5 m ρ c main_arg9 (by not_written) (W2_of_ne m ρ c main_arg9 (by decide)) (by not_written) (W4_of_ne m ρ c main_arg9 (by decide)) (by not_written)
theorem V5_arg11 (c : Dev nD) : V5 m ρ c main_arg11 = m ((c : Thread nD τ).loc main_arg11) :=
  at5 m ρ c main_arg11 (by not_written) (W2_of_ne m ρ c main_arg11 (by decide)) (by not_written) (W4_of_ne m ρ c main_arg11 (by decide)) (by not_written)
theorem V5_arg13 (c : Dev nD) : V5 m ρ c main_arg13 = m ((c : Thread nD τ).loc main_arg13) :=
  at5 m ρ c main_arg13 (by not_written) (W2_of_ne m ρ c main_arg13 (by decide)) (by not_written) (W4_of_ne m ρ c main_arg13 (by decide)) (by not_written)
theorem V5_arg15 (c : Dev nD) : V5 m ρ c main_arg15 = m ((c : Thread nD τ).loc main_arg15) :=
  at5 m ρ c main_arg15 (by not_written) (W2_of_ne m ρ c main_arg15 (by decide)) (by not_written) (W4_of_ne m ρ c main_arg15 (by decide)) (by not_written)
theorem W4_arg10 (c : Dev nD) : W4 m ρ c (Proc.devRef .tc main_arg10) = m ((c : Thread nD τ).loc main_arg10) :=
  at4 m ρ c main_arg10 (by not_written) (W2_of_ne m ρ c main_arg10 (by decide)) (by not_written) (W4_of_ne m ρ c main_arg10 (by decide))
theorem W4_arg12 (c : Dev nD) : W4 m ρ c (Proc.devRef .tc main_arg12) = m ((c : Thread nD τ).loc main_arg12) :=
  at4 m ρ c main_arg12 (by not_written) (W2_of_ne m ρ c main_arg12 (by decide)) (by not_written) (W4_of_ne m ρ c main_arg12 (by decide))
theorem W4_arg14 (c : Dev nD) : W4 m ρ c (Proc.devRef .tc main_arg14) = m ((c : Thread nD τ).loc main_arg14) :=
  at4 m ρ c main_arg14 (by not_written) (W2_of_ne m ρ c main_arg14 (by decide)) (by not_written) (W4_of_ne m ρ c main_arg14 (by decide))
theorem W4_arg16 (c : Dev nD) : W4 m ρ c (Proc.devRef .tc main_arg16) = m ((c : Thread nD τ).loc main_arg16) :=
  at4 m ρ c main_arg16 (by not_written) (W2_of_ne m ρ c main_arg16 (by decide)) (by not_written) (W4_of_ne m ρ c main_arg16 (by decide))
theorem W6_arg10 (c : Dev nD) : W6 m ρ c (Proc.devRef .tc main_arg10) = m ((c : Thread nD τ).loc main_arg10) :=
  at6 m ρ c main_arg10 (by not_written) (W2_of_ne m ρ c main_arg10 (by decide)) (by not_written) (W4_of_ne m ρ c main_arg10 (by decide)) (by not_written) (W6_of_ne m ρ c main_arg10 (by decide))
/-- Layer 1's weights are an INPUT window of region 2: read, nothing written back. -/
theorem V7_arg9 (c : Dev nD) : V7 m ρ c main_arg9 = m ((c : Thread nD τ).loc main_arg9) :=
  at7 m ρ c main_arg9 (by not_written) (W2_of_ne m ρ c main_arg9 (by decide)) (by not_written) (W4_of_ne m ρ c main_arg9 (by decide)) (by not_written)
    ((W6_arr m ρ c 0).trans (((dat2 (V5 m ρ) c).arrAt_in 0 rfl _).trans (A_eq2 (V5 m ρ) c 0))) (by not_written)

/-! Layer 2's arrays. -/
theorem V9_arg17 (c : Dev nD) : V9 m ρ c main_arg17 = m ((c : Thread nD τ).loc main_arg17) :=
  at9 m ρ c main_arg17 (by not_written) (W2_of_ne m ρ c main_arg17 (by decide)) (by not_written) (W4_of_ne m ρ c main_arg17 (by decide)) (by not_written) (W6_of_ne m ρ c main_arg17 (by decide)) (by not_written) (W8_of_ne m ρ c main_arg17 (by decide)) (by not_written)
theorem V9_arg19 (c : Dev nD) : V9 m ρ c main_arg19 = m ((c : Thread nD τ).loc main_arg19) :=
  at9 m ρ c main_arg19 (by not_written) (W2_of_ne m ρ c main_arg19 (by decide)) (by not_written) (W4_of_ne m ρ c main_arg19 (by decide)) (by not_written) (W6_of_ne m ρ c main_arg19 (by decide)) (by not_written) (W8_of_ne m ρ c main_arg19 (by decide)) (by not_written)
theorem V9_arg21 (c : Dev nD) : V9 m ρ c main_arg21 = m ((c : Thread nD τ).loc main_arg21) :=
  at9 m ρ c main_arg21 (by not_written) (W2_of_ne m ρ c main_arg21 (by decide)) (by not_written) (W4_of_ne m ρ c main_arg21 (by decide)) (by not_written) (W6_of_ne m ρ c main_arg21 (by decide)) (by not_written) (W8_of_ne m ρ c main_arg21 (by decide)) (by not_written)
theorem V9_arg23 (c : Dev nD) : V9 m ρ c main_arg23 = m ((c : Thread nD τ).loc main_arg23) :=
  at9 m ρ c main_arg23 (by not_written) (W2_of_ne m ρ c main_arg23 (by decide)) (by not_written) (W4_of_ne m ρ c main_arg23 (by decide)) (by not_written) (W6_of_ne m ρ c main_arg23 (by decide)) (by not_written) (W8_of_ne m ρ c main_arg23 (by decide)) (by not_written)
theorem W8_arg18 (c : Dev nD) : W8 m ρ c (Proc.devRef .tc main_arg18) = m ((c : Thread nD τ).loc main_arg18) :=
  at8 m ρ c main_arg18 (by not_written) (W2_of_ne m ρ c main_arg18 (by decide)) (by not_written) (W4_of_ne m ρ c main_arg18 (by decide)) (by not_written) (W6_of_ne m ρ c main_arg18 (by decide)) (by not_written) (W8_of_ne m ρ c main_arg18 (by decide))
theorem W8_arg20 (c : Dev nD) : W8 m ρ c (Proc.devRef .tc main_arg20) = m ((c : Thread nD τ).loc main_arg20) :=
  at8 m ρ c main_arg20 (by not_written) (W2_of_ne m ρ c main_arg20 (by decide)) (by not_written) (W4_of_ne m ρ c main_arg20 (by decide)) (by not_written) (W6_of_ne m ρ c main_arg20 (by decide)) (by not_written) (W8_of_ne m ρ c main_arg20 (by decide))
theorem W8_arg22 (c : Dev nD) : W8 m ρ c (Proc.devRef .tc main_arg22) = m ((c : Thread nD τ).loc main_arg22) :=
  at8 m ρ c main_arg22 (by not_written) (W2_of_ne m ρ c main_arg22 (by decide)) (by not_written) (W4_of_ne m ρ c main_arg22 (by decide)) (by not_written) (W6_of_ne m ρ c main_arg22 (by decide)) (by not_written) (W8_of_ne m ρ c main_arg22 (by decide))
theorem W8_arg24 (c : Dev nD) : W8 m ρ c (Proc.devRef .tc main_arg24) = m ((c : Thread nD τ).loc main_arg24) :=
  at8 m ρ c main_arg24 (by not_written) (W2_of_ne m ρ c main_arg24 (by decide)) (by not_written) (W4_of_ne m ρ c main_arg24 (by decide)) (by not_written) (W6_of_ne m ρ c main_arg24 (by decide)) (by not_written) (W8_of_ne m ρ c main_arg24 (by decide))
theorem W10_arg18 (c : Dev nD) : W10 m ρ c (Proc.devRef .tc main_arg18) = m ((c : Thread nD τ).loc main_arg18) :=
  at10 m ρ c main_arg18 (by not_written) (W2_of_ne m ρ c main_arg18 (by decide)) (by not_written) (W4_of_ne m ρ c main_arg18 (by decide)) (by not_written) (W6_of_ne m ρ c main_arg18 (by decide)) (by not_written) (W8_of_ne m ρ c main_arg18 (by decide)) (by not_written) (W10_of_ne m ρ c main_arg18 (by decide))
/-- Layer 2's weights are an INPUT window of region 4. -/
theorem V11_arg17 (c : Dev nD) : V11 m ρ c main_arg17 = m ((c : Thread nD τ).loc main_arg17) :=
  at11 m ρ c main_arg17 (by not_written) (W2_of_ne m ρ c main_arg17 (by decide)) (by not_written) (W4_of_ne m ρ c main_arg17 (by decide)) (by not_written) (W6_of_ne m ρ c main_arg17 (by decide)) (by not_written) (W8_of_ne m ρ c main_arg17 (by decide)) (by not_written)
    ((W10_arr m ρ c 0).trans (((dat4 (V9 m ρ) c).arrAt_in 0 rfl _).trans (A_eq4 (V9 m ρ) c 0))) (by not_written)

end Cert.KernelIdeal.Back

end
-- ==== Proof.Spec.lean ====
/-
  Interval bound propagation through one linear layer, on the extended reals, index by index.

  A layer maps a box [lo, up] of activations (rows r, features k) through weights known only up to a
  radius: the weight of output o at feature k lies in [w - e, w + e], e ≥ 0 the clamped radius
  e = sigmoid(v) · min(wa + we - w, w - (wa - we)).  With the midpoint mu = (lo + up)/2 and radius
  rad = (up - lo)/2 of the activations, the product's interval is H ∓ K,
     H = Σ_k mu[r,k] · wm[o,k],   K = Σ_k |mu[r,k]| · wr[o,k] + Σ_k rad[r,k] · (|wm[o,k]| + wr[o,k]),
  where wm, wr are the midpoint and radius of the weight interval.  Two arrangements are stated:
  the DIRECT one takes wm = w, wr = e and s = |w| + e as given arrays; the RECOMPUTED one forms the
  endpoints w ∓ e first and takes wm = ((w - e) + (w + e))/2, wr = ((w + e) - (w - e))/2.  Over finite
  reals the two agree (midpoint_real, radius_real below); at an infinite entry they need not, since
  (w - e) + (w + e) is then not 2w.  When lo = up = x is finite, mu = x and rad = 0, so the third sum
  vanishes (first-layer form).
-/
import Idealize.ShloMosaic.PureOps.Ideal
import Idealize.ShloMosaic.Lib.ValueIdx

noncomputable section

namespace Cert.Ibp

open Idealize.ShloMosaic Idealize.ShloMosaic.ValueIdx

/-- A matrix of extended reals with `a` rows and `b` columns. -/
abbrev Mat (a b : Nat) : Type := (⟨2, ![a, b]⟩ : Shape).Idx → EReal
/-- A vector of extended reals of length `a`. -/
abbrev Vc (a : Nat) : Type := (⟨1, ![a]⟩ : Shape).Idx → EReal

/-! ## The literals, as the programs spell them -/

/-- The pattern of `0.5`. -/
def half : EReal := Ideal.ofBits .f32 0x3F000000#32
/-- The pattern of `+0.0`. -/
def zero : EReal := Ideal.ofBits .f32 0x00000000#32
/-- The pattern of `1.0`. -/
def one : EReal := Ideal.ofBits .f32 0x3F800000#32

theorem half_eq : half = ((1 / 2 : ℝ) : EReal) := by
  unfold half; simp [Ideal.ofBits, Ideal.ieee, -EReal.coe_mul]; norm_num
theorem zero_eq : zero = 0 := by
  unfold zero; simp [Ideal.ofBits, Ideal.ieee]
theorem one_eq : one = 1 := by
  unfold one; simp [Ideal.ofBits, Ideal.ieee, -EReal.coe_mul]; norm_num

/-! ## Scalars -/

/-- `|x|` as both programs compute it: the larger of `x` and `-x`. -/
def abs (x : EReal) : EReal := max x (-x)
/-- The sigmoid spelt as a quotient: `1 / (1 + exp (-x))` with the literal `1.0` twice. -/
def sig (x : EReal) : EReal := Ideal.div one (one + Ideal.exp (-x))
/-- The distance from `w` to the nearer end of `[wa - we, wa + we]`. -/
def inter (w wa we : EReal) : EReal := min (wa + we - w) (w - (wa - we))
/-- The clamped radius, the sigmoid given as a value `g`. -/
def epsOf (g w wa we : EReal) : EReal := g * inter w wa we

/-- The one-operation sigmoid is the quotient form. -/
theorem logistic_eq_sig (x : EReal) : Ideal.logistic x = sig x := by
  unfold sig Ideal.logistic; rw [one_eq]

/-- The radius from the quotient-form sigmoid. -/
def eps (w wa we wv : EReal) : EReal := epsOf (sig wv) w wa we

theorem sig_real (x : ℝ) : ∃ g : ℝ, sig (x : EReal) = (g : EReal) :=
  ⟨_, by rw [← logistic_eq_sig, Ideal.logistic_coe]⟩

theorem eps_real (w wa we wv : ℝ) : ∃ e : ℝ, eps (w : EReal) wa we wv = (e : EReal) := by
  obtain ⟨g, hg⟩ := sig_real wv
  refine ⟨g * min (wa + we - w) (w - (wa - we)), ?_⟩
  unfold eps epsOf inter
  rw [hg]
  simp only [← EReal.coe_add, ← EReal.coe_sub]
  rw [← EReal.coe_strictMono.monotone.map_min, ← EReal.coe_mul]

/-- The midpoint of `[w - e, w + e]` is `w`, on the reals. -/
theorem midpoint_real (w e : ℝ) : (((w : EReal) - e) + ((w : EReal) + e)) * half = (w : EReal) := by
  rw [half_eq]; simp only [← EReal.coe_add, ← EReal.coe_sub, ← EReal.coe_mul]; congr 1; ring
/-- The radius of `[w - e, w + e]` is `e`, on the reals. -/
theorem radius_real (w e : ℝ) : (((w : EReal) + e) - ((w : EReal) - e)) * half = (e : EReal) := by
  rw [half_eq]; simp only [← EReal.coe_add, ← EReal.coe_sub, ← EReal.coe_mul]; congr 1; ring
/-- The midpoint of the degenerate box `[x, x]` is `x`. -/
theorem mid_self_real (x : ℝ) : ((x : EReal) + x) * half = (x : EReal) := by
  rw [half_eq]; simp only [← EReal.coe_add, ← EReal.coe_mul]; congr 1; ring
/-- The radius of the degenerate box `[x, x]` is `0`. -/
theorem rad_self_real (x : ℝ) : ((x : EReal) - x) * half = 0 := by
  rw [half_eq]; simp only [← EReal.coe_sub, ← EReal.coe_mul]; rw [← EReal.coe_zero]; congr 1; ring

/-! ## Whole arrays -/

variable {B Din Dout : Nat}

/-- The clamped weight radius, entry by entry. -/
def wEps (w wa we wv : Mat Dout Din) : Mat Dout Din := fun i => eps (w i) (wa i) (we i) (wv i)
/-- `|w| + e`, entry by entry. -/
def wAbsPlus (w e : Mat Dout Din) : Mat Dout Din := fun i => abs (w i) + e i
/-- The clamped bias radius at output `o`. -/
def bEps (b ba be bv : Vc Dout) (o : Fin Dout) : EReal := eps (b (ix1 o)) (ba (ix1 o)) (be (ix1 o)) (bv (ix1 o))

/-- The activations' midpoint. -/
def mid (lo up : Mat B Din) : Mat B Din := fun i => (lo i + up i) * half
/-- The activations' radius. -/
def rad (lo up : Mat B Din) : Mat B Din := fun i => (up i - lo i) * half
/-- Row `r` of `a` against row `o` of `w`: `Σ_k a[r,k] · w[o,k]`. -/
def dotT (a : Mat B Din) (w : Mat Dout Din) (r : Fin B) (o : Fin Dout) : EReal :=
  ∑ k : Fin Din, a (ix2 r k) * w (ix2 o k)
/-- The closing step: `max · 0` between layers, nothing after the last. -/
def act (relu : Bool) (x : EReal) : EReal := if relu then max x zero else x

/-- The lower bound after a layer, DIRECT arrangement (midpoint `w`, radius `e`, `s = |w| + e` given). -/
def loAt (relu : Bool) (lo up : Mat B Din) (w e s : Mat Dout Din) (b be : Fin Dout → EReal) (r : Fin B) (o : Fin Dout) : EReal :=
  act relu (dotT (mid lo up) w r o - (dotT (fun i => abs (mid lo up i)) e r o + dotT (rad lo up) s r o) + (b o - be o))
/-- The upper bound after a layer, DIRECT arrangement. -/
def upAt (relu : Bool) (lo up : Mat B Din) (w e s : Mat Dout Din) (b be : Fin Dout → EReal) (r : Fin B) (o : Fin Dout) : EReal :=
  act relu (dotT (mid lo up) w r o + (dotT (fun i => abs (mid lo up i)) e r o + dotT (rad lo up) s r o) + (b o + be o))

/-- The lower bound after the FIRST layer (box `[x, x]`): no radius term. -/
def firstLoAt (x : Mat B Din) (w e : Mat Dout Din) (b be : Fin Dout → EReal) (r : Fin B) (o : Fin Dout) : EReal :=
  max (dotT x w r o - dotT (fun i => abs (x i)) e r o + (b o - be o)) zero
/-- The upper bound after the FIRST layer. -/
def firstUpAt (x : Mat B Din) (w e : Mat Dout Din) (b be : Fin Dout → EReal) (r : Fin B) (o : Fin Dout) : EReal :=
  max (dotT x w r o + dotT (fun i => abs (x i)) e r o + (b o + be o)) zero

/-- The weight interval's midpoint, RECOMPUTED from its endpoints. -/
def wMid (w e : Mat Dout Din) : Mat Dout Din := fun i => ((w i - e i) + (w i + e i)) * half
/-- The weight interval's radius, RECOMPUTED from its endpoints. -/
def wRad (w e : Mat Dout Din) : Mat Dout Din := fun i => ((w i + e i) - (w i - e i)) * half

/-- The lower bound after a layer, RECOMPUTED arrangement. -/
def refLoAt (relu : Bool) (lo up : Mat B Din) (w e : Mat Dout Din) (b be : Fin Dout → EReal) (r : Fin B) (o : Fin Dout) : EReal :=
  loAt relu lo up (wMid w e) (wRad w e) (wAbsPlus (wMid w e) (wRad w e)) b be r o
/-- The upper bound after a layer, RECOMPUTED arrangement. -/
def refUpAt (relu : Bool) (lo up : Mat B Din) (w e : Mat Dout Din) (b be : Fin Dout → EReal) (r : Fin B) (o : Fin Dout) : EReal :=
  upAt relu lo up (wMid w e) (wRad w e) (wAbsPlus (wMid w e) (wRad w e)) b be r o

/-! ## The two arrangements agree on finite weights -/

/-- An array all of whose entries are real numbers. -/
def Finite {S : Shape} (a : S.Idx → EReal) : Prop := ∀ i, ∃ x : ℝ, a i = (x : EReal)

theorem wEps_finite {w wa we wv : Mat Dout Din} (hw : Finite w) (hwa : Finite wa) (hwe : Finite we) (hwv : Finite wv) :
    Finite (wEps w wa we wv) := fun i => by
  obtain ⟨a, ha⟩ := hw i; obtain ⟨b, hb⟩ := hwa i; obtain ⟨c, hc⟩ := hwe i; obtain ⟨d, hd⟩ := hwv i
  unfold wEps; rw [ha, hb, hc, hd]; exact eps_real a b c d

theorem wMid_eq {w e : Mat Dout Din} (hw : Finite w) (he : Finite e) : wMid w e = w := funext fun i => by
  obtain ⟨a, ha⟩ := hw i; obtain ⟨b, hb⟩ := he i
  unfold wMid; rw [ha, hb]; exact midpoint_real a b
theorem wRad_eq {w e : Mat Dout Din} (hw : Finite w) (he : Finite e) : wRad w e = e := funext fun i => by
  obtain ⟨a, ha⟩ := hw i; obtain ⟨b, hb⟩ := he i
  unfold wRad; rw [ha, hb]; exact radius_real a b

theorem refLoAt_eq (relu : Bool) (lo up : Mat B Din) {w e : Mat Dout Din} (hw : Finite w) (he : Finite e) (b be : Fin Dout → EReal) :
    refLoAt relu lo up w e b be = loAt relu lo up w e (wAbsPlus w e) b be := by
  unfold refLoAt; rw [wMid_eq hw he, wRad_eq hw he]
theorem refUpAt_eq (relu : Bool) (lo up : Mat B Din) {w e : Mat Dout Din} (hw : Finite w) (he : Finite e) (b be : Fin Dout → EReal) :
    refUpAt relu lo up w e b be = upAt relu lo up w e (wAbsPlus w e) b be := by
  unfold refUpAt; rw [wMid_eq hw he, wRad_eq hw he]

/-! ## The degenerate box -/

theorem mid_self {x : Mat B Din} (hx : Finite x) : mid x x = x := funext fun i => by
  obtain ⟨a, ha⟩ := hx i; unfold mid; rw [ha]; exact mid_self_real a
theorem rad_self {x : Mat B Din} (hx : Finite x) : rad x x = fun _ => 0 := funext fun i => by
  obtain ⟨a, ha⟩ := hx i; unfold rad; rw [ha]; exact rad_self_real a

theorem dotT_zero (s : Mat Dout Din) (r : Fin B) (o : Fin Dout) : dotT (fun _ => (0 : EReal)) s r o = 0 := by
  unfold dotT; simp only [zero_mul, Finset.sum_const_zero]

theorem loAt_self {x : Mat B Din} (hx : Finite x) (w e s : Mat Dout Din) (b be : Fin Dout → EReal) :
    loAt true x x w e s b be = firstLoAt x w e b be := by
  funext r o; unfold loAt firstLoAt act; rw [mid_self hx, rad_self hx, dotT_zero, add_zero]; rfl
theorem upAt_self {x : Mat B Din} (hx : Finite x) (w e s : Mat Dout Din) (b be : Fin Dout → EReal) :
    upAt true x x w e s b be = firstUpAt x w e b be := by
  funext r o; unfold upAt firstUpAt act; rw [mid_self hx, rad_self hx, dotT_zero, add_zero]; rfl

end Cert.Ibp

end
-- ==== Proof.Net.lean ====
/-
  The three layers composed.  A layer's parameters are four weight-side matrices (w, wa, we, wv) and four
  bias-side vectors (b, ba, be, bv); its weight radius is wEps w wa we wv and its bias radius bEps b ba be bv.
  `layerLo / layerUp` are the bounds after one layer in the DIRECT arrangement, `refLayerLo / refLayerUp` in the
  RECOMPUTED one, `firstLo / firstUp` the first layer's form on the degenerate box [x, x].  The network is
  first layer, then a layer with the closing maximum, then a layer without.  On finite parameters and a finite
  input the two arrangements of the whole network are one function (net_lo_eq, net_up_eq): only the weights'
  and the input's finiteness is used — the intermediate bounds enter both sides through the same formulas.
-/
import proofs.«181910_j61117384622159_2_alg».proof.Proof.Spec

noncomputable section

namespace Cert.Ibp

open Idealize.ShloMosaic Idealize.ShloMosaic.ValueIdx

variable {B Din Dout : Nat}

/-- The bias at output `o`. -/
def biasAt (b : Vc Dout) (o : Fin Dout) : EReal := b (ix1 o)

def layerLo (relu : Bool) (lo up : Mat B Din) (w wa we wv : Mat Dout Din) (b ba be bv : Vc Dout) : Mat B Dout :=
  fun i => loAt relu lo up w (wEps w wa we wv) (wAbsPlus w (wEps w wa we wv)) (biasAt b) (bEps b ba be bv) (i 0) (i 1)
def layerUp (relu : Bool) (lo up : Mat B Din) (w wa we wv : Mat Dout Din) (b ba be bv : Vc Dout) : Mat B Dout :=
  fun i => upAt relu lo up w (wEps w wa we wv) (wAbsPlus w (wEps w wa we wv)) (biasAt b) (bEps b ba be bv) (i 0) (i 1)
def refLayerLo (relu : Bool) (lo up : Mat B Din) (w wa we wv : Mat Dout Din) (b ba be bv : Vc Dout) : Mat B Dout :=
  fun i => refLoAt relu lo up w (wEps w wa we wv) (biasAt b) (bEps b ba be bv) (i 0) (i 1)
def refLayerUp (relu : Bool) (lo up : Mat B Din) (w wa we wv : Mat Dout Din) (b ba be bv : Vc Dout) : Mat B Dout :=
  fun i => refUpAt relu lo up w (wEps w wa we wv) (biasAt b) (bEps b ba be bv) (i 0) (i 1)
def firstLo (x : Mat B Din) (w wa we wv : Mat Dout Din) (b ba be bv : Vc Dout) : Mat B Dout :=
  fun i => firstLoAt x w (wEps w wa we wv) (biasAt b) (bEps b ba be bv) (i 0) (i 1)
def firstUp (x : Mat B Din) (w wa we wv : Mat Dout Din) (b ba be bv : Vc Dout) : Mat B Dout :=
  fun i => firstUpAt x w (wEps w wa we wv) (biasAt b) (bEps b ba be bv) (i 0) (i 1)

theorem refLayerLo_eq (relu : Bool) (lo up : Mat B Din) {w wa we wv : Mat Dout Din} (hw : Finite w) (hwa : Finite wa)
    (hwe : Finite we) (hwv : Finite wv) (b ba be bv : Vc Dout) :
    refLayerLo relu lo up w wa we wv b ba be bv = layerLo relu lo up w wa we wv b ba be bv := by
  unfold refLayerLo layerLo; rw [refLoAt_eq relu lo up hw (wEps_finite hw hwa hwe hwv)]
theorem refLayerUp_eq (relu : Bool) (lo up : Mat B Din) {w wa we wv : Mat Dout Din} (hw : Finite w) (hwa : Finite wa)
    (hwe : Finite we) (hwv : Finite wv) (b ba be bv : Vc Dout) :
    refLayerUp relu lo up w wa we wv b ba be bv = layerUp relu lo up w wa we wv b ba be bv := by
  unfold refLayerUp layerUp; rw [refUpAt_eq relu lo up hw (wEps_finite hw hwa hwe hwv)]

theorem refLayerLo_self {x : Mat B Din} (hx : Finite x) {w wa we wv : Mat Dout Din} (hw : Finite w) (hwa : Finite wa)
    (hwe : Finite we) (hwv : Finite wv) (b ba be bv : Vc Dout) :
    refLayerLo true x x w wa we wv b ba be bv = firstLo x w wa we wv b ba be bv := by
  rw [refLayerLo_eq true x x hw hwa hwe hwv]; unfold layerLo firstLo; rw [loAt_self hx]
theorem refLayerUp_self {x : Mat B Din} (hx : Finite x) {w wa we wv : Mat Dout Din} (hw : Finite w) (hwa : Finite wa)
    (hwe : Finite we) (hwv : Finite wv) (b ba be bv : Vc Dout) :
    refLayerUp true x x w wa we wv b ba be bv = firstUp x w wa we wv b ba be bv := by
  rw [refLayerUp_eq true x x hw hwa hwe hwv]; unfold layerUp firstUp; rw [upAt_self hx]

end Cert.Ibp

end
-- ==== Proof.Prep0.lean ====
/-
  Region 0: the first layer's clamped weight radius.  Each grid point j (8 of them) loads rows
  256·j … 256·j + 255 of the four weight-side arrays w, wa, we, wv (all 1024 columns) and stores
  sigmoid(wv) · min(wa + we - w, w - (wa - we)) over the same rows of the output.  The blocks are disjoint
  row bands that fill the 2048 rows, and an output entry depends only on the four input entries at its own
  index, so after the region the output array is `wEps w wa we wv` of the arrays as the region found them.
-/
import proofs.«181910_j61117384622159_2_alg».proof.Proof.Gen.KernelIdeal.Frame
import proofs.«181910_j61117384622159_2_alg».proof.Proof.Spec
import Idealize.ShloMosaic.Lib.Pipeline.Value
import Idealize.ShloMosaic.Lib.ValueIdx

set_option maxRecDepth 16384

noncomputable section

namespace Cert.KernelIdeal.Prep0

open Cert.KernelIdeal Cert.KernelIdeal.Gen Cert.Ibp
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's arithmetic at one entry: the clamped radius of the four loaded entries. -/
theorem pay_apply (x0 x1 x2 x3 : Vec Ideal S256x1024 .f32) (j : S256x1024.Idx) :
    k0_pay1 x0 x1 x2 x3 j = eps (x0 j) (x1 j) (x2 j) (x3 j) := by
  unfold k0_pay1 eps epsOf inter
  rw [← logistic_eq_sig]
  rfl

/-- The same, for the whole block. -/
theorem pay_eq (x0 x1 x2 x3 : Vec Ideal S256x1024 .f32) :
    k0_pay1 x0 x1 x2 x3 = fun j => eps (x0 j) (x1 j) (x2 j) (x3 j) := funext (pay_apply x0 x1 x2 x3)

/-- Every window of the region is at block (j, 0) at point j. -/
theorem idx_facts : ∀ t : Fin cfg0.N,
    win0_0.index t (0 : Fin 2) = win0_4.index t (0 : Fin 2) ∧ win0_0.index t (1 : Fin 2) = win0_4.index t (1 : Fin 2)
    ∧ win0_1.index t (0 : Fin 2) = win0_4.index t (0 : Fin 2) ∧ win0_1.index t (1 : Fin 2) = win0_4.index t (1 : Fin 2)
    ∧ win0_2.index t (0 : Fin 2) = win0_4.index t (0 : Fin 2) ∧ win0_2.index t (1 : Fin 2) = win0_4.index t (1 : Fin 2)
    ∧ win0_3.index t (0 : Fin 2) = win0_4.index t (0 : Fin 2) ∧ win0_3.index t (1 : Fin 2) = win0_4.index t (1 : Fin 2)
    ∧ win0_4.index t (0 : Fin 2) = t.val ∧ win0_4.index t (1 : Fin 2) = 0 :=
  (by decide +kernel : ∀ t : Fin grid0.N, _)

theorem flushed_eq (c : Dev nD) (t : Fin cfg0.N) :
    (dat0 V c).flushed 4 t = ((cfg0.win 4).blk t).view.read (Elt Ideal)
      (wEps (Dout := 2048) (Din := 1024) (V c main_arg1) (V c main_arg3) (V c main_arg5) (V c main_arg7)) := by
  show (cfg0.win 4).cut (grid0.coords t) ((dat0 V c).after 4 t) = _
  rw [after0_4]
  unfold out0_4
  rw [View.canon_unit_zero origin]
  simp only [View.ld_unit_zero (S := S256x1024) origin]
  rw [pay_eq]
  funext j
  obtain ⟨e00, e01, e10, e11, e20, e21, e30, e31, -, -⟩ := idx_facts t
  have h0 : ((cfg0.win 0).blk t).view.emb j = ((cfg0.win 4).blk t).view.emb j := by
    funext a; apply Fin.ext
    match a with
    | ⟨0, _⟩ => show win0_0.index t (0 : Fin 2) * 256 + 1 * (j 0).val = win0_4.index t (0 : Fin 2) * 256 + 1 * (j 0).val; omega
    | ⟨1, _⟩ => show win0_0.index t (1 : Fin 2) * 1024 + 1 * (j 1).val = win0_4.index t (1 : Fin 2) * 1024 + 1 * (j 1).val; omega
  have h1 : ((cfg0.win 1).blk t).view.emb j = ((cfg0.win 4).blk t).view.emb j := by
    funext a; apply Fin.ext
    match a with
    | ⟨0, _⟩ => show win0_1.index t (0 : Fin 2) * 256 + 1 * (j 0).val = win0_4.index t (0 : Fin 2) * 256 + 1 * (j 0).val; omega
    | ⟨1, _⟩ => show win0_1.index t (1 : Fin 2) * 1024 + 1 * (j 1).val = win0_4.index t (1 : Fin 2) * 1024 + 1 * (j 1).val; omega
  have h2 : ((cfg0.win 2).blk t).view.emb j = ((cfg0.win 4).blk t).view.emb j := by
    funext a; apply Fin.ext
    match a with
    | ⟨0, _⟩ => show win0_2.index t (0 : Fin 2) * 256 + 1 * (j 0).val = win0_4.index t (0 : Fin 2) * 256 + 1 * (j 0).val; omega
    | ⟨1, _⟩ => show win0_2.index t (1 : Fin 2) * 1024 + 1 * (j 1).val = win0_4.index t (1 : Fin 2) * 1024 + 1 * (j 1).val; omega
  have h3 : ((cfg0.win 3).blk t).view.emb j = ((cfg0.win 4).blk t).view.emb j := by
    funext a; apply Fin.ext
    match a with
    | ⟨0, _⟩ => show win0_3.index t (0 : Fin 2) * 256 + 1 * (j 0).val = win0_4.index t (0 : Fin 2) * 256 + 1 * (j 0).val; omega
    | ⟨1, _⟩ => show win0_3.index t (1 : Fin 2) * 1024 + 1 * (j 1).val = win0_4.index t (1 : Fin 2) * 1024 + 1 * (j 1).val; omega
  show eps (V c main_arg1 (((cfg0.win 0).blk t).view.emb j)) (V c main_arg3 (((cfg0.win 1).blk t).view.emb j))
        (V c main_arg5 (((cfg0.win 2).blk t).view.emb j)) (V c main_arg7 (((cfg0.win 3).blk t).view.emb j))
      = eps (V c main_arg1 (((cfg0.win 4).blk t).view.emb j)) (V c main_arg3 (((cfg0.win 4).blk t).view.emb j))
        (V c main_arg5 (((cfg0.win 4).blk t).view.emb j)) (V c main_arg7 (((cfg0.win 4).blk t).view.emb j))
  rw [h0, h1, h2, h3]

/-- An index of the output array is in point t's block iff its row is in band t. -/
theorem mem_blk (t : Fin cfg0.N) (i : S2048x1024.Idx) :
    i ∈ ((cfg0.win 4).blk t).view.set ↔ ∀ a : Fin 2, win0_4.index t a * S256x1024.size a ≤ (i a).val ∧ (i a).val < win0_4.index t a * S256x1024.size a + S256x1024.size a := by
  show i ∈ ((View.whole main_v12).slice (win0_4.rect t)).set ↔ _
  rw [View.set_slice_whole, Rect.mem_set_unit]
  exact Iff.rfl

/-- The row bands fill the array: row r is in band r / 256. -/
theorem cover (i : S2048x1024.Idx) : ∃ t : Fin cfg0.N, (cfg0.win 4).flush t = true ∧ i ∈ ((cfg0.win 4).blk t).view.set := by
  have hi0 : (i 0).val < 2048 := (i 0).isLt
  have hi1 : (i 1).val < 1024 := (i 1).isLt
  have hN : cfg0.N = 8 := N_0
  refine ⟨⟨(i 0).val / 256, by rw [hN]; omega⟩, flush0_4 _, ?_⟩
  rw [mem_blk]
  obtain ⟨-, -, -, -, -, -, -, -, q0, q1⟩ := idx_facts ⟨(i 0).val / 256, by rw [hN]; omega⟩
  intro a
  match a with
  | ⟨0, _⟩ => show win0_4.index _ (0 : Fin 2) * 256 ≤ (i 0).val ∧ (i 0).val < win0_4.index _ (0 : Fin 2) * 256 + 256; rw [q0]; show (i 0).val / 256 * 256 ≤ _ ∧ _ < (i 0).val / 256 * 256 + 256; omega
  | ⟨1, _⟩ => show win0_4.index _ (1 : Fin 2) * 1024 ≤ (i 1).val ∧ (i 1).val < win0_4.index _ (1 : Fin 2) * 1024 + 1024; rw [q1]; omega

/-- The output array after region 0. -/
theorem final (c : Dev nD) : (dat0 V c).arrAt 4 cfg0.N
    = wEps (Dout := 2048) (Din := 1024) (V c main_arg1) (V c main_arg3) (V c main_arg5) (V c main_arg7) :=
  (dat0 V c).arrAt_eq_of_cover 4 _ (fun t _ => flushed_eq V c t) cover

end Cert.KernelIdeal.Prep0

end
-- ==== Proof.Prep2.lean ====
/-
  Region 2: layer 1's clamped weight radius e and the sum |w| + e.  Each grid point j (8 of them)
  loads rows 256·j … 256·j + 255 of the four weight-side arrays w, wa, we, wv (all 2048 columns) and stores,
  over the same rows of the two outputs, e = sigmoid(wv) · min(wa + we - w, w - (wa - we)) and |w| + e.
  The blocks are disjoint row bands that fill the 2048 rows, and an output entry depends only on the
  four input entries at its own index, so after the region the first output array is `wEps w wa we wv` and
  the second is `wAbsPlus w (wEps w wa we wv)`, of the arrays as the region found them.
-/
import proofs.«181910_j61117384622159_2_alg».proof.Proof.Gen.KernelIdeal.Frame
import proofs.«181910_j61117384622159_2_alg».proof.Proof.Spec
import Idealize.ShloMosaic.Lib.Pipeline.Value
import Idealize.ShloMosaic.Lib.ValueIdx

set_option maxRecDepth 16384

noncomputable section

namespace Cert.KernelIdeal.Prep2

open Cert.KernelIdeal Cert.KernelIdeal.Gen Cert.Ibp
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The first output's arithmetic at one entry: the clamped radius of the four loaded entries. -/
theorem pay1_apply (x0 x1 x2 x3 : Vec Ideal S256x2048 .f32) (j : S256x2048.Idx) :
    k2_pay1 x0 x1 x2 x3 j = eps (x0 j) (x1 j) (x2 j) (x3 j) := by
  unfold k2_pay1 eps epsOf inter
  rw [← logistic_eq_sig]
  rfl

/-- The same, for the whole block. -/
theorem pay1_eq (x0 x1 x2 x3 : Vec Ideal S256x2048 .f32) :
    k2_pay1 x0 x1 x2 x3 = fun j => eps (x0 j) (x1 j) (x2 j) (x3 j) := funext (pay1_apply x0 x1 x2 x3)

/-- The second output's arithmetic at one entry: |w| plus the clamped radius. -/
theorem pay2_apply (x0 x1 x2 x3 : Vec Ideal S256x2048 .f32) (j : S256x2048.Idx) :
    k2_pay2 x0 x1 x2 x3 j = abs (x0 j) + eps (x0 j) (x1 j) (x2 j) (x3 j) := by
  unfold k2_pay2
  show abs (x0 j) + k2_pay1 x0 x1 x2 x3 j = _
  rw [pay1_apply]

/-- The same, for the whole block. -/
theorem pay2_eq (x0 x1 x2 x3 : Vec Ideal S256x2048 .f32) :
    k2_pay2 x0 x1 x2 x3 = fun j => abs (x0 j) + eps (x0 j) (x1 j) (x2 j) (x3 j) := funext (pay2_apply x0 x1 x2 x3)

/-- Every window of the region is at block (j, 0) at point j. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

theorem flushed_eq_eps (c : Dev nD) (t : Fin cfg2.N) :
    (dat2 V c).flushed 4 t = ((cfg2.win 4).blk t).view.read (Elt Ideal)
      (wEps (Dout := 2048) (Din := 2048) (V c main_arg9) (V c main_arg11) (V c main_arg13) (V c main_arg15)) := by
  show (cfg2.win 4).cut (grid2.coords t) ((dat2 V c).after 4 t) = _
  rw [after2_4]
  unfold out2_4
  rw [View.canon_unit_zero origin]
  simp only [View.ld_unit_zero (S := S256x2048) origin]
  rw [pay1_eq]
  funext j
  obtain ⟨p00, p01, p10, p11, p20, p21, p30, p31, p40, p41, p50, p51⟩ := idx_facts t
  have h0 : ((cfg2.win 0).blk t).view.emb j = ((cfg2.win 4).blk t).view.emb j := by
    funext a; apply Fin.ext
    match a with
    | ⟨0, _⟩ => show win2_0.index t (0 : Fin 2) * 256 + 1 * (j 0).val = win2_4.index t (0 : Fin 2) * 256 + 1 * (j 0).val; omega
    | ⟨1, _⟩ => show win2_0.index t (1 : Fin 2) * 2048 + 1 * (j 1).val = win2_4.index t (1 : Fin 2) * 2048 + 1 * (j 1).val; omega
  have h1 : ((cfg2.win 1).blk t).view.emb j = ((cfg2.win 4).blk t).view.emb j := by
    funext a; apply Fin.ext
    match a with
    | ⟨0, _⟩ => show win2_1.index t (0 : Fin 2) * 256 + 1 * (j 0).val = win2_4.index t (0 : Fin 2) * 256 + 1 * (j 0).val; omega
    | ⟨1, _⟩ => show win2_1.index t (1 : Fin 2) * 2048 + 1 * (j 1).val = win2_4.index t (1 : Fin 2) * 2048 + 1 * (j 1).val; omega
  have h2 : ((cfg2.win 2).blk t).view.emb j = ((cfg2.win 4).blk t).view.emb j := by
    funext a; apply Fin.ext
    match a with
    | ⟨0, _⟩ => show win2_2.index t (0 : Fin 2) * 256 + 1 * (j 0).val = win2_4.index t (0 : Fin 2) * 256 + 1 * (j 0).val; omega
    | ⟨1, _⟩ => show win2_2.index t (1 : Fin 2) * 2048 + 1 * (j 1).val = win2_4.index t (1 : Fin 2) * 2048 + 1 * (j 1).val; omega
  have h3 : ((cfg2.win 3).blk t).view.emb j = ((cfg2.win 4).blk t).view.emb j := by
    funext a; apply Fin.ext
    match a with
    | ⟨0, _⟩ => show win2_3.index t (0 : Fin 2) * 256 + 1 * (j 0).val = win2_4.index t (0 : Fin 2) * 256 + 1 * (j 0).val; omega
    | ⟨1, _⟩ => show win2_3.index t (1 : Fin 2) * 2048 + 1 * (j 1).val = win2_4.index t (1 : Fin 2) * 2048 + 1 * (j 1).val; omega
  show eps (V c main_arg9 (((cfg2.win 0).blk t).view.emb j)) (V c main_arg11 (((cfg2.win 1).blk t).view.emb j))
        (V c main_arg13 (((cfg2.win 2).blk t).view.emb j)) (V c main_arg15 (((cfg2.win 3).blk t).view.emb j))
      = eps (V c main_arg9 (((cfg2.win 4).blk t).view.emb j)) (V c main_arg11 (((cfg2.win 4).blk t).view.emb j))
        (V c main_arg13 (((cfg2.win 4).blk t).view.emb j)) (V c main_arg15 (((cfg2.win 4).blk t).view.emb j))
  rw [h0, h1, h2, h3]

theorem flushed_eq_s (c : Dev nD) (t : Fin cfg2.N) :
    (dat2 V c).flushed 5 t = ((cfg2.win 5).blk t).view.read (Elt Ideal)
      (wAbsPlus (Dout := 2048) (Din := 2048) (V c main_arg9) (wEps (Dout := 2048) (Din := 2048) (V c main_arg9) (V c main_arg11) (V c main_arg13) (V c main_arg15))) := by
  show (cfg2.win 5).cut (grid2.coords t) ((dat2 V c).after 5 t) = _
  rw [after2_5]
  unfold out2_5
  rw [View.canon_unit_zero origin]
  simp only [View.ld_unit_zero (S := S256x2048) origin]
  rw [pay2_eq]
  funext j
  obtain ⟨p00, p01, p10, p11, p20, p21, p30, p31, p40, p41, p50, p51⟩ := idx_facts t
  have h0 : ((cfg2.win 0).blk t).view.emb j = ((cfg2.win 5).blk t).view.emb j := by
    funext a; apply Fin.ext
    match a with
    | ⟨0, _⟩ => show win2_0.index t (0 : Fin 2) * 256 + 1 * (j 0).val = win2_5.index t (0 : Fin 2) * 256 + 1 * (j 0).val; omega
    | ⟨1, _⟩ => show win2_0.index t (1 : Fin 2) * 2048 + 1 * (j 1).val = win2_5.index t (1 : Fin 2) * 2048 + 1 * (j 1).val; omega
  have h1 : ((cfg2.win 1).blk t).view.emb j = ((cfg2.win 5).blk t).view.emb j := by
    funext a; apply Fin.ext
    match a with
    | ⟨0, _⟩ => show win2_1.index t (0 : Fin 2) * 256 + 1 * (j 0).val = win2_5.index t (0 : Fin 2) * 256 + 1 * (j 0).val; omega
    | ⟨1, _⟩ => show win2_1.index t (1 : Fin 2) * 2048 + 1 * (j 1).val = win2_5.index t (1 : Fin 2) * 2048 + 1 * (j 1).val; omega
  have h2 : ((cfg2.win 2).blk t).view.emb j = ((cfg2.win 5).blk t).view.emb j := by
    funext a; apply Fin.ext
    match a with
    | ⟨0, _⟩ => show win2_2.index t (0 : Fin 2) * 256 + 1 * (j 0).val = win2_5.index t (0 : Fin 2) * 256 + 1 * (j 0).val; omega
    | ⟨1, _⟩ => show win2_2.index t (1 : Fin 2) * 2048 + 1 * (j 1).val = win2_5.index t (1 : Fin 2) * 2048 + 1 * (j 1).val; omega
  have h3 : ((cfg2.win 3).blk t).view.emb j = ((cfg2.win 5).blk t).view.emb j := by
    funext a; apply Fin.ext
    match a with
    | ⟨0, _⟩ => show win2_3.index t (0 : Fin 2) * 256 + 1 * (j 0).val = win2_5.index t (0 : Fin 2) * 256 + 1 * (j 0).val; omega
    | ⟨1, _⟩ => show win2_3.index t (1 : Fin 2) * 2048 + 1 * (j 1).val = win2_5.index t (1 : Fin 2) * 2048 + 1 * (j 1).val; omega
  show abs (V c main_arg9 (((cfg2.win 0).blk t).view.emb j)) + eps (V c main_arg9 (((cfg2.win 0).blk t).view.emb j)) (V c main_arg11 (((cfg2.win 1).blk t).view.emb j))
        (V c main_arg13 (((cfg2.win 2).blk t).view.emb j)) (V c main_arg15 (((cfg2.win 3).blk t).view.emb j))
      = abs (V c main_arg9 (((cfg2.win 5).blk t).view.emb j)) + eps (V c main_arg9 (((cfg2.win 5).blk t).view.emb j)) (V c main_arg11 (((cfg2.win 5).blk t).view.emb j))
        (V c main_arg13 (((cfg2.win 5).blk t).view.emb j)) (V c main_arg15 (((cfg2.win 5).blk t).view.emb j))
  rw [h0, h1, h2, h3]

/-- An index of the output array is in point t's block iff its row is in band t. -/
theorem mem_blk4 (t : Fin cfg2.N) (i : S2048x2048.Idx) :
    i ∈ ((cfg2.win 4).blk t).view.set ↔ ∀ a : Fin 2, win2_4.index t a * S256x2048.size a ≤ (i a).val ∧ (i a).val < win2_4.index t a * S256x2048.size a + S256x2048.size a := by
  show i ∈ ((View.whole main_v28_0).slice (win2_4.rect t)).set ↔ _
  rw [View.set_slice_whole, Rect.mem_set_unit]
  exact Iff.rfl

/-- An index of the output array is in point t's block iff its row is in band t. -/
theorem mem_blk5 (t : Fin cfg2.N) (i : S2048x2048.Idx) :
    i ∈ ((cfg2.win 5).blk t).view.set ↔ ∀ a : Fin 2, win2_5.index t a * S256x2048.size a ≤ (i a).val ∧ (i a).val < win2_5.index t a * S256x2048.size a + S256x2048.size a := by
  show i ∈ ((View.whole main_v28_1).slice (win2_5.rect t)).set ↔ _
  rw [View.set_slice_whole, Rect.mem_set_unit]
  exact Iff.rfl

/-- The row bands fill the array: row r is in band r / 256. -/
theorem cover4 (i : S2048x2048.Idx) : ∃ t : Fin cfg2.N, (cfg2.win 4).flush t = true ∧ i ∈ ((cfg2.win 4).blk t).view.set := by
  have hi0 : (i 0).val < 2048 := (i 0).isLt
  have hi1 : (i 1).val < 2048 := (i 1).isLt
  have hN : cfg2.N = 8 := N_2
  refine ⟨⟨(i 0).val / 256, by rw [hN]; omega⟩, flush2_4 _, ?_⟩
  rw [mem_blk4]
  obtain ⟨p00, p01, p10, p11, p20, p21, p30, p31, p40, p41, p50, p51⟩ := idx_facts ⟨(i 0).val / 256, by rw [hN]; omega⟩
  intro a
  match a with
  | ⟨0, _⟩ => show win2_4.index _ (0 : Fin 2) * 256 ≤ (i 0).val ∧ (i 0).val < win2_4.index _ (0 : Fin 2) * 256 + 256; rw [p40]; show (i 0).val / 256 * 256 ≤ _ ∧ _ < (i 0).val / 256 * 256 + 256; omega
  | ⟨1, _⟩ => show win2_4.index _ (1 : Fin 2) * 2048 ≤ (i 1).val ∧ (i 1).val < win2_4.index _ (1 : Fin 2) * 2048 + 2048; rw [p41]; omega

/-- The row bands fill the array: row r is in band r / 256. -/
theorem cover5 (i : S2048x2048.Idx) : ∃ t : Fin cfg2.N, (cfg2.win 5).flush t = true ∧ i ∈ ((cfg2.win 5).blk t).view.set := by
  have hi0 : (i 0).val < 2048 := (i 0).isLt
  have hi1 : (i 1).val < 2048 := (i 1).isLt
  have hN : cfg2.N = 8 := N_2
  refine ⟨⟨(i 0).val / 256, by rw [hN]; omega⟩, flush2_5 _, ?_⟩
  rw [mem_blk5]
  obtain ⟨p00, p01, p10, p11, p20, p21, p30, p31, p40, p41, p50, p51⟩ := idx_facts ⟨(i 0).val / 256, by rw [hN]; omega⟩
  intro a
  match a with
  | ⟨0, _⟩ => show win2_5.index _ (0 : Fin 2) * 256 ≤ (i 0).val ∧ (i 0).val < win2_5.index _ (0 : Fin 2) * 256 + 256; rw [p50]; show (i 0).val / 256 * 256 ≤ _ ∧ _ < (i 0).val / 256 * 256 + 256; omega
  | ⟨1, _⟩ => show win2_5.index _ (1 : Fin 2) * 2048 ≤ (i 1).val ∧ (i 1).val < win2_5.index _ (1 : Fin 2) * 2048 + 2048; rw [p51]; omega

/-- The first output array after region 2: the clamped weight radius. -/
theorem final_eps (c : Dev nD) : (dat2 V c).arrAt 4 cfg2.N
    = wEps (Dout := 2048) (Din := 2048) (V c main_arg9) (V c main_arg11) (V c main_arg13) (V c main_arg15) :=
  (dat2 V c).arrAt_eq_of_cover 4 _ (fun t _ => flushed_eq_eps V c t) cover4

/-- The second output array after region 2: |w| plus the clamped weight radius. -/
theorem final_s (c : Dev nD) : (dat2 V c).arrAt 5 cfg2.N
    = wAbsPlus (Dout := 2048) (Din := 2048) (V c main_arg9) (wEps (Dout := 2048) (Din := 2048) (V c main_arg9) (V c main_arg11) (V c main_arg13) (V c main_arg15)) :=
  (dat2 V c).arrAt_eq_of_cover 5 _ (fun t _ => flushed_eq_s V c t) cover5

end Cert.KernelIdeal.Prep2

end
-- ==== Proof.Prep4.lean ====
/-
  Region 4: layer 2's clamped weight radius e and the sum |w| + e.  Each grid point j (4 of them)
  loads rows 256·j … 256·j + 255 of the four weight-side arrays w, wa, we, wv (all 2048 columns) and stores,
  over the same rows of the two outputs, e = sigmoid(wv) · min(wa + we - w, w - (wa - we)) and |w| + e.
  The blocks are disjoint row bands that fill the 1024 rows, and an output entry depends only on the
  four input entries at its own index, so after the region the first output array is `wEps w wa we wv` and
  the second is `wAbsPlus w (wEps w wa we wv)`, of the arrays as the region found them.
-/
import proofs.«181910_j61117384622159_2_alg».proof.Proof.Gen.KernelIdeal.Frame
import proofs.«181910_j61117384622159_2_alg».proof.Proof.Spec
import Idealize.ShloMosaic.Lib.Pipeline.Value
import Idealize.ShloMosaic.Lib.ValueIdx

set_option maxRecDepth 16384

noncomputable section

namespace Cert.KernelIdeal.Prep4

open Cert.KernelIdeal Cert.KernelIdeal.Gen Cert.Ibp
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The first output's arithmetic at one entry: the clamped radius of the four loaded entries. -/
theorem pay1_apply (x0 x1 x2 x3 : Vec Ideal S256x2048 .f32) (j : S256x2048.Idx) :
    k4_pay1 x0 x1 x2 x3 j = eps (x0 j) (x1 j) (x2 j) (x3 j) := by
  unfold k4_pay1 eps epsOf inter
  rw [← logistic_eq_sig]
  rfl

/-- The same, for the whole block. -/
theorem pay1_eq (x0 x1 x2 x3 : Vec Ideal S256x2048 .f32) :
    k4_pay1 x0 x1 x2 x3 = fun j => eps (x0 j) (x1 j) (x2 j) (x3 j) := funext (pay1_apply x0 x1 x2 x3)

/-- The second output's arithmetic at one entry: |w| plus the clamped radius. -/
theorem pay2_apply (x0 x1 x2 x3 : Vec Ideal S256x2048 .f32) (j : S256x2048.Idx) :
    k4_pay2 x0 x1 x2 x3 j = abs (x0 j) + eps (x0 j) (x1 j) (x2 j) (x3 j) := by
  unfold k4_pay2
  show abs (x0 j) + k4_pay1 x0 x1 x2 x3 j = _
  rw [pay1_apply]

/-- The same, for the whole block. -/
theorem pay2_eq (x0 x1 x2 x3 : Vec Ideal S256x2048 .f32) :
    k4_pay2 x0 x1 x2 x3 = fun j => abs (x0 j) + eps (x0 j) (x1 j) (x2 j) (x3 j) := funext (pay2_apply x0 x1 x2 x3)

/-- Every window of the region is at block (j, 0) at point j. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

theorem flushed_eq_eps (c : Dev nD) (t : Fin cfg4.N) :
    (dat4 V c).flushed 4 t = ((cfg4.win 4).blk t).view.read (Elt Ideal)
      (wEps (Dout := 1024) (Din := 2048) (V c main_arg17) (V c main_arg19) (V c main_arg21) (V c main_arg23)) := by
  show (cfg4.win 4).cut (grid4.coords t) ((dat4 V c).after 4 t) = _
  rw [after4_4]
  unfold out4_4
  rw [View.canon_unit_zero origin]
  simp only [View.ld_unit_zero (S := S256x2048) origin]
  rw [pay1_eq]
  funext j
  obtain ⟨p00, p01, p10, p11, p20, p21, p30, p31, p40, p41, p50, p51⟩ := idx_facts t
  have h0 : ((cfg4.win 0).blk t).view.emb j = ((cfg4.win 4).blk t).view.emb j := by
    funext a; apply Fin.ext
    match a with
    | ⟨0, _⟩ => show win4_0.index t (0 : Fin 2) * 256 + 1 * (j 0).val = win4_4.index t (0 : Fin 2) * 256 + 1 * (j 0).val; omega
    | ⟨1, _⟩ => show win4_0.index t (1 : Fin 2) * 2048 + 1 * (j 1).val = win4_4.index t (1 : Fin 2) * 2048 + 1 * (j 1).val; omega
  have h1 : ((cfg4.win 1).blk t).view.emb j = ((cfg4.win 4).blk t).view.emb j := by
    funext a; apply Fin.ext
    match a with
    | ⟨0, _⟩ => show win4_1.index t (0 : Fin 2) * 256 + 1 * (j 0).val = win4_4.index t (0 : Fin 2) * 256 + 1 * (j 0).val; omega
    | ⟨1, _⟩ => show win4_1.index t (1 : Fin 2) * 2048 + 1 * (j 1).val = win4_4.index t (1 : Fin 2) * 2048 + 1 * (j 1).val; omega
  have h2 : ((cfg4.win 2).blk t).view.emb j = ((cfg4.win 4).blk t).view.emb j := by
    funext a; apply Fin.ext
    match a with
    | ⟨0, _⟩ => show win4_2.index t (0 : Fin 2) * 256 + 1 * (j 0).val = win4_4.index t (0 : Fin 2) * 256 + 1 * (j 0).val; omega
    | ⟨1, _⟩ => show win4_2.index t (1 : Fin 2) * 2048 + 1 * (j 1).val = win4_4.index t (1 : Fin 2) * 2048 + 1 * (j 1).val; omega
  have h3 : ((cfg4.win 3).blk t).view.emb j = ((cfg4.win 4).blk t).view.emb j := by
    funext a; apply Fin.ext
    match a with
    | ⟨0, _⟩ => show win4_3.index t (0 : Fin 2) * 256 + 1 * (j 0).val = win4_4.index t (0 : Fin 2) * 256 + 1 * (j 0).val; omega
    | ⟨1, _⟩ => show win4_3.index t (1 : Fin 2) * 2048 + 1 * (j 1).val = win4_4.index t (1 : Fin 2) * 2048 + 1 * (j 1).val; omega
  show eps (V c main_arg17 (((cfg4.win 0).blk t).view.emb j)) (V c main_arg19 (((cfg4.win 1).blk t).view.emb j))
        (V c main_arg21 (((cfg4.win 2).blk t).view.emb j)) (V c main_arg23 (((cfg4.win 3).blk t).view.emb j))
      = eps (V c main_arg17 (((cfg4.win 4).blk t).view.emb j)) (V c main_arg19 (((cfg4.win 4).blk t).view.emb j))
        (V c main_arg21 (((cfg4.win 4).blk t).view.emb j)) (V c main_arg23 (((cfg4.win 4).blk t).view.emb j))
  rw [h0, h1, h2, h3]

theorem flushed_eq_s (c : Dev nD) (t : Fin cfg4.N) :
    (dat4 V c).flushed 5 t = ((cfg4.win 5).blk t).view.read (Elt Ideal)
      (wAbsPlus (Dout := 1024) (Din := 2048) (V c main_arg17) (wEps (Dout := 1024) (Din := 2048) (V c main_arg17) (V c main_arg19) (V c main_arg21) (V c main_arg23))) := by
  show (cfg4.win 5).cut (grid4.coords t) ((dat4 V c).after 5 t) = _
  rw [after4_5]
  unfold out4_5
  rw [View.canon_unit_zero origin]
  simp only [View.ld_unit_zero (S := S256x2048) origin]
  rw [pay2_eq]
  funext j
  obtain ⟨p00, p01, p10, p11, p20, p21, p30, p31, p40, p41, p50, p51⟩ := idx_facts t
  have h0 : ((cfg4.win 0).blk t).view.emb j = ((cfg4.win 5).blk t).view.emb j := by
    funext a; apply Fin.ext
    match a with
    | ⟨0, _⟩ => show win4_0.index t (0 : Fin 2) * 256 + 1 * (j 0).val = win4_5.index t (0 : Fin 2) * 256 + 1 * (j 0).val; omega
    | ⟨1, _⟩ => show win4_0.index t (1 : Fin 2) * 2048 + 1 * (j 1).val = win4_5.index t (1 : Fin 2) * 2048 + 1 * (j 1).val; omega
  have h1 : ((cfg4.win 1).blk t).view.emb j = ((cfg4.win 5).blk t).view.emb j := by
    funext a; apply Fin.ext
    match a with
    | ⟨0, _⟩ => show win4_1.index t (0 : Fin 2) * 256 + 1 * (j 0).val = win4_5.index t (0 : Fin 2) * 256 + 1 * (j 0).val; omega
    | ⟨1, _⟩ => show win4_1.index t (1 : Fin 2) * 2048 + 1 * (j 1).val = win4_5.index t (1 : Fin 2) * 2048 + 1 * (j 1).val; omega
  have h2 : ((cfg4.win 2).blk t).view.emb j = ((cfg4.win 5).blk t).view.emb j := by
    funext a; apply Fin.ext
    match a with
    | ⟨0, _⟩ => show win4_2.index t (0 : Fin 2) * 256 + 1 * (j 0).val = win4_5.index t (0 : Fin 2) * 256 + 1 * (j 0).val; omega
    | ⟨1, _⟩ => show win4_2.index t (1 : Fin 2) * 2048 + 1 * (j 1).val = win4_5.index t (1 : Fin 2) * 2048 + 1 * (j 1).val; omega
  have h3 : ((cfg4.win 3).blk t).view.emb j = ((cfg4.win 5).blk t).view.emb j := by
    funext a; apply Fin.ext
    match a with
    | ⟨0, _⟩ => show win4_3.index t (0 : Fin 2) * 256 + 1 * (j 0).val = win4_5.index t (0 : Fin 2) * 256 + 1 * (j 0).val; omega
    | ⟨1, _⟩ => show win4_3.index t (1 : Fin 2) * 2048 + 1 * (j 1).val = win4_5.index t (1 : Fin 2) * 2048 + 1 * (j 1).val; omega
  show abs (V c main_arg17 (((cfg4.win 0).blk t).view.emb j)) + eps (V c main_arg17 (((cfg4.win 0).blk t).view.emb j)) (V c main_arg19 (((cfg4.win 1).blk t).view.emb j))
        (V c main_arg21 (((cfg4.win 2).blk t).view.emb j)) (V c main_arg23 (((cfg4.win 3).blk t).view.emb j))
      = abs (V c main_arg17 (((cfg4.win 5).blk t).view.emb j)) + eps (V c main_arg17 (((cfg4.win 5).blk t).view.emb j)) (V c main_arg19 (((cfg4.win 5).blk t).view.emb j))
        (V c main_arg21 (((cfg4.win 5).blk t).view.emb j)) (V c main_arg23 (((cfg4.win 5).blk t).view.emb j))
  rw [h0, h1, h2, h3]

/-- An index of the output array is in point t's block iff its row is in band t. -/
theorem mem_blk4 (t : Fin cfg4.N) (i : S1024x2048.Idx) :
    i ∈ ((cfg4.win 4).blk t).view.set ↔ ∀ a : Fin 2, win4_4.index t a * S256x2048.size a ≤ (i a).val ∧ (i a).val < win4_4.index t a * S256x2048.size a + S256x2048.size a := by
  show i ∈ ((View.whole main_v44_0).slice (win4_4.rect t)).set ↔ _
  rw [View.set_slice_whole, Rect.mem_set_unit]
  exact Iff.rfl

/-- An index of the output array is in point t's block iff its row is in band t. -/
theorem mem_blk5 (t : Fin cfg4.N) (i : S1024x2048.Idx) :
    i ∈ ((cfg4.win 5).blk t).view.set ↔ ∀ a : Fin 2, win4_5.index t a * S256x2048.size a ≤ (i a).val ∧ (i a).val < win4_5.index t a * S256x2048.size a + S256x2048.size a := by
  show i ∈ ((View.whole main_v44_1).slice (win4_5.rect t)).set ↔ _
  rw [View.set_slice_whole, Rect.mem_set_unit]
  exact Iff.rfl

/-- The row bands fill the array: row r is in band r / 256. -/
theorem cover4 (i : S1024x2048.Idx) : ∃ t : Fin cfg4.N, (cfg4.win 4).flush t = true ∧ i ∈ ((cfg4.win 4).blk t).view.set := by
  have hi0 : (i 0).val < 1024 := (i 0).isLt
  have hi1 : (i 1).val < 2048 := (i 1).isLt
  have hN : cfg4.N = 4 := N_4
  refine ⟨⟨(i 0).val / 256, by rw [hN]; omega⟩, flush4_4 _, ?_⟩
  rw [mem_blk4]
  obtain ⟨p00, p01, p10, p11, p20, p21, p30, p31, p40, p41, p50, p51⟩ := idx_facts ⟨(i 0).val / 256, by rw [hN]; omega⟩
  intro a
  match a with
  | ⟨0, _⟩ => show win4_4.index _ (0 : Fin 2) * 256 ≤ (i 0).val ∧ (i 0).val < win4_4.index _ (0 : Fin 2) * 256 + 256; rw [p40]; show (i 0).val / 256 * 256 ≤ _ ∧ _ < (i 0).val / 256 * 256 + 256; omega
  | ⟨1, _⟩ => show win4_4.index _ (1 : Fin 2) * 2048 ≤ (i 1).val ∧ (i 1).val < win4_4.index _ (1 : Fin 2) * 2048 + 2048; rw [p41]; omega

/-- The row bands fill the array: row r is in band r / 256. -/
theorem cover5 (i : S1024x2048.Idx) : ∃ t : Fin cfg4.N, (cfg4.win 5).flush t = true ∧ i ∈ ((cfg4.win 5).blk t).view.set := by
  have hi0 : (i 0).val < 1024 := (i 0).isLt
  have hi1 : (i 1).val < 2048 := (i 1).isLt
  have hN : cfg4.N = 4 := N_4
  refine ⟨⟨(i 0).val / 256, by rw [hN]; omega⟩, flush4_5 _, ?_⟩
  rw [mem_blk5]
  obtain ⟨p00, p01, p10, p11, p20, p21, p30, p31, p40, p41, p50, p51⟩ := idx_facts ⟨(i 0).val / 256, by rw [hN]; omega⟩
  intro a
  match a with
  | ⟨0, _⟩ => show win4_5.index _ (0 : Fin 2) * 256 ≤ (i 0).val ∧ (i 0).val < win4_5.index _ (0 : Fin 2) * 256 + 256; rw [p50]; show (i 0).val / 256 * 256 ≤ _ ∧ _ < (i 0).val / 256 * 256 + 256; omega
  | ⟨1, _⟩ => show win4_5.index _ (1 : Fin 2) * 2048 ≤ (i 1).val ∧ (i 1).val < win4_5.index _ (1 : Fin 2) * 2048 + 2048; rw [p51]; omega

/-- The first output array after region 4: the clamped weight radius. -/
theorem final_eps (c : Dev nD) : (dat4 V c).arrAt 4 cfg4.N
    = wEps (Dout := 1024) (Din := 2048) (V c main_arg17) (V c main_arg19) (V c main_arg21) (V c main_arg23) :=
  (dat4 V c).arrAt_eq_of_cover 4 _ (fun t _ => flushed_eq_eps V c t) cover4

/-- The second output array after region 4: |w| plus the clamped weight radius. -/
theorem final_s (c : Dev nD) : (dat4 V c).arrAt 5 cfg4.N
    = wAbsPlus (Dout := 1024) (Din := 2048) (V c main_arg17) (wEps (Dout := 1024) (Din := 2048) (V c main_arg17) (V c main_arg19) (V c main_arg21) (V c main_arg23)) :=
  (dat4 V c).arrAt_eq_of_cover 5 _ (fun t _ => flushed_eq_s V c t) cover5

end Cert.KernelIdeal.Prep4

end
-- ==== Proof.Layer1.lean ====
/-
  Region 1: the first layer's output bounds.  The grid is 4 × 8; point (a, b) loads rows 512·a … 512·a + 511 of the
  input x (all 1024 features), rows 256·b … 256·b + 255 of the weights w and of their clamped radius e, and columns
  256·b … 256·b + 255 of the bias and of the bias radius (both kept as one-row arrays).  It stores, over the
  512 × 256 rectangle at (512·a, 256·b) of the two outputs,
      max (x·wᵀ ∓ |x|·eᵀ + (bias ∓ bias radius)) 0,
  the products contracting the feature axis of both operands.  The 32 rectangles are disjoint and fill the
  2048 × 2048 outputs, and an output entry at (r, o) depends only on row r of x, row o of w and e and entry o of the
  two bias rows, so after the region the two outputs are the first-layer lower and upper bounds of the arrays as the
  region found them.
-/
import proofs.«181910_j61117384622159_2_alg».proof.Proof.Gen.KernelIdeal.Frame
import proofs.«181910_j61117384622159_2_alg».proof.Proof.Spec
import Idealize.ShloMosaic.Lib.Pipeline.Value
import Idealize.ShloMosaic.Lib.ValueIdx
import Idealize.ShloMosaic.PureOps.Ideal.Laws
import Idealize.ShloMosaic.Lib.ValueLayout

set_option maxRecDepth 16384

noncomputable section

namespace Cert.KernelIdeal.Layer1

open Cert.KernelIdeal Cert.KernelIdeal.Gen Cert.Ibp
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-! ## The product read at an entry -/

/-- The left operand is read at the output's row on its axis 0. -/
theorem lhs_0 (i : S512x256.Idx) (q : dot_S512x1024_S256x1024_S512x256_1_1_0_0_n_n.contr.Idx) :
    (dot_S512x1024_S256x1024_S512x256_1_1_0_0_n_n.lhsIdx i q 0).val = (i 0).val := by
  unfold DotDims.lhsIdx
  rw [dif_neg (show ¬(0 : Fin S512x1024.rank) ∈ dot_S512x1024_S256x1024_S512x256_1_1_0_0_n_n.lhsBatch by decide), dif_pos (show (0 : Fin S512x1024.rank) ∈ dot_S512x1024_S256x1024_S512x256_1_1_0_0_n_n.lhsNonContracting by decide)]
  rfl
/-- … and at the contraction index on its axis 1. -/
theorem lhs_1 (i : S512x256.Idx) (q : dot_S512x1024_S256x1024_S512x256_1_1_0_0_n_n.contr.Idx) :
    (dot_S512x1024_S256x1024_S512x256_1_1_0_0_n_n.lhsIdx i q 1).val = (q ⟨0, by decide⟩).val :=
  dot_S512x1024_S256x1024_S512x256_1_1_0_0_n_n.lhsIdx_val_of_single rfl i q
/-- The right operand is read at the output's column on its axis 0. -/
theorem rhs_0 (i : S512x256.Idx) (q : dot_S512x1024_S256x1024_S512x256_1_1_0_0_n_n.contr.Idx) :
    (dot_S512x1024_S256x1024_S512x256_1_1_0_0_n_n.rhsIdx i q 0).val = (i 1).val := by
  unfold DotDims.rhsIdx
  rw [dif_neg (show ¬(0 : Fin S256x1024.rank) ∈ dot_S512x1024_S256x1024_S512x256_1_1_0_0_n_n.rhsBatch by decide), dif_pos (show (0 : Fin S256x1024.rank) ∈ dot_S512x1024_S256x1024_S512x256_1_1_0_0_n_n.rhsNonContracting by decide)]
  rfl
/-- … and at the contraction index on its axis 1. -/
theorem rhs_1 (i : S512x256.Idx) (q : dot_S512x1024_S256x1024_S512x256_1_1_0_0_n_n.contr.Idx) :
    (dot_S512x1024_S256x1024_S512x256_1_1_0_0_n_n.rhsIdx i q 1).val = (q ⟨0, by decide⟩).val :=
  dot_S512x1024_S256x1024_S512x256_1_1_0_0_n_n.rhsIdx_val_of_single rfl i q

/-- The product into a zero accumulator, at entry (p, q): row p of the left operand against row q of the right. -/
theorem matmul_at (a : FVec Ideal S512x1024 .f32) (w : FVec Ideal S256x1024 .f32) (p : Fin 512) (q : Fin 256) :
    FloatOps.matmul (F := Ideal) dot_S512x1024_S256x1024_S512x256_1_1_0_0_n_n (some .fp32) a w (constant S512x256 .f32 0x00000000#32) (ix2 p q)
      = ∑ k : Fin 1024, a (ix2 p k) * w (ix2 q k) := by
  rw [Ideal.matmul_constant_zero_apply, ← Equiv.sum_comp (ValueIdx.contrEquiv1 dot_S512x1024_S256x1024_S512x256_1_1_0_0_n_n 1024 rfl rfl).symm]
  refine Finset.sum_congr rfl fun k _ => ?_
  have hk := ValueIdx.contrEquiv1_symm_val dot_S512x1024_S256x1024_S512x256_1_1_0_0_n_n 1024 rfl rfl k
  have el : dot_S512x1024_S256x1024_S512x256_1_1_0_0_n_n.lhsIdx (ix2 p q) ((ValueIdx.contrEquiv1 dot_S512x1024_S256x1024_S512x256_1_1_0_0_n_n 1024 rfl rfl).symm k) = ix2 p k := funext fun ax => Fin.ext (by
    match ax with
    | ⟨0, _⟩ => exact lhs_0 _ _
    | ⟨1, _⟩ => exact (lhs_1 _ _).trans hk)
  have er : dot_S512x1024_S256x1024_S512x256_1_1_0_0_n_n.rhsIdx (ix2 p q) ((ValueIdx.contrEquiv1 dot_S512x1024_S256x1024_S512x256_1_1_0_0_n_n 1024 rfl rfl).symm k) = ix2 q k := funext fun ax => Fin.ext (by
    match ax with
    | ⟨0, _⟩ => exact rhs_0 _ _
    | ⟨1, _⟩ => exact (rhs_1 _ _).trans hk)
  rw [el, er]

/-! ## The body's arithmetic at an entry -/

/-- The plain product x·wᵀ at entry (p, q). -/
theorem pay1_at (x0 : Vec Ideal S512x1024 .f32) (x1 : Vec Ideal S256x1024 .f32) (p : Fin 512) (q : Fin 256) :
    k1_pay1 x0 x1 (ix2 p q) = ∑ k : Fin 1024, x0 (ix2 p k) * x1 (ix2 q k) :=
  matmul_at x0 x1 p q

/-- The product |x|·eᵀ at entry (p, q). -/
theorem pay2_at (x0 : Vec Ideal S512x1024 .f32) (x2 : Vec Ideal S256x1024 .f32) (p : Fin 512) (q : Fin 256) :
    k1_pay2 x0 x2 (ix2 p q) = ∑ k : Fin 1024, abs (x0 (ix2 p k)) * x2 (ix2 q k) := by
  unfold k1_pay2
  rw [shapeCast_self]
  exact matmul_at (absf x0) x2 p q

/-- The lower bound's arithmetic at entry (p, q) of the block. -/
theorem pay5_at (x0 : Vec Ideal S512x1024 .f32) (x1 x2 : Vec Ideal S256x1024 .f32) (x3 x4 : Vec Ideal S1x256 .f32)
    (p : Fin 512) (q : Fin 256) :
    k1_pay5 x0 x1 x2 x3 x4 (ix2 p q)
      = max ((∑ k : Fin 1024, x0 (ix2 p k) * x1 (ix2 q k)) - (∑ k : Fin 1024, abs (x0 (ix2 p k)) * x2 (ix2 q k))
          + (x3 (ix2 0 q) - x4 (ix2 0 q))) zero := by
  unfold k1_pay5
  show max ((k1_pay1 x0 x1 (ix2 p q) - k1_pay2 x0 x2 (ix2 p q))
      + broadcastTo S512x256 (subf (k1_pay3 x3) (k1_pay4 x4)) broadcasts_S1x256_S512x256 (ix2 p q)) zero = _
  rw [pay1_at, pay2_at, broadcastTo_1b_ab_apply]
  unfold k1_pay3 k1_pay4
  rw [shapeCast_self, shapeCast_self]
  rfl

/-- The upper bound's arithmetic at entry (p, q) of the block. -/
theorem pay6_at (x0 : Vec Ideal S512x1024 .f32) (x1 x2 : Vec Ideal S256x1024 .f32) (x3 x4 : Vec Ideal S1x256 .f32)
    (p : Fin 512) (q : Fin 256) :
    k1_pay6 x0 x1 x2 x3 x4 (ix2 p q)
      = max ((∑ k : Fin 1024, x0 (ix2 p k) * x1 (ix2 q k)) + (∑ k : Fin 1024, abs (x0 (ix2 p k)) * x2 (ix2 q k))
          + (x3 (ix2 0 q) + x4 (ix2 0 q))) zero := by
  unfold k1_pay6
  show max ((k1_pay1 x0 x1 (ix2 p q) + k1_pay2 x0 x2 (ix2 p q))
      + broadcastTo S512x256 (addf (k1_pay3 x3) (k1_pay4 x4)) broadcasts_S1x256_S512x256 (ix2 p q)) zero = _
  rw [pay1_at, pay2_at, broadcastTo_1b_ab_apply]
  unfold k1_pay3 k1_pay4
  rw [shapeCast_self, shapeCast_self]
  rfl

/-! ## A block entry in terms of the whole arrays -/

/-- If row p of the loaded input block is row r of X, rows q of the loaded weight and radius blocks are rows o of W and E,
    and entries q of the two loaded bias rows are entries o of the whole bias rows, then entry (p, q) of the lower
    bound's block is the first-layer lower bound at (r, o). -/
theorem block_lo (X : Mat 2048 1024) (W E : Mat 2048 1024) (Bv Be : Mat 1 2048)
    (x0 : Vec Ideal S512x1024 .f32) (x1 x2 : Vec Ideal S256x1024 .f32) (x3 x4 : Vec Ideal S1x256 .f32)
    (j : S512x256.Idx) (r o : Fin 2048)
    (h0 : ∀ k : Fin 1024, x0 (ix2 (j 0) k) = X (ix2 r k)) (h1 : ∀ k : Fin 1024, x1 (ix2 (j 1) k) = W (ix2 o k))
    (h2 : ∀ k : Fin 1024, x2 (ix2 (j 1) k) = E (ix2 o k))
    (h3 : x3 (ix2 0 (j 1)) = Bv (ix2 0 o)) (h4 : x4 (ix2 0 (j 1)) = Be (ix2 0 o)) :
    k1_pay5 x0 x1 x2 x3 x4 j
      = firstLoAt (B := 2048) (Din := 1024) (Dout := 2048) X W E (fun o => Bv (ix2 0 o)) (fun o => Be (ix2 0 o)) r o := by
  obtain ⟨p, q, rfl⟩ : ∃ p q, j = ix2 p q := ⟨j 0, j 1, eq_ix2 j⟩
  rw [pay5_at]
  unfold firstLoAt dotT
  show max ((∑ k : Fin 1024, x0 (ix2 p k) * x1 (ix2 q k)) - (∑ k : Fin 1024, abs (x0 (ix2 p k)) * x2 (ix2 q k))
          + (x3 (ix2 0 q) - x4 (ix2 0 q))) zero
     = max ((∑ k : Fin 1024, X (ix2 r k) * W (ix2 o k)) - (∑ k : Fin 1024, abs (X (ix2 r k)) * E (ix2 o k))
          + (Bv (ix2 0 o) - Be (ix2 0 o))) zero
  rw [Finset.sum_congr rfl (fun k _ => by rw [h0 k, h1 k] : ∀ k ∈ Finset.univ, x0 (ix2 p k) * x1 (ix2 q k) = X (ix2 r k) * W (ix2 o k)),
    Finset.sum_congr rfl (fun k _ => by rw [h0 k, h2 k] : ∀ k ∈ Finset.univ, abs (x0 (ix2 p k)) * x2 (ix2 q k) = abs (X (ix2 r k)) * E (ix2 o k)),
    h3, h4]

/-- The same for the upper bound. -/
theorem block_up (X : Mat 2048 1024) (W E : Mat 2048 1024) (Bv Be : Mat 1 2048)
    (x0 : Vec Ideal S512x1024 .f32) (x1 x2 : Vec Ideal S256x1024 .f32) (x3 x4 : Vec Ideal S1x256 .f32)
    (j : S512x256.Idx) (r o : Fin 2048)
    (h0 : ∀ k : Fin 1024, x0 (ix2 (j 0) k) = X (ix2 r k)) (h1 : ∀ k : Fin 1024, x1 (ix2 (j 1) k) = W (ix2 o k))
    (h2 : ∀ k : Fin 1024, x2 (ix2 (j 1) k) = E (ix2 o k))
    (h3 : x3 (ix2 0 (j 1)) = Bv (ix2 0 o)) (h4 : x4 (ix2 0 (j 1)) = Be (ix2 0 o)) :
    k1_pay6 x0 x1 x2 x3 x4 j
      = firstUpAt (B := 2048) (Din := 1024) (Dout := 2048) X W E (fun o => Bv (ix2 0 o)) (fun o => Be (ix2 0 o)) r o := by
  obtain ⟨p, q, rfl⟩ : ∃ p q, j = ix2 p q := ⟨j 0, j 1, eq_ix2 j⟩
  rw [pay6_at]
  unfold firstUpAt dotT
  show max ((∑ k : Fin 1024, x0 (ix2 p k) * x1 (ix2 q k)) + (∑ k : Fin 1024, abs (x0 (ix2 p k)) * x2 (ix2 q k))
          + (x3 (ix2 0 q) + x4 (ix2 0 q))) zero
     = max ((∑ k : Fin 1024, X (ix2 r k) * W (ix2 o k)) + (∑ k : Fin 1024, abs (X (ix2 r k)) * E (ix2 o k))
          + (Bv (ix2 0 o) + Be (ix2 0 o))) zero
  rw [Finset.sum_congr rfl (fun k _ => by rw [h0 k, h1 k] : ∀ k ∈ Finset.univ, x0 (ix2 p k) * x1 (ix2 q k) = X (ix2 r k) * W (ix2 o k)),
    Finset.sum_congr rfl (fun k _ => by rw [h0 k, h2 k] : ∀ k ∈ Finset.univ, abs (x0 (ix2 p k)) * x2 (ix2 q k) = abs (X (ix2 r k)) * E (ix2 o k)),
    h3, h4]

/-! ## The windows over the grid -/

/-- Point t = 8·a + b of the 4 × 8 grid: the input is at block (a, 0), the weights and their radius at (b, 0), the two bias
    rows at (0, b), both outputs at (a, b). -/
theorem idx_facts : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val % 8 ∧ win1_2.index t (1 : Fin 2) = 0
    ∧ win1_3.index t (0 : Fin 2) = 0 ∧ win1_3.index t (1 : Fin 2) = t.val % 8
    ∧ win1_4.index t (0 : Fin 2) = 0 ∧ win1_4.index t (1 : Fin 2) = t.val % 8
    ∧ win1_5.index t (0 : Fin 2) = t.val / 8 ∧ win1_5.index t (1 : Fin 2) = t.val % 8
    ∧ win1_6.index t (0 : Fin 2) = t.val / 8 ∧ win1_6.index t (1 : Fin 2) = t.val % 8 :=
  (by decide +kernel : ∀ t : Fin grid1.N, _)

/-! ## What a grid point writes back -/

/-- What point t writes back through the lower bound's window is block t of the first-layer lower bound. -/
theorem flushed_lo (c : Dev nD) (t : Fin cfg1.N) :
    (dat1 V c).flushed 5 t = ((cfg1.win 5).blk t).view.read (Elt Ideal)
      (fun i => firstLoAt (B := 2048) (Din := 1024) (Dout := 2048) (V c main_arg0) (V c main_arg1) (V c main_v12)
        (fun o => V c main_v13 (ix2 0 o)) (fun o => V c main_v14 (ix2 0 o)) (i 0) (i 1)) := by
  show (cfg1.win 5).cut (grid1.coords t) ((dat1 V c).after 5 t) = _
  rw [after1_5]
  unfold out1_5
  rw [View.canon_unit_zero origin]
  simp only [View.ld_unit_zero (S := S512x1024) origin, View.ld_unit_zero (S := S256x1024) origin, View.ld_unit_zero (S := S1x256) origin]
  funext j
  obtain ⟨e00, e01, e10, e11, e20, e21, e30, e31, e40, e41, e50, e51, e60, e61⟩ := idx_facts t
  show k1_pay5 (iblk1 V c 0 t) (iblk1 V c 1 t) (iblk1 V c 2 t) (iblk1 V c 3 t) (iblk1 V c 4 t) j
    = firstLoAt (B := 2048) (Din := 1024) (Dout := 2048) (V c main_arg0) (V c main_arg1) (V c main_v12)
        (fun o => V c main_v13 (ix2 0 o)) (fun o => V c main_v14 (ix2 0 o))
        ((((cfg1.win 5).blk t).view.emb j) 0) ((((cfg1.win 5).blk t).view.emb j) 1)
  refine block_lo (V c main_arg0) (V c main_arg1) (V c main_v12) (V c main_v13) (V c main_v14)
    (iblk1 V c 0 t) (iblk1 V c 1 t) (iblk1 V c 2 t) (iblk1 V c 3 t) (iblk1 V c 4 t) j _ _ ?_ ?_ ?_ ?_ ?_
  · intro k
    show V c main_arg0 (((cfg1.win 0).blk t).view.emb (ix2 (j 0) k)) = V c main_arg0 (ix2 ((((cfg1.win 5).blk t).view.emb j) 0) k)
    refine congrArg (V c main_arg0) (funext fun a => Fin.ext ?_)
    match a with
    | ⟨0, _⟩ => show win1_0.index t (0 : Fin 2) * 512 + 1 * (j 0).val = win1_5.index t (0 : Fin 2) * 512 + 1 * (j 0).val; omega
    | ⟨1, _⟩ => show win1_0.index t (1 : Fin 2) * 1024 + 1 * k.val = k.val; omega
  · intro k
    show V c main_arg1 (((cfg1.win 1).blk t).view.emb (ix2 (j 1) k)) = V c main_arg1 (ix2 ((((cfg1.win 5).blk t).view.emb j) 1) k)
    refine congrArg (V c main_arg1) (funext fun a => Fin.ext ?_)
    match a with
    | ⟨0, _⟩ => show win1_1.index t (0 : Fin 2) * 256 + 1 * (j 1).val = win1_5.index t (1 : Fin 2) * 256 + 1 * (j 1).val; omega
    | ⟨1, _⟩ => show win1_1.index t (1 : Fin 2) * 1024 + 1 * k.val = k.val; omega
  · intro k
    show V c main_v12 (((cfg1.win 2).blk t).view.emb (ix2 (j 1) k)) = V c main_v12 (ix2 ((((cfg1.win 5).blk t).view.emb j) 1) k)
    refine congrArg (V c main_v12) (funext fun a => Fin.ext ?_)
    match a with
    | ⟨0, _⟩ => show win1_2.index t (0 : Fin 2) * 256 + 1 * (j 1).val = win1_5.index t (1 : Fin 2) * 256 + 1 * (j 1).val; omega
    | ⟨1, _⟩ => show win1_2.index t (1 : Fin 2) * 1024 + 1 * k.val = k.val; omega
  · show V c main_v13 (((cfg1.win 3).blk t).view.emb (ix2 0 (j 1))) = V c main_v13 (ix2 0 ((((cfg1.win 5).blk t).view.emb j) 1))
    refine congrArg (V c main_v13) (funext fun a => Fin.ext ?_)
    match a with
    | ⟨0, _⟩ => show win1_3.index t (0 : Fin 2) * 1 + 1 * 0 = 0; omega
    | ⟨1, _⟩ => show win1_3.index t (1 : Fin 2) * 256 + 1 * (j 1).val = win1_5.index t (1 : Fin 2) * 256 + 1 * (j 1).val; omega
  · show V c main_v14 (((cfg1.win 4).blk t).view.emb (ix2 0 (j 1))) = V c main_v14 (ix2 0 ((((cfg1.win 5).blk t).view.emb j) 1))
    refine congrArg (V c main_v14) (funext fun a => Fin.ext ?_)
    match a with
    | ⟨0, _⟩ => show win1_4.index t (0 : Fin 2) * 1 + 1 * 0 = 0; omega
    | ⟨1, _⟩ => show win1_4.index t (1 : Fin 2) * 256 + 1 * (j 1).val = win1_5.index t (1 : Fin 2) * 256 + 1 * (j 1).val; omega

/-- What point t writes back through the upper bound's window is block t of the first-layer upper bound. -/
theorem flushed_up (c : Dev nD) (t : Fin cfg1.N) :
    (dat1 V c).flushed 6 t = ((cfg1.win 6).blk t).view.read (Elt Ideal)
      (fun i => firstUpAt (B := 2048) (Din := 1024) (Dout := 2048) (V c main_arg0) (V c main_arg1) (V c main_v12)
        (fun o => V c main_v13 (ix2 0 o)) (fun o => V c main_v14 (ix2 0 o)) (i 0) (i 1)) := by
  show (cfg1.win 6).cut (grid1.coords t) ((dat1 V c).after 6 t) = _
  rw [after1_6]
  unfold out1_6
  rw [View.canon_unit_zero origin]
  simp only [View.ld_unit_zero (S := S512x1024) origin, View.ld_unit_zero (S := S256x1024) origin, View.ld_unit_zero (S := S1x256) origin]
  funext j
  obtain ⟨e00, e01, e10, e11, e20, e21, e30, e31, e40, e41, e50, e51, e60, e61⟩ := idx_facts t
  show k1_pay6 (iblk1 V c 0 t) (iblk1 V c 1 t) (iblk1 V c 2 t) (iblk1 V c 3 t) (iblk1 V c 4 t) j
    = firstUpAt (B := 2048) (Din := 1024) (Dout := 2048) (V c main_arg0) (V c main_arg1) (V c main_v12)
        (fun o => V c main_v13 (ix2 0 o)) (fun o => V c main_v14 (ix2 0 o))
        ((((cfg1.win 6).blk t).view.emb j) 0) ((((cfg1.win 6).blk t).view.emb j) 1)
  refine block_up (V c main_arg0) (V c main_arg1) (V c main_v12) (V c main_v13) (V c main_v14)
    (iblk1 V c 0 t) (iblk1 V c 1 t) (iblk1 V c 2 t) (iblk1 V c 3 t) (iblk1 V c 4 t) j _ _ ?_ ?_ ?_ ?_ ?_
  · intro k
    show V c main_arg0 (((cfg1.win 0).blk t).view.emb (ix2 (j 0) k)) = V c main_arg0 (ix2 ((((cfg1.win 6).blk t).view.emb j) 0) k)
    refine congrArg (V c main_arg0) (funext fun a => Fin.ext ?_)
    match a with
    | ⟨0, _⟩ => show win1_0.index t (0 : Fin 2) * 512 + 1 * (j 0).val = win1_6.index t (0 : Fin 2) * 512 + 1 * (j 0).val; omega
    | ⟨1, _⟩ => show win1_0.index t (1 : Fin 2) * 1024 + 1 * k.val = k.val; omega
  · intro k
    show V c main_arg1 (((cfg1.win 1).blk t).view.emb (ix2 (j 1) k)) = V c main_arg1 (ix2 ((((cfg1.win 6).blk t).view.emb j) 1) k)
    refine congrArg (V c main_arg1) (funext fun a => Fin.ext ?_)
    match a with
    | ⟨0, _⟩ => show win1_1.index t (0 : Fin 2) * 256 + 1 * (j 1).val = win1_6.index t (1 : Fin 2) * 256 + 1 * (j 1).val; omega
    | ⟨1, _⟩ => show win1_1.index t (1 : Fin 2) * 1024 + 1 * k.val = k.val; omega
  · intro k
    show V c main_v12 (((cfg1.win 2).blk t).view.emb (ix2 (j 1) k)) = V c main_v12 (ix2 ((((cfg1.win 6).blk t).view.emb j) 1) k)
    refine congrArg (V c main_v12) (funext fun a => Fin.ext ?_)
    match a with
    | ⟨0, _⟩ => show win1_2.index t (0 : Fin 2) * 256 + 1 * (j 1).val = win1_6.index t (1 : Fin 2) * 256 + 1 * (j 1).val; omega
    | ⟨1, _⟩ => show win1_2.index t (1 : Fin 2) * 1024 + 1 * k.val = k.val; omega
  · show V c main_v13 (((cfg1.win 3).blk t).view.emb (ix2 0 (j 1))) = V c main_v13 (ix2 0 ((((cfg1.win 6).blk t).view.emb j) 1))
    refine congrArg (V c main_v13) (funext fun a => Fin.ext ?_)
    match a with
    | ⟨0, _⟩ => show win1_3.index t (0 : Fin 2) * 1 + 1 * 0 = 0; omega
    | ⟨1, _⟩ => show win1_3.index t (1 : Fin 2) * 256 + 1 * (j 1).val = win1_6.index t (1 : Fin 2) * 256 + 1 * (j 1).val; omega
  · show V c main_v14 (((cfg1.win 4).blk t).view.emb (ix2 0 (j 1))) = V c main_v14 (ix2 0 ((((cfg1.win 6).blk t).view.emb j) 1))
    refine congrArg (V c main_v14) (funext fun a => Fin.ext ?_)
    match a with
    | ⟨0, _⟩ => show win1_4.index t (0 : Fin 2) * 1 + 1 * 0 = 0; omega
    | ⟨1, _⟩ => show win1_4.index t (1 : Fin 2) * 256 + 1 * (j 1).val = win1_6.index t (1 : Fin 2) * 256 + 1 * (j 1).val; omega

/-! ## The blocks cover the outputs -/

/-- An entry of the output array is in point t's block iff it is in the block's rows and columns. -/
theorem mem_blk_lo (t : Fin cfg1.N) (i : S2048x2048.Idx) :
    i ∈ ((cfg1.win 5).blk t).view.set ↔ ∀ a : Fin 2, win1_5.index t a * S512x256.size a ≤ (i a).val ∧ (i a).val < win1_5.index t a * S512x256.size a + S512x256.size a := by
  show i ∈ ((View.whole main_v15_0).slice (win1_5.rect t)).set ↔ _
  rw [View.set_slice_whole, Rect.mem_set_unit]
  exact Iff.rfl

/-- The 32 rectangles fill the array: entry (r, o) is in the block of point 8 · (r / 512) + o / 256. -/
theorem cover_lo (i : S2048x2048.Idx) : ∃ t : Fin cfg1.N, (cfg1.win 5).flush t = true ∧ i ∈ ((cfg1.win 5).blk t).view.set := by
  have hi0 : (i 0).val < 2048 := (i 0).isLt
  have hi1 : (i 1).val < 2048 := (i 1).isLt
  have hN : cfg1.N = 32 := N_1
  refine ⟨⟨(i 0).val / 512 * 8 + (i 1).val / 256, by rw [hN]; omega⟩, flush1_5 _, ?_⟩
  rw [mem_blk_lo]
  obtain ⟨-, -, -, -, -, -, -, -, -, -, q50, q51, q60, q61⟩ := idx_facts ⟨(i 0).val / 512 * 8 + (i 1).val / 256, by rw [hN]; omega⟩
  intro a
  match a with
  | ⟨0, _⟩ => show win1_5.index _ (0 : Fin 2) * 512 ≤ (i 0).val ∧ (i 0).val < win1_5.index _ (0 : Fin 2) * 512 + 512; rw [q50]; show ((i 0).val / 512 * 8 + (i 1).val / 256) / 8 * 512 ≤ _ ∧ _ < ((i 0).val / 512 * 8 + (i 1).val / 256) / 8 * 512 + 512; omega
  | ⟨1, _⟩ => show win1_5.index _ (1 : Fin 2) * 256 ≤ (i 1).val ∧ (i 1).val < win1_5.index _ (1 : Fin 2) * 256 + 256; rw [q51]; show ((i 0).val / 512 * 8 + (i 1).val / 256) % 8 * 256 ≤ _ ∧ _ < ((i 0).val / 512 * 8 + (i 1).val / 256) % 8 * 256 + 256; omega

/-- An entry of the output array is in point t's block iff it is in the block's rows and columns. -/
theorem mem_blk_up (t : Fin cfg1.N) (i : S2048x2048.Idx) :
    i ∈ ((cfg1.win 6).blk t).view.set ↔ ∀ a : Fin 2, win1_6.index t a * S512x256.size a ≤ (i a).val ∧ (i a).val < win1_6.index t a * S512x256.size a + S512x256.size a := by
  show i ∈ ((View.whole main_v15_1).slice (win1_6.rect t)).set ↔ _
  rw [View.set_slice_whole, Rect.mem_set_unit]
  exact Iff.rfl

/-- The 32 rectangles fill the array: entry (r, o) is in the block of point 8 · (r / 512) + o / 256. -/
theorem cover_up (i : S2048x2048.Idx) : ∃ t : Fin cfg1.N, (cfg1.win 6).flush t = true ∧ i ∈ ((cfg1.win 6).blk t).view.set := by
  have hi0 : (i 0).val < 2048 := (i 0).isLt
  have hi1 : (i 1).val < 2048 := (i 1).isLt
  have hN : cfg1.N = 32 := N_1
  refine ⟨⟨(i 0).val / 512 * 8 + (i 1).val / 256, by rw [hN]; omega⟩, flush1_6 _, ?_⟩
  rw [mem_blk_up]
  obtain ⟨-, -, -, -, -, -, -, -, -, -, q50, q51, q60, q61⟩ := idx_facts ⟨(i 0).val / 512 * 8 + (i 1).val / 256, by rw [hN]; omega⟩
  intro a
  match a with
  | ⟨0, _⟩ => show win1_6.index _ (0 : Fin 2) * 512 ≤ (i 0).val ∧ (i 0).val < win1_6.index _ (0 : Fin 2) * 512 + 512; rw [q60]; show ((i 0).val / 512 * 8 + (i 1).val / 256) / 8 * 512 ≤ _ ∧ _ < ((i 0).val / 512 * 8 + (i 1).val / 256) / 8 * 512 + 512; omega
  | ⟨1, _⟩ => show win1_6.index _ (1 : Fin 2) * 256 ≤ (i 1).val ∧ (i 1).val < win1_6.index _ (1 : Fin 2) * 256 + 256; rw [q61]; show ((i 0).val / 512 * 8 + (i 1).val / 256) % 8 * 256 ≤ _ ∧ _ < ((i 0).val / 512 * 8 + (i 1).val / 256) % 8 * 256 + 256; omega

/-! ## The outputs after the region -/

/-- The lower bound's array after region 1. -/
theorem final_lo (c : Dev nD) : (dat1 V c).arrAt 5 cfg1.N
    = fun i => firstLoAt (B := 2048) (Din := 1024) (Dout := 2048) (V c main_arg0) (V c main_arg1) (V c main_v12)
        (fun o => V c main_v13 (ix2 0 o)) (fun o => V c main_v14 (ix2 0 o)) (i 0) (i 1) :=
  (dat1 V c).arrAt_eq_of_cover 5 _ (fun t _ => flushed_lo V c t) cover_lo

/-- The upper bound's array after region 1. -/
theorem final_up (c : Dev nD) : (dat1 V c).arrAt 6 cfg1.N
    = fun i => firstUpAt (B := 2048) (Din := 1024) (Dout := 2048) (V c main_arg0) (V c main_arg1) (V c main_v12)
        (fun o => V c main_v13 (ix2 0 o)) (fun o => V c main_v14 (ix2 0 o)) (i 0) (i 1) :=
  (dat1 V c).arrAt_eq_of_cover 6 _ (fun t _ => flushed_up V c t) cover_up

end Cert.KernelIdeal.Layer1

end
-- ==== Proof.Layer3.lean ====
/-
  Region 3: the second layer's output bounds.  The grid is 4 × 8; point t = (t / 8, t % 8) loads rows
  512·(t / 8) … + 511 of the incoming lower and upper activation bounds (all 2048 features), rows
  256·(t % 8) … + 255 of the weights w, of their clamped radius e and of s = |w| + e, and entries
  256·(t % 8) … + 255 of the bias and of its radius.  With mu = (lo + up)/2 and rad = (up - lo)/2 it forms
     H = Σ_k mu[r,k] · w[o,k],   K = Σ_k |mu[r,k]| · e[o,k] + Σ_k rad[r,k] · s[o,k],
  each sum a product into a zero accumulator contracting both operands' second axis, and stores
  max(H - K + (b[o] - be[o]), 0) and max(H + K + (b[o] + be[o]), 0) at (r, o) of the two outputs.  An output entry
  depends only on row r of the activations, row o of the weight-side arrays and entry o of the bias, the 512 × 256
  blocks are disjoint and fill the 2048 × 2048 outputs, so after the region the two output arrays are
  `loAt true` and `upAt true` of the arrays as the region found them.
-/
import proofs.«181910_j61117384622159_2_alg».proof.Proof.Gen.KernelIdeal.Frame
import proofs.«181910_j61117384622159_2_alg».proof.Proof.Spec
import Idealize.ShloMosaic.Lib.Pipeline.Value
import Idealize.ShloMosaic.Lib.ValueIdx
import Idealize.ShloMosaic.PureOps.Ideal.Laws
import Idealize.ShloMosaic.Lib.ValueLayout

set_option maxRecDepth 16384

noncomputable section

namespace Cert.KernelIdeal.Layer3

open Cert.KernelIdeal Cert.KernelIdeal.Gen Cert.Ibp
open Idealize.ShloMosaic Idealize.ShloMosaic.TcCoe Idealize.SL.Sem Idealize.ShloMosaic.ValueIdx
open Idealize.ShloMosaic.Pipeline (Dat Cfg Window)

/-- The dimension numbers of every product in the region: both operands contracted on their second axis. -/
abbrev DD : DotDims S512x2048 S256x2048 S512x256 := dot_S512x2048_S256x2048_S512x256_1_1_0_0_n_n

theorem lhs_0 (i : S512x256.Idx) (q : DD.contr.Idx) : (DD.lhsIdx i q 0).val = (i 0).val := by
  unfold DotDims.lhsIdx
  rw [dif_neg (show ¬(0 : Fin S512x2048.rank) ∈ DD.lhsBatch by decide), dif_pos (show (0 : Fin S512x2048.rank) ∈ DD.lhsNonContracting by decide)]
  rfl
theorem lhs_1 (i : S512x256.Idx) (q : DD.contr.Idx) : (DD.lhsIdx i q 1).val = (q ⟨0, by decide⟩).val :=
  DD.lhsIdx_val_of_single rfl i q
theorem rhs_0 (i : S512x256.Idx) (q : DD.contr.Idx) : (DD.rhsIdx i q 0).val = (i 1).val := by
  unfold DotDims.rhsIdx
  rw [dif_neg (show ¬(0 : Fin S256x2048.rank) ∈ DD.rhsBatch by decide), dif_pos (show (0 : Fin S256x2048.rank) ∈ DD.rhsNonContracting by decide)]
  rfl
theorem rhs_1 (i : S512x256.Idx) (q : DD.contr.Idx) : (DD.rhsIdx i q 1).val = (q ⟨0, by decide⟩).val :=
  DD.rhsIdx_val_of_single rfl i q

/-- A product into the zero accumulator, read at (p, q): row p of the left operand against row q of the right. -/
theorem matmul_apply (a : FVec Ideal S512x2048 .f32) (w : FVec Ideal S256x2048 .f32) (p : Fin 512) (q : Fin 256) :
    FloatOps.matmul DD (some .fp32) a w (constant S512x256 .f32 0x00000000#32) (ix2 p q)
      = ∑ k : Fin 2048, a (ix2 p k) * w (ix2 q k) := by
  rw [Ideal.matmul_constant_zero_apply, ← Equiv.sum_comp (ValueIdx.contrEquiv1 DD 2048 rfl rfl).symm]
  refine Finset.sum_congr rfl fun k _ => ?_
  have hk := ValueIdx.contrEquiv1_symm_val DD 2048 rfl rfl k
  have el : DD.lhsIdx (ix2 p q) ((ValueIdx.contrEquiv1 DD 2048 rfl rfl).symm k) = ix2 p k := funext fun x => Fin.ext (by
    match x with
    | ⟨0, _⟩ => exact lhs_0 _ _
    | ⟨1, _⟩ => exact (lhs_1 _ _).trans hk)
  have er : DD.rhsIdx (ix2 p q) ((ValueIdx.contrEquiv1 DD 2048 rfl rfl).symm k) = ix2 q k := funext fun x => Fin.ext (by
    match x with
    | ⟨0, _⟩ => exact rhs_0 _ _
    | ⟨1, _⟩ => exact (rhs_1 _ _).trans hk)
  rw [el, er]

/-- The activations' midpoint, as the body forms it from the two loaded blocks. -/
theorem pay3_eq (x0 x1 : Vec Ideal S512x2048 .f32) :
    k3_pay3 x0 x1 = mid (B := 512) (Din := 2048) x0 x1 := by
  unfold k3_pay3 k3_pay1 k3_pay2
  simp only [shapeCast_self]
  rfl

/-- The centre term at (p, q): the midpoint's row p against the weights' row q. -/
theorem pay4_apply (x0 x1 : Vec Ideal S512x2048 .f32) (x2 : Vec Ideal S256x2048 .f32) (p : Fin 512) (q : Fin 256) :
    k3_pay4 x0 x1 x2 (ix2 p q) = dotT (B := 512) (Din := 2048) (Dout := 256) (mid x0 x1) x2 p q := by
  unfold k3_pay4
  rw [pay3_eq]
  exact matmul_apply _ _ p q

/-- The radius term at (p, q): |midpoint| against the weight radius plus the activations' radius against |w| + e. -/
theorem pay5_apply (x0 x1 : Vec Ideal S512x2048 .f32) (x3 x4 : Vec Ideal S256x2048 .f32) (p : Fin 512) (q : Fin 256) :
    k3_pay5 x0 x1 x3 x4 (ix2 p q)
      = dotT (B := 512) (Din := 2048) (Dout := 256) (fun i => abs (mid x0 x1 i)) x3 p q
        + dotT (B := 512) (Din := 2048) (Dout := 256) (rad x0 x1) x4 p q := by
  unfold k3_pay5 k3_pay1 k3_pay2
  simp only [shapeCast_self]
  rw [pay3_eq]
  show FloatOps.matmul DD (some .fp32) _ _ _ (ix2 p q) + FloatOps.matmul DD (some .fp32) _ _ _ (ix2 p q) = _
  rw [matmul_apply, matmul_apply]
  rfl

/-- The lower bound the body stores at (p, q) of its block, from the seven loaded blocks. -/
theorem pay8_apply (x0 x1 : Vec Ideal S512x2048 .f32) (x2 x3 x4 : Vec Ideal S256x2048 .f32) (x5 x6 : Vec Ideal S1x256 .f32)
    (p : Fin 512) (q : Fin 256) :
    k3_pay8 x0 x1 x2 x3 x4 x5 x6 (ix2 p q)
      = act true (dotT (B := 512) (Din := 2048) (Dout := 256) (mid x0 x1) x2 p q
          - (dotT (B := 512) (Din := 2048) (Dout := 256) (fun i => abs (mid x0 x1 i)) x3 p q
             + dotT (B := 512) (Din := 2048) (Dout := 256) (rad x0 x1) x4 p q)
          + (x5 (ix2 (0 : Fin 1) q) - x6 (ix2 (0 : Fin 1) q))) := by
  unfold k3_pay8 k3_pay6 k3_pay7
  simp only [shapeCast_self]
  show max (k3_pay4 x0 x1 x2 (ix2 p q) - k3_pay5 x0 x1 x3 x4 (ix2 p q) + broadcastTo S512x256 (subf (F := Ideal) x5 x6) broadcasts_S1x256_S512x256 (ix2 p q)) (Ideal.ofBits .f32 0x00000000#32) = _
  rw [pay4_apply, pay5_apply, broadcastTo_1b_ab_apply]
  rfl

/-- The upper bound the body stores at (p, q) of its block. -/
theorem pay9_apply (x0 x1 : Vec Ideal S512x2048 .f32) (x2 x3 x4 : Vec Ideal S256x2048 .f32) (x5 x6 : Vec Ideal S1x256 .f32)
    (p : Fin 512) (q : Fin 256) :
    k3_pay9 x0 x1 x2 x3 x4 x5 x6 (ix2 p q)
      = act true (dotT (B := 512) (Din := 2048) (Dout := 256) (mid x0 x1) x2 p q
          + (dotT (B := 512) (Din := 2048) (Dout := 256) (fun i => abs (mid x0 x1 i)) x3 p q
             + dotT (B := 512) (Din := 2048) (Dout := 256) (rad x0 x1) x4 p q)
          + (x5 (ix2 (0 : Fin 1) q) + x6 (ix2 (0 : Fin 1) q))) := by
  unfold k3_pay9 k3_pay6 k3_pay7
  simp only [shapeCast_self]
  show max (k3_pay4 x0 x1 x2 (ix2 p q) + k3_pay5 x0 x1 x3 x4 (ix2 p q) + broadcastTo S512x256 (addf (F := Ideal) x5 x6) broadcasts_S1x256_S512x256 (ix2 p q)) (Ideal.ofBits .f32 0x00000000#32) = _
  rw [pay4_apply, pay5_apply, broadcastTo_1b_ab_apply]
  rfl

/-- A row of a block against a row of a block is the same rows of the whole arrays, when the blocks' rows are those
    rows: the sums agree term by term. -/
theorem dotT_congr {B B' Din Dout Dout' : Nat} (a : Mat B Din) (w : Mat Dout Din) (a' : Mat B' Din) (w' : Mat Dout' Din)
    (p : Fin B) (q : Fin Dout) (r : Fin B') (o : Fin Dout')
    (ha : ∀ k, a (ix2 p k) = a' (ix2 r k)) (hw : ∀ k, w (ix2 q k) = w' (ix2 o k)) :
    dotT a w p q = dotT a' w' r o := by
  unfold dotT
  exact Finset.sum_congr rfl fun k _ => by rw [ha k, hw k]

/-- One entry of the stored lower block is the layer's lower bound at the entry's place in the whole arrays: row p of
    the activation blocks is row r of the activations, row q of the weight-side blocks is row o of the weights, and
    entry q of the bias blocks is entry o of the bias. -/
theorem block_lo (LO UP : Mat 2048 2048) (W E S : Mat 2048 2048) (b be : Fin 2048 → EReal)
    (x0 x1 : Vec Ideal S512x2048 .f32) (x2 x3 x4 : Vec Ideal S256x2048 .f32) (x5 x6 : Vec Ideal S1x256 .f32)
    (p : Fin 512) (q : Fin 256) (r : Fin 2048) (o : Fin 2048)
    (h0 : ∀ k : Fin 2048, x0 (ix2 p k) = LO (ix2 r k)) (h1 : ∀ k : Fin 2048, x1 (ix2 p k) = UP (ix2 r k))
    (h2 : ∀ k : Fin 2048, x2 (ix2 q k) = W (ix2 o k)) (h3 : ∀ k : Fin 2048, x3 (ix2 q k) = E (ix2 o k))
    (h4 : ∀ k : Fin 2048, x4 (ix2 q k) = S (ix2 o k))
    (h5 : x5 (ix2 (0 : Fin 1) q) = b o) (h6 : x6 (ix2 (0 : Fin 1) q) = be o) :
    k3_pay8 x0 x1 x2 x3 x4 x5 x6 (ix2 p q) = loAt true LO UP W E S b be r o := by
  rw [pay8_apply]
  unfold loAt
  rw [h5, h6,
    dotT_congr (mid (B := 512) (Din := 2048) x0 x1) x2 (mid LO UP) W p q r o (fun k => by unfold mid; rw [h0 k, h1 k]) h2,
    dotT_congr (fun i => abs (mid (B := 512) (Din := 2048) x0 x1 i)) x3 (fun i => abs (mid LO UP i)) E p q r o
      (fun k => by unfold mid; rw [h0 k, h1 k]) h3,
    dotT_congr (rad (B := 512) (Din := 2048) x0 x1) x4 (rad LO UP) S p q r o (fun k => by unfold rad; rw [h0 k, h1 k]) h4]

/-- The same for the stored upper block. -/
theorem block_up (LO UP : Mat 2048 2048) (W E S : Mat 2048 2048) (b be : Fin 2048 → EReal)
    (x0 x1 : Vec Ideal S512x2048 .f32) (x2 x3 x4 : Vec Ideal S256x2048 .f32) (x5 x6 : Vec Ideal S1x256 .f32)
    (p : Fin 512) (q : Fin 256) (r : Fin 2048) (o : Fin 2048)
    (h0 : ∀ k : Fin 2048, x0 (ix2 p k) = LO (ix2 r k)) (h1 : ∀ k : Fin 2048, x1 (ix2 p k) = UP (ix2 r k))
    (h2 : ∀ k : Fin 2048, x2 (ix2 q k) = W (ix2 o k)) (h3 : ∀ k : Fin 2048, x3 (ix2 q k) = E (ix2 o k))
    (h4 : ∀ k : Fin 2048, x4 (ix2 q k) = S (ix2 o k))
    (h5 : x5 (ix2 (0 : Fin 1) q) = b o) (h6 : x6 (ix2 (0 : Fin 1) q) = be o) :
    k3_pay9 x0 x1 x2 x3 x4 x5 x6 (ix2 p q) = upAt true LO UP W E S b be r o := by
  rw [pay9_apply]
  unfold upAt
  rw [h5, h6,
    dotT_congr (mid (B := 512) (Din := 2048) x0 x1) x2 (mid LO UP) W p q r o (fun k => by unfold mid; rw [h0 k, h1 k]) h2,
    dotT_congr (fun i => abs (mid (B := 512) (Din := 2048) x0 x1 i)) x3 (fun i => abs (mid LO UP i)) E p q r o
      (fun k => by unfold mid; rw [h0 k, h1 k]) h3,
    dotT_congr (rad (B := 512) (Din := 2048) x0 x1) x4 (rad LO UP) S p q r o (fun k => by unfold rad; rw [h0 k, h1 k]) h4]

variable (V : (c : Dev nD) → (b : Ref sig .tc) → Buf (Elt Ideal) ((c : Thread nD τ).loc b))

theorem origin : (![0, 0] : Fin 2 → Nat) = fun _ => 0 := funext fun a => by fin_cases a <;> rfl

/-- The windows' index maps at point t = (t / 8, t % 8): the activation blocks follow the first grid coordinate,
    the weight-side and bias blocks the second, the two outputs both. -/
theorem idx_facts : ∀ t : Fin cfg3.N,
    win3_0.index t (0 : Fin 2) = t.val / 8 ∧ win3_0.index t (1 : Fin 2) = 0
    ∧ win3_1.index t (0 : Fin 2) = t.val / 8 ∧ win3_1.index t (1 : Fin 2) = 0
    ∧ win3_2.index t (0 : Fin 2) = t.val % 8 ∧ win3_2.index t (1 : Fin 2) = 0
    ∧ win3_3.index t (0 : Fin 2) = t.val % 8 ∧ win3_3.index t (1 : Fin 2) = 0
    ∧ win3_4.index t (0 : Fin 2) = t.val % 8 ∧ win3_4.index t (1 : Fin 2) = 0
    ∧ win3_5.index t (0 : Fin 2) = 0 ∧ win3_5.index t (1 : Fin 2) = t.val % 8
    ∧ win3_6.index t (0 : Fin 2) = 0 ∧ win3_6.index t (1 : Fin 2) = t.val % 8
    ∧ win3_7.index t (0 : Fin 2) = t.val / 8 ∧ win3_7.index t (1 : Fin 2) = t.val % 8
    ∧ win3_8.index t (0 : Fin 2) = t.val / 8 ∧ win3_8.index t (1 : Fin 2) = t.val % 8 :=
  (by decide +kernel : ∀ t : Fin grid3.N, _)

/-! Each input block read where an output block's entry needs it: the activation blocks' row p is row
    (t / 8) · 512 + p of the activations, the weight-side blocks' row q is row (t % 8) · 256 + q of the weights, and the
    bias blocks' entry q is entry (t % 8) · 256 + q of the bias. -/

theorem read0 (c : Dev nD) (t : Fin cfg3.N) (p : Fin 512) (r : Fin 2048) (hr : r.val = t.val / 8 * 512 + p.val) (k : Fin 2048) :
    iblk3 V c 0 t (ix2 p k) = V c main_v15_0 (ix2 r k) := by
  obtain ⟨e00, e01, e10, e11, e20, e21, e30, e31, e40, e41, e50, e51, e60, e61, e70, e71, e80, e81⟩ := idx_facts t
  show V c main_v15_0 (((cfg3.win 0).blk t).view.emb (ix2 p k)) = _
  refine congrArg (V c main_v15_0) (funext fun a => Fin.ext ?_)
  match a with
  | ⟨0, _⟩ => show win3_0.index t (0 : Fin 2) * 512 + 1 * p.val = r.val; omega
  | ⟨1, _⟩ => show win3_0.index t (1 : Fin 2) * 2048 + 1 * k.val = k.val; omega

theorem read1 (c : Dev nD) (t : Fin cfg3.N) (p : Fin 512) (r : Fin 2048) (hr : r.val = t.val / 8 * 512 + p.val) (k : Fin 2048) :
    iblk3 V c 1 t (ix2 p k) = V c main_v15_1 (ix2 r k) := by
  obtain ⟨e00, e01, e10, e11, e20, e21, e30, e31, e40, e41, e50, e51, e60, e61, e70, e71, e80, e81⟩ := idx_facts t
  show V c main_v15_1 (((cfg3.win 1).blk t).view.emb (ix2 p k)) = _
  refine congrArg (V c main_v15_1) (funext fun a => Fin.ext ?_)
  match a with
  | ⟨0, _⟩ => show win3_1.index t (0 : Fin 2) * 512 + 1 * p.val = r.val; omega
  | ⟨1, _⟩ => show win3_1.index t (1 : Fin 2) * 2048 + 1 * k.val = k.val; omega

theorem read2 (c : Dev nD) (t : Fin cfg3.N) (q : Fin 256) (o : Fin 2048) (ho : o.val = t.val % 8 * 256 + q.val) (k : Fin 2048) :
    iblk3 V c 2 t (ix2 q k) = V c main_arg9 (ix2 o k) := by
  obtain ⟨e00, e01, e10, e11, e20, e21, e30, e31, e40, e41, e50, e51, e60, e61, e70, e71, e80, e81⟩ := idx_facts t
  show V c main_arg9 (((cfg3.win 2).blk t).view.emb (ix2 q k)) = _
  refine congrArg (V c main_arg9) (funext fun a => Fin.ext ?_)
  match a with
  | ⟨0, _⟩ => show win3_2.index t (0 : Fin 2) * 256 + 1 * q.val = o.val; omega
  | ⟨1, _⟩ => show win3_2.index t (1 : Fin 2) * 2048 + 1 * k.val = k.val; omega

theorem read3 (c : Dev nD) (t : Fin cfg3.N) (q : Fin 256) (o : Fin 2048) (ho : o.val = t.val % 8 * 256 + q.val) (k : Fin 2048) :
    iblk3 V c 3 t (ix2 q k) = V c main_v28_0 (ix2 o k) := by
  obtain ⟨e00, e01, e10, e11, e20, e21, e30, e31, e40, e41, e50, e51, e60, e61, e70, e71, e80, e81⟩ := idx_facts t
  show V c main_v28_0 (((cfg3.win 3).blk t).view.emb (ix2 q k)) = _
  refine congrArg (V c main_v28_0) (funext fun a => Fin.ext ?_)
  match a with
  | ⟨0, _⟩ => show win3_3.index t (0 : Fin 2) * 256 + 1 * q.val = o.val; omega
  | ⟨1, _⟩ => show win3_3.index t (1 : Fin 2) * 2048 + 1 * k.val = k.val; omega

theorem read4 (c : Dev nD) (t : Fin cfg3.N) (q : Fin 256) (o : Fin 2048) (ho : o.val = t.val % 8 * 256 + q.val) (k : Fin 2048) :
    iblk3 V c 4 t (ix2 q k) = V c main_v28_1 (ix2 o k) := by
  obtain ⟨e00, e01, e10, e11, e20, e21, e30, e31, e40, e41, e50, e51, e60, e61, e70, e71, e80, e81⟩ := idx_facts t
  show V c main_v28_1 (((cfg3.win 4).blk t).view.emb (ix2 q k)) = _
  refine congrArg (V c main_v28_1) (funext fun a => Fin.ext ?_)
  match a with
  | ⟨0, _⟩ => show win3_4.index t (0 : Fin 2) * 256 + 1 * q.val = o.val; omega
  | ⟨1, _⟩ => show win3_4.index t (1 : Fin 2) * 2048 + 1 * k.val = k.val; omega

theorem read5 (c : Dev nD) (t : Fin cfg3.N) (q : Fin 256) (o : Fin 2048) (ho : o.val = t.val % 8 * 256 + q.val) :
    iblk3 V c 5 t (ix2 (0 : Fin 1) q) = V c main_v29 (ix2 0 o) := by
  obtain ⟨e00, e01, e10, e11, e20, e21, e30, e31, e40, e41, e50, e51, e60, e61, e70, e71, e80, e81⟩ := idx_facts t
  show V c main_v29 (((cfg3.win 5).blk t).view.emb (ix2 (0 : Fin 1) q)) = _
  refine congrArg (V c main_v29) (funext fun a => Fin.ext ?_)
  match a with
  | ⟨0, _⟩ => show win3_5.index t (0 : Fin 2) * 1 + 1 * 0 = 0; omega
  | ⟨1, _⟩ => show win3_5.index t (1 : Fin 2) * 256 + 1 * q.val = o.val; omega

theorem read6 (c : Dev nD) (t : Fin cfg3.N) (q : Fin 256) (o : Fin 2048) (ho : o.val = t.val % 8 * 256 + q.val) :
    iblk3 V c 6 t (ix2 (0 : Fin 1) q) = V c main_v30 (ix2 0 o) := by
  obtain ⟨e00, e01, e10, e11, e20, e21, e30, e31, e40, e41, e50, e51, e60, e61, e70, e71, e80, e81⟩ := idx_facts t
  show V c main_v30 (((cfg3.win 6).blk t).view.emb (ix2 (0 : Fin 1) q)) = _
  refine congrArg (V c main_v30) (funext fun a => Fin.ext ?_)
  match a with
  | ⟨0, _⟩ => show win3_6.index t (0 : Fin 2) * 1 + 1 * 0 = 0; omega
  | ⟨1, _⟩ => show win3_6.index t (1 : Fin 2) * 256 + 1 * q.val = o.val; omega

/-- What point t writes back through window 7 is block t of the layer's lo bound. -/
theorem flushed_lo (c : Dev nD) (t : Fin cfg3.N) :
    (dat3 V c).flushed 7 t = ((cfg3.win 7).blk t).view.read (Elt Ideal)
      (fun i : S2048x2048.Idx => loAt (B := 2048) (Din := 2048) (Dout := 2048) true (V c main_v15_0) (V c main_v15_1) (V c main_arg9) (V c main_v28_0) (V c main_v28_1)
        (fun o => V c main_v29 (ix2 0 o)) (fun o => V c main_v30 (ix2 0 o)) (i 0) (i 1)) := by
  show (cfg3.win 7).cut (grid3.coords t) ((dat3 V c).after 7 t) = _
  rw [after3_7]
  unfold out3_7
  rw [View.canon_unit_zero origin]
  simp only [View.ld_unit_zero (S := S512x2048) origin, View.ld_unit_zero (S := S256x2048) origin,
    View.ld_unit_zero (S := S1x256) origin]
  funext j
  obtain ⟨e00, e01, e10, e11, e20, e21, e30, e31, e40, e41, e50, e51, e60, e61, e70, e71, e80, e81⟩ := idx_facts t
  have hr : (((cfg3.win 7).blk t).view.emb j (0 : Fin 2)).val = t.val / 8 * 512 + (j 0).val := by
    show win3_7.index t (0 : Fin 2) * 512 + 1 * (j 0).val = _; omega
  have ho : (((cfg3.win 7).blk t).view.emb j (1 : Fin 2)).val = t.val % 8 * 256 + (j 1).val := by
    show win3_7.index t (1 : Fin 2) * 256 + 1 * (j 1).val = _; omega
  show k3_pay8 (iblk3 V c 0 t) (iblk3 V c 1 t) (iblk3 V c 2 t) (iblk3 V c 3 t) (iblk3 V c 4 t) (iblk3 V c 5 t) (iblk3 V c 6 t) j
      = loAt (B := 2048) (Din := 2048) (Dout := 2048) true (V c main_v15_0) (V c main_v15_1) (V c main_arg9) (V c main_v28_0) (V c main_v28_1)
        (fun o => V c main_v29 (ix2 0 o)) (fun o => V c main_v30 (ix2 0 o))
          (((cfg3.win 7).blk t).view.emb j (0 : Fin 2)) (((cfg3.win 7).blk t).view.emb j (1 : Fin 2))
  refine (congrArg (k3_pay8 (iblk3 V c 0 t) (iblk3 V c 1 t) (iblk3 V c 2 t) (iblk3 V c 3 t) (iblk3 V c 4 t) (iblk3 V c 5 t) (iblk3 V c 6 t)) (eq_ix2 (n0 := 512) (n1 := 256) j)).trans ?_
  exact block_lo _ _ _ _ _ _ _ _ _ _ _ _ _ _ (j 0) (j 1) _ _
    (read0 V c t (j 0) _ hr) (read1 V c t (j 0) _ hr) (read2 V c t (j 1) _ ho)
    (read3 V c t (j 1) _ ho) (read4 V c t (j 1) _ ho) (read5 V c t (j 1) _ ho) (read6 V c t (j 1) _ ho)

/-- An index of the lo array is in point t's block iff each coordinate is in the block's range. -/
theorem mem_blk_lo (t : Fin cfg3.N) (i : S2048x2048.Idx) :
    i ∈ ((cfg3.win 7).blk t).view.set ↔ ∀ a : Fin 2, win3_7.index t a * S512x256.size a ≤ (i a).val ∧ (i a).val < win3_7.index t a * S512x256.size a + S512x256.size a := by
  show i ∈ ((View.whole main_v31_0).slice (win3_7.rect t)).set ↔ _
  rw [View.set_slice_whole, Rect.mem_set_unit]
  exact Iff.rfl

/-- The blocks fill the array: entry (r, o) is in the block of point (r / 512) · 8 + o / 256. -/
theorem cover_lo (i : S2048x2048.Idx) : ∃ t : Fin cfg3.N, (cfg3.win 7).flush t = true ∧ i ∈ ((cfg3.win 7).blk t).view.set := by
  have hi0 : (i 0).val < 2048 := (i 0).isLt
  have hi1 : (i 1).val < 2048 := (i 1).isLt
  have hN : cfg3.N = 32 := N_3
  refine ⟨⟨(i 0).val / 512 * 8 + (i 1).val / 256, by rw [hN]; omega⟩, flush3_7 _, ?_⟩
  rw [mem_blk_lo]
  obtain ⟨e00, e01, e10, e11, e20, e21, e30, e31, e40, e41, e50, e51, e60, e61, e70, e71, e80, e81⟩ :=
    idx_facts ⟨(i 0).val / 512 * 8 + (i 1).val / 256, by rw [hN]; omega⟩
  intro a
  match a with
  | ⟨0, _⟩ =>
    show win3_7.index _ (0 : Fin 2) * 512 ≤ (i 0).val ∧ (i 0).val < win3_7.index _ (0 : Fin 2) * 512 + 512
    rw [e70]
    show ((i 0).val / 512 * 8 + (i 1).val / 256) / 8 * 512 ≤ _ ∧ _ < ((i 0).val / 512 * 8 + (i 1).val / 256) / 8 * 512 + 512
    omega
  | ⟨1, _⟩ =>
    show win3_7.index _ (1 : Fin 2) * 256 ≤ (i 1).val ∧ (i 1).val < win3_7.index _ (1 : Fin 2) * 256 + 256
    rw [e71]
    show ((i 0).val / 512 * 8 + (i 1).val / 256) % 8 * 256 ≤ _ ∧ _ < ((i 0).val / 512 * 8 + (i 1).val / 256) % 8 * 256 + 256
    omega

/-- The lo array after the region. -/
theorem final_lo (c : Dev nD) : (dat3 V c).arrAt 7 cfg3.N
    = fun i => loAt (B := 2048) (Din := 2048) (Dout := 2048) true (V c main_v15_0) (V c main_v15_1) (V c main_arg9) (V c main_v28_0) (V c main_v28_1)
        (fun o => V c main_v29 (ix2 0 o)) (fun o => V c main_v30 (ix2 0 o)) (i 0) (i 1) :=
  (dat3 V c).arrAt_eq_of_cover 7 _ (fun t _ => flushed_lo V c t) cover_lo

/-- What point t writes back through window 8 is block t of the layer's up bound. -/
theorem flushed_up (c : Dev nD) (t : Fin cfg3.N) :
    (dat3 V c).flushed 8 t = ((cfg3.win 8).blk t).view.read (Elt Ideal)
      (fun i : S2048x2048.Idx => upAt (B := 2048) (Din := 2048) (Dout := 2048) true (V c main_v15_0) (V c main_v15_1) (V c main_arg9) (V c main_v28_0) (V c main_v28_1)
        (fun o => V c main_v29 (ix2 0 o)) (fun o => V c main_v30 (ix2 0 o)) (i 0) (i 1)) := by
  show (cfg3.win 8).cut (grid3.coords t) ((dat3 V c).after 8 t) = _
  rw [after3_8]
  unfold out3_8
  rw [View.canon_unit_zero origin]
  simp only [View.ld_unit_zero (S := S512x2048) origin, View.ld_unit_zero (S := S256x2048) origin,
    View.ld_unit_zero (S := S1x256) origin]
  funext j
  obtain ⟨e00, e01, e10, e11, e20, e21, e30, e31, e40, e41, e50, e51, e60, e61, e70, e71, e80, e81⟩ := idx_facts t
  have hr : (((cfg3.win 8).blk t).view.emb j (0 : Fin 2)).val = t.val / 8 * 512 + (j 0).val := by
    show win3_8.index t (0 : Fin 2) * 512 + 1 * (j 0).val = _; omega
  have ho : (((cfg3.win 8).blk t).view.emb j (1 : Fin 2)).val = t.val % 8 * 256 + (j 1).val := by
    show win3_8.index t (1 : Fin 2) * 256 + 1 * (j 1).val = _; omega
  show k3_pay9 (iblk3 V c 0 t) (iblk3 V c 1 t) (iblk3 V c 2 t) (iblk3 V c 3 t) (iblk3 V c 4 t) (iblk3 V c 5 t) (iblk3 V c 6 t) j
      = upAt (B := 2048) (Din := 2048) (Dout := 2048) true (V c main_v15_0) (V c main_v15_1) (V c main_arg9) (V c main_v28_0) (V c main_v28_1)
        (fun o => V c main_v29 (ix2 0 o)) (fun o => V c main_v30 (ix2 0 o))
          (((cfg3.win 8).blk t).view.emb j (0 : Fin 2)) (((cfg3.win 8).blk t).view.emb j (1 : Fin 2))
  refine (congrArg (k3_pay9 (iblk3 V c 0 t) (iblk3 V c 1 t) (iblk3 V c 2 t) (iblk3 V c 3 t) (iblk3 V c 4 t) (iblk3 V c 5 t) (iblk3 V c 6 t)) (eq_ix2 (n0 := 512) (n1 := 256) j)).trans ?_
  exact block_up _ _ _ _ _ _ _ _ _ _ _ _ _ _ (j 0) (j 1) _ _
    (read0 V c t (j 0) _ hr) (read1 V c t (j 0) _ hr) (read2 V c t (j 1) _ ho)
    (read3 V c t (j 1) _ ho) (read4 V c t (j 1) _ ho) (read5 V c t (j 1) _ ho) (read6 V c t (j 1) _ ho)

/-- An index of the up array is in point t's block iff each coordinate is in the block's range. -/
theorem mem_blk_up (t : Fin cfg3.N) (i : S2048x2048.Idx) :
    i ∈ ((cfg3.win 8).blk t).view.set ↔ ∀ a : Fin 2, win3_8.index t a * S512x256.size a ≤ (i a).val ∧ (i a).val < win3_8.index t a * S512x256.size a + S512x256.size a := by
  show i ∈ ((View.whole main_v31_1).slice (win3_8.rect t)).set ↔ _
  rw [View.set_slice_whole, Rect.mem_set_unit]
  exact Iff.rfl

/-- The blocks fill the array: entry (r, o) is in the block of point (r / 512) · 8 + o / 256. -/
theorem cover_up (i : S2048x2048.Idx) : ∃ t : Fin cfg3.N, (cfg3.win 8).flush t = true ∧ i ∈ ((cfg3.win 8).blk t).view.set := by
  have hi0 : (i 0).val < 2048 := (i 0).isLt
  have hi1 : (i 1).val < 2048 := (i 1).isLt
  have hN : cfg3.N = 32 := N_3
  refine ⟨⟨(i 0).val / 512 * 8 + (i 1).val / 256, by rw [hN]; omega⟩, flush3_8 _, ?_⟩
  rw [mem_blk_up]
  obtain ⟨e00, e01, e10, e11, e20, e21, e30, e31, e40, e41, e50, e51, e60, e61, e70, e71, e80, e81⟩ :=
    idx_facts ⟨(i 0).val / 512 * 8 + (i 1).val / 256, by rw [hN]; omega⟩
  intro a
  match a with
  | ⟨0, _⟩ =>
    show win3_8.index _ (0 : Fin 2) * 512 ≤ (i 0).val ∧ (i 0).val < win3_8.index _ (0 : Fin 2) * 512 + 512
    rw [e80]
    show ((i 0).val / 512 * 8 + (i 1).val / 256) / 8 * 512 ≤ _ ∧ _ < ((i 0).val / 512 * 8 + (i 1).val / 256) / 8 * 512 + 512
    omega
  | ⟨1, _⟩ =>
    show win3_8.index _ (1 : Fin 2) * 256 ≤ (i 1).val ∧ (i 1).val < win3_8.index _ (1 : Fin 2) * 256 + 256
    rw [e81]
    show ((i 0).val / 512 * 8 + (i 1).val / 256) % 8 * 256 ≤ _ ∧ _ < ((i 0).val / 512 * 8 + (i 1).val / 256) % 8 * 256 + 256
    omega

/-- The up array after the region. -/
theorem final_up (c : Dev nD) : (dat3 V c).arrAt 8 cfg3.N
    = fun i => upAt (B := 2048) (Din := 2048) (Dout := 2048) true (V c main_v15_0) (V c main_v15_1) (V c main_arg9) (V c main_v28_0) (V c main_v28_1)
        (fun o => V c main_v29 (ix2 0 o)) (fun o => V c main_v30 (ix2 0 o)) (i 0) (i 1) :=
  (dat3 V c).arrAt_eq_of_cover 8 _ (fun t _ => flushed_up V c t) cover_up

end Cert.KernelIdeal.Layer3

end
-- ==== Proof.Layer5.lean ====
/-
  Region 5: the last layer's output bounds.  The grid is 4 × 4; point (a, b) loads rows 512·a … 512·a + 511 of the
  incoming lower and upper activation bounds lo, up (all 2048 features), rows 256·b … 256·b + 255 of the weights w, of
  their clamped radius e and of s = |w| + e, and columns 256·b … 256·b + 255 of the bias and of the bias radius (both
  kept as one-row arrays).  With the midpoint mu = (lo + up)/2 and the radius rad = (up - lo)/2 it stores, over the
  512 × 256 rectangle at (512·a, 256·b) of the two outputs,
      mu·wᵀ ∓ (|mu|·eᵀ + rad·sᵀ) + (bias ∓ bias radius),
  the products contracting the feature axis of both operands, with no closing maximum after the last layer.  The 16
  rectangles are disjoint and fill the 2048 × 1024 outputs, and an output entry at (r, o) depends only on row r of
  lo and up, row o of w, e and s and entry o of the two bias rows, so after the region the two outputs are the layer's
  lower and upper bounds (direct arrangement) of the arrays as the region found them.
-/
import proofs.«181910_j61117384622159_2_alg».proof.Proof.Gen.KernelIdeal.Frame
import proofs.«181910_j61117384622159_2_alg».proof.Proof.Spec
import Idealize.ShloMosaic.Lib.Pipeline.Value
import Idealize.ShloMosaic.Lib.ValueIdx
import Idealize.ShloMosaic.PureOps.Ideal.Laws
import Idealize.ShloMosaic.Lib.ValueLayout

set_option maxRecDepth 16384

noncomputable section

namespace Cert.KernelIdeal.Layer5

open Cert.KernelIdeal Cert.KernelIdeal.Gen Cert.Ibp
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-! ## The product read at an entry -/

/-- The left operand is read at the output's row on its axis 0. -/
theorem lhs_0 (i : S512x256.Idx) (q : dot_S512x2048_S256x2048_S512x256_1_1_0_0_n_n.contr.Idx) :
    (dot_S512x2048_S256x2048_S512x256_1_1_0_0_n_n.lhsIdx i q 0).val = (i 0).val := by
  unfold DotDims.lhsIdx
  rw [dif_neg (show ¬(0 : Fin S512x2048.rank) ∈ dot_S512x2048_S256x2048_S512x256_1_1_0_0_n_n.lhsBatch by decide), dif_pos (show (0 : Fin S512x2048.rank) ∈ dot_S512x2048_S256x2048_S512x256_1_1_0_0_n_n.lhsNonContracting by decide)]
  rfl
/-- … and at the contraction index on its axis 1. -/
theorem lhs_1 (i : S512x256.Idx) (q : dot_S512x2048_S256x2048_S512x256_1_1_0_0_n_n.contr.Idx) :
    (dot_S512x2048_S256x2048_S512x256_1_1_0_0_n_n.lhsIdx i q 1).val = (q ⟨0, by decide⟩).val :=
  dot_S512x2048_S256x2048_S512x256_1_1_0_0_n_n.lhsIdx_val_of_single rfl i q
/-- The right operand is read at the output's column on its axis 0. -/
theorem rhs_0 (i : S512x256.Idx) (q : dot_S512x2048_S256x2048_S512x256_1_1_0_0_n_n.contr.Idx) :
    (dot_S512x2048_S256x2048_S512x256_1_1_0_0_n_n.rhsIdx i q 0).val = (i 1).val := by
  unfold DotDims.rhsIdx
  rw [dif_neg (show ¬(0 : Fin S256x2048.rank) ∈ dot_S512x2048_S256x2048_S512x256_1_1_0_0_n_n.rhsBatch by decide), dif_pos (show (0 : Fin S256x2048.rank) ∈ dot_S512x2048_S256x2048_S512x256_1_1_0_0_n_n.rhsNonContracting by decide)]
  rfl
/-- … and at the contraction index on its axis 1. -/
theorem rhs_1 (i : S512x256.Idx) (q : dot_S512x2048_S256x2048_S512x256_1_1_0_0_n_n.contr.Idx) :
    (dot_S512x2048_S256x2048_S512x256_1_1_0_0_n_n.rhsIdx i q 1).val = (q ⟨0, by decide⟩).val :=
  dot_S512x2048_S256x2048_S512x256_1_1_0_0_n_n.rhsIdx_val_of_single rfl i q

/-- The product into a zero accumulator, at entry (p, q): row p of the left operand against row q of the right. -/
theorem matmul_at (a : FVec Ideal S512x2048 .f32) (w : FVec Ideal S256x2048 .f32) (p : Fin 512) (q : Fin 256) :
    FloatOps.matmul (F := Ideal) dot_S512x2048_S256x2048_S512x256_1_1_0_0_n_n (some .fp32) a w (constant S512x256 .f32 0x00000000#32) (ix2 p q)
      = ∑ k : Fin 2048, a (ix2 p k) * w (ix2 q k) := by
  rw [Ideal.matmul_constant_zero_apply, ← Equiv.sum_comp (ValueIdx.contrEquiv1 dot_S512x2048_S256x2048_S512x256_1_1_0_0_n_n 2048 rfl rfl).symm]
  refine Finset.sum_congr rfl fun k _ => ?_
  have hk := ValueIdx.contrEquiv1_symm_val dot_S512x2048_S256x2048_S512x256_1_1_0_0_n_n 2048 rfl rfl k
  have el : dot_S512x2048_S256x2048_S512x256_1_1_0_0_n_n.lhsIdx (ix2 p q) ((ValueIdx.contrEquiv1 dot_S512x2048_S256x2048_S512x256_1_1_0_0_n_n 2048 rfl rfl).symm k) = ix2 p k := funext fun ax => Fin.ext (by
    match ax with
    | ⟨0, _⟩ => exact lhs_0 _ _
    | ⟨1, _⟩ => exact (lhs_1 _ _).trans hk)
  have er : dot_S512x2048_S256x2048_S512x256_1_1_0_0_n_n.rhsIdx (ix2 p q) ((ValueIdx.contrEquiv1 dot_S512x2048_S256x2048_S512x256_1_1_0_0_n_n 2048 rfl rfl).symm k) = ix2 q k := funext fun ax => Fin.ext (by
    match ax with
    | ⟨0, _⟩ => exact rhs_0 _ _
    | ⟨1, _⟩ => exact (rhs_1 _ _).trans hk)
  rw [el, er]

/-! ## The body's arithmetic at an entry -/

/-- The loaded lower-bound block passes through unchanged. -/
theorem pay1_eq (x0 : Vec Ideal S512x2048 .f32) : k5_pay1 x0 = x0 := by
  unfold k5_pay1; exact shapeCast_self _ _
/-- The loaded upper-bound block passes through unchanged. -/
theorem pay2_eq (x1 : Vec Ideal S512x2048 .f32) : k5_pay2 x1 = x1 := by
  unfold k5_pay2; exact shapeCast_self _ _

/-- The midpoint (lo + up) · ½ at an entry. -/
theorem pay3_at (x0 x1 : Vec Ideal S512x2048 .f32) (i : S512x2048.Idx) :
    k5_pay3 x0 x1 i = (x0 i + x1 i) * half := by
  unfold k5_pay3
  rw [pay1_eq, pay2_eq]
  rfl

/-- The product mu·wᵀ at entry (p, q). -/
theorem pay4_at (x0 x1 : Vec Ideal S512x2048 .f32) (x2 : Vec Ideal S256x2048 .f32) (p : Fin 512) (q : Fin 256) :
    k5_pay4 x0 x1 x2 (ix2 p q) = ∑ k : Fin 2048, ((x0 (ix2 p k) + x1 (ix2 p k)) * half) * x2 (ix2 q k) := by
  unfold k5_pay4
  exact (matmul_at (k5_pay3 x0 x1) x2 p q).trans (Finset.sum_congr rfl fun k _ => by rw [pay3_at])

/-- The sum |mu|·eᵀ + rad·sᵀ at entry (p, q). -/
theorem pay5_at (x0 x1 : Vec Ideal S512x2048 .f32) (x3 x4 : Vec Ideal S256x2048 .f32) (p : Fin 512) (q : Fin 256) :
    k5_pay5 x0 x1 x3 x4 (ix2 p q)
      = (∑ k : Fin 2048, abs ((x0 (ix2 p k) + x1 (ix2 p k)) * half) * x3 (ix2 q k))
        + (∑ k : Fin 2048, ((x1 (ix2 p k) - x0 (ix2 p k)) * half) * x4 (ix2 q k)) := by
  unfold k5_pay5
  rw [pay1_eq, pay2_eq, shapeCast_self, shapeCast_self]
  show FloatOps.matmul (F := Ideal) dot_S512x2048_S256x2048_S512x256_1_1_0_0_n_n (some .fp32) (absf (k5_pay3 x0 x1)) x3 (constant S512x256 .f32 0x00000000#32) (ix2 p q)
      + FloatOps.matmul (F := Ideal) dot_S512x2048_S256x2048_S512x256_1_1_0_0_n_n (some .fp32) (fun i => (x1 i - x0 i) * half) x4 (constant S512x256 .f32 0x00000000#32) (ix2 p q) = _
  rw [matmul_at, matmul_at]
  refine congrArg₂ (· + ·) (Finset.sum_congr rfl fun k _ => ?_) rfl
  show abs (k5_pay3 x0 x1 (ix2 p k)) * x3 (ix2 q k) = _
  rw [pay3_at]

/-- The lower bound's arithmetic at entry (p, q) of the block. -/
theorem pay8_at (x0 x1 : Vec Ideal S512x2048 .f32) (x2 x3 x4 : Vec Ideal S256x2048 .f32) (x5 x6 : Vec Ideal S1x256 .f32)
    (p : Fin 512) (q : Fin 256) :
    k5_pay8 x0 x1 x2 x3 x4 x5 x6 (ix2 p q)
      = (∑ k : Fin 2048, ((x0 (ix2 p k) + x1 (ix2 p k)) * half) * x2 (ix2 q k))
          - ((∑ k : Fin 2048, abs ((x0 (ix2 p k) + x1 (ix2 p k)) * half) * x3 (ix2 q k))
            + (∑ k : Fin 2048, ((x1 (ix2 p k) - x0 (ix2 p k)) * half) * x4 (ix2 q k)))
          + (x5 (ix2 0 q) - x6 (ix2 0 q)) := by
  unfold k5_pay8
  show (k5_pay4 x0 x1 x2 (ix2 p q) - k5_pay5 x0 x1 x3 x4 (ix2 p q))
      + broadcastTo S512x256 (subf (k5_pay6 x5) (k5_pay7 x6)) broadcasts_S1x256_S512x256 (ix2 p q) = _
  rw [pay4_at, pay5_at, broadcastTo_1b_ab_apply]
  unfold k5_pay6 k5_pay7
  rw [shapeCast_self, shapeCast_self]
  rfl

/-- The upper bound's arithmetic at entry (p, q) of the block. -/
theorem pay9_at (x0 x1 : Vec Ideal S512x2048 .f32) (x2 x3 x4 : Vec Ideal S256x2048 .f32) (x5 x6 : Vec Ideal S1x256 .f32)
    (p : Fin 512) (q : Fin 256) :
    k5_pay9 x0 x1 x2 x3 x4 x5 x6 (ix2 p q)
      = (∑ k : Fin 2048, ((x0 (ix2 p k) + x1 (ix2 p k)) * half) * x2 (ix2 q k))
          + ((∑ k : Fin 2048, abs ((x0 (ix2 p k) + x1 (ix2 p k)) * half) * x3 (ix2 q k))
            + (∑ k : Fin 2048, ((x1 (ix2 p k) - x0 (ix2 p k)) * half) * x4 (ix2 q k)))
          + (x5 (ix2 0 q) + x6 (ix2 0 q)) := by
  unfold k5_pay9
  show (k5_pay4 x0 x1 x2 (ix2 p q) + k5_pay5 x0 x1 x3 x4 (ix2 p q))
      + broadcastTo S512x256 (addf (k5_pay6 x5) (k5_pay7 x6)) broadcasts_S1x256_S512x256 (ix2 p q) = _
  rw [pay4_at, pay5_at, broadcastTo_1b_ab_apply]
  unfold k5_pay6 k5_pay7
  rw [shapeCast_self, shapeCast_self]
  rfl

/-! ## A block entry in terms of the whole arrays -/

/-- After the last layer nothing closes the bound. -/
theorem act_false (x : EReal) : act false x = x := by
  unfold act; exact if_neg Bool.false_ne_true

/-- If rows p of the two loaded activation blocks are rows r of LO and UP, rows q of the three loaded weight-side blocks
    are rows o of W, E and S, and entries q of the two loaded bias rows are entries o of the whole bias rows, then entry
    (p, q) of the lower bound's block is the layer's lower bound at (r, o). -/
theorem block_lo (LO UP : Mat 2048 2048) (W E S : Mat 1024 2048) (Bv Be : Mat 1 1024)
    (x0 x1 : Vec Ideal S512x2048 .f32) (x2 x3 x4 : Vec Ideal S256x2048 .f32) (x5 x6 : Vec Ideal S1x256 .f32)
    (j : S512x256.Idx) (r : Fin 2048) (o : Fin 1024)
    (h0 : ∀ k : Fin 2048, x0 (ix2 (j 0) k) = LO (ix2 r k)) (h1 : ∀ k : Fin 2048, x1 (ix2 (j 0) k) = UP (ix2 r k))
    (h2 : ∀ k : Fin 2048, x2 (ix2 (j 1) k) = W (ix2 o k)) (h3 : ∀ k : Fin 2048, x3 (ix2 (j 1) k) = E (ix2 o k))
    (h4 : ∀ k : Fin 2048, x4 (ix2 (j 1) k) = S (ix2 o k))
    (h5 : x5 (ix2 0 (j 1)) = Bv (ix2 0 o)) (h6 : x6 (ix2 0 (j 1)) = Be (ix2 0 o)) :
    k5_pay8 x0 x1 x2 x3 x4 x5 x6 j
      = loAt (B := 2048) (Din := 2048) (Dout := 1024) false LO UP W E S (fun o => Bv (ix2 0 o)) (fun o => Be (ix2 0 o)) r o := by
  obtain ⟨p, q, rfl⟩ : ∃ p q, j = ix2 p q := ⟨j 0, j 1, eq_ix2 j⟩
  have h0' : ∀ k : Fin 2048, x0 (ix2 p k) = LO (ix2 r k) := h0
  have h1' : ∀ k : Fin 2048, x1 (ix2 p k) = UP (ix2 r k) := h1
  have h2' : ∀ k : Fin 2048, x2 (ix2 q k) = W (ix2 o k) := h2
  have h3' : ∀ k : Fin 2048, x3 (ix2 q k) = E (ix2 o k) := h3
  have h4' : ∀ k : Fin 2048, x4 (ix2 q k) = S (ix2 o k) := h4
  have h5' : x5 (ix2 0 q) = Bv (ix2 0 o) := h5
  have h6' : x6 (ix2 0 q) = Be (ix2 0 o) := h6
  rw [pay8_at]
  unfold loAt
  rw [act_false]
  unfold dotT mid rad
  show (∑ k : Fin 2048, ((x0 (ix2 p k) + x1 (ix2 p k)) * half) * x2 (ix2 q k))
          - ((∑ k : Fin 2048, abs ((x0 (ix2 p k) + x1 (ix2 p k)) * half) * x3 (ix2 q k))
            + (∑ k : Fin 2048, ((x1 (ix2 p k) - x0 (ix2 p k)) * half) * x4 (ix2 q k)))
          + (x5 (ix2 0 q) - x6 (ix2 0 q))
     = (∑ k : Fin 2048, ((LO (ix2 r k) + UP (ix2 r k)) * half) * W (ix2 o k))
          - ((∑ k : Fin 2048, abs ((LO (ix2 r k) + UP (ix2 r k)) * half) * E (ix2 o k))
            + (∑ k : Fin 2048, ((UP (ix2 r k) - LO (ix2 r k)) * half) * S (ix2 o k)))
          + (Bv (ix2 0 o) - Be (ix2 0 o))
  rw [h5', h6',
    Finset.sum_congr rfl (fun k _ => by rw [h0' k, h1' k, h2' k] : ∀ k ∈ Finset.univ, ((x0 (ix2 p k) + x1 (ix2 p k)) * half) * x2 (ix2 q k) = ((LO (ix2 r k) + UP (ix2 r k)) * half) * W (ix2 o k)),
    Finset.sum_congr rfl (fun k _ => by rw [h0' k, h1' k, h3' k] : ∀ k ∈ Finset.univ, abs ((x0 (ix2 p k) + x1 (ix2 p k)) * half) * x3 (ix2 q k) = abs ((LO (ix2 r k) + UP (ix2 r k)) * half) * E (ix2 o k)),
    Finset.sum_congr rfl (fun k _ => by rw [h0' k, h1' k, h4' k] : ∀ k ∈ Finset.univ, ((x1 (ix2 p k) - x0 (ix2 p k)) * half) * x4 (ix2 q k) = ((UP (ix2 r k) - LO (ix2 r k)) * half) * S (ix2 o k))]

/-- If rows p of the two loaded activation blocks are rows r of LO and UP, rows q of the three loaded weight-side blocks
    are rows o of W, E and S, and entries q of the two loaded bias rows are entries o of the whole bias rows, then entry
    (p, q) of the upper bound's block is the layer's upper bound at (r, o). -/
theorem block_up (LO UP : Mat 2048 2048) (W E S : Mat 1024 2048) (Bv Be : Mat 1 1024)
    (x0 x1 : Vec Ideal S512x2048 .f32) (x2 x3 x4 : Vec Ideal S256x2048 .f32) (x5 x6 : Vec Ideal S1x256 .f32)
    (j : S512x256.Idx) (r : Fin 2048) (o : Fin 1024)
    (h0 : ∀ k : Fin 2048, x0 (ix2 (j 0) k) = LO (ix2 r k)) (h1 : ∀ k : Fin 2048, x1 (ix2 (j 0) k) = UP (ix2 r k))
    (h2 : ∀ k : Fin 2048, x2 (ix2 (j 1) k) = W (ix2 o k)) (h3 : ∀ k : Fin 2048, x3 (ix2 (j 1) k) = E (ix2 o k))
    (h4 : ∀ k : Fin 2048, x4 (ix2 (j 1) k) = S (ix2 o k))
    (h5 : x5 (ix2 0 (j 1)) = Bv (ix2 0 o)) (h6 : x6 (ix2 0 (j 1)) = Be (ix2 0 o)) :
    k5_pay9 x0 x1 x2 x3 x4 x5 x6 j
      = upAt (B := 2048) (Din := 2048) (Dout := 1024) false LO UP W E S (fun o => Bv (ix2 0 o)) (fun o => Be (ix2 0 o)) r o := by
  obtain ⟨p, q, rfl⟩ : ∃ p q, j = ix2 p q := ⟨j 0, j 1, eq_ix2 j⟩
  have h0' : ∀ k : Fin 2048, x0 (ix2 p k) = LO (ix2 r k) := h0
  have h1' : ∀ k : Fin 2048, x1 (ix2 p k) = UP (ix2 r k) := h1
  have h2' : ∀ k : Fin 2048, x2 (ix2 q k) = W (ix2 o k) := h2
  have h3' : ∀ k : Fin 2048, x3 (ix2 q k) = E (ix2 o k) := h3
  have h4' : ∀ k : Fin 2048, x4 (ix2 q k) = S (ix2 o k) := h4
  have h5' : x5 (ix2 0 q) = Bv (ix2 0 o) := h5
  have h6' : x6 (ix2 0 q) = Be (ix2 0 o) := h6
  rw [pay9_at]
  unfold upAt
  rw [act_false]
  unfold dotT mid rad
  show (∑ k : Fin 2048, ((x0 (ix2 p k) + x1 (ix2 p k)) * half) * x2 (ix2 q k))
          + ((∑ k : Fin 2048, abs ((x0 (ix2 p k) + x1 (ix2 p k)) * half) * x3 (ix2 q k))
            + (∑ k : Fin 2048, ((x1 (ix2 p k) - x0 (ix2 p k)) * half) * x4 (ix2 q k)))
          + (x5 (ix2 0 q) + x6 (ix2 0 q))
     = (∑ k : Fin 2048, ((LO (ix2 r k) + UP (ix2 r k)) * half) * W (ix2 o k))
          + ((∑ k : Fin 2048, abs ((LO (ix2 r k) + UP (ix2 r k)) * half) * E (ix2 o k))
            + (∑ k : Fin 2048, ((UP (ix2 r k) - LO (ix2 r k)) * half) * S (ix2 o k)))
          + (Bv (ix2 0 o) + Be (ix2 0 o))
  rw [h5', h6',
    Finset.sum_congr rfl (fun k _ => by rw [h0' k, h1' k, h2' k] : ∀ k ∈ Finset.univ, ((x0 (ix2 p k) + x1 (ix2 p k)) * half) * x2 (ix2 q k) = ((LO (ix2 r k) + UP (ix2 r k)) * half) * W (ix2 o k)),
    Finset.sum_congr rfl (fun k _ => by rw [h0' k, h1' k, h3' k] : ∀ k ∈ Finset.univ, abs ((x0 (ix2 p k) + x1 (ix2 p k)) * half) * x3 (ix2 q k) = abs ((LO (ix2 r k) + UP (ix2 r k)) * half) * E (ix2 o k)),
    Finset.sum_congr rfl (fun k _ => by rw [h0' k, h1' k, h4' k] : ∀ k ∈ Finset.univ, ((x1 (ix2 p k) - x0 (ix2 p k)) * half) * x4 (ix2 q k) = ((UP (ix2 r k) - LO (ix2 r k)) * half) * S (ix2 o k))]

/-! ## The windows over the grid -/

/-- Point t = 4·a + b of the 4 × 4 grid: the two activation bounds are at block (a, 0), the three weight-side arrays at
    (b, 0), the two bias rows at (0, b), both outputs at (a, b). -/
theorem idx_facts : ∀ t : Fin cfg5.N,
    win5_0.index t (0 : Fin 2) = t.val / 4 ∧ win5_0.index t (1 : Fin 2) = 0
    ∧ win5_1.index t (0 : Fin 2) = t.val / 4 ∧ win5_1.index t (1 : Fin 2) = 0
    ∧ win5_2.index t (0 : Fin 2) = t.val % 4 ∧ win5_2.index t (1 : Fin 2) = 0
    ∧ win5_3.index t (0 : Fin 2) = t.val % 4 ∧ win5_3.index t (1 : Fin 2) = 0
    ∧ win5_4.index t (0 : Fin 2) = t.val % 4 ∧ win5_4.index t (1 : Fin 2) = 0
    ∧ win5_5.index t (0 : Fin 2) = 0 ∧ win5_5.index t (1 : Fin 2) = t.val % 4
    ∧ win5_6.index t (0 : Fin 2) = 0 ∧ win5_6.index t (1 : Fin 2) = t.val % 4
    ∧ win5_7.index t (0 : Fin 2) = t.val / 4 ∧ win5_7.index t (1 : Fin 2) = t.val % 4
    ∧ win5_8.index t (0 : Fin 2) = t.val / 4 ∧ win5_8.index t (1 : Fin 2) = t.val % 4 :=
  (by decide +kernel : ∀ t : Fin grid5.N, _)

/-! ## What a grid point writes back -/

set_option maxHeartbeats 1000000 in
/-- What point t writes back through the lower bound's window is block t of the layer's lower bound. -/
theorem flushed_lo (c : Dev nD) (t : Fin cfg5.N) :
    (dat5 V c).flushed 7 t = ((cfg5.win 7).blk t).view.read (Elt Ideal)
      (fun i => loAt (B := 2048) (Din := 2048) (Dout := 1024) false (V c main_v31_0) (V c main_v31_1) (V c main_arg17) (V c main_v44_0) (V c main_v44_1)
        (fun o => V c main_v45 (ix2 0 o)) (fun o => V c main_v46 (ix2 0 o)) (i 0) (i 1)) := by
  show (cfg5.win 7).cut (grid5.coords t) ((dat5 V c).after 7 t) = _
  rw [after5_7]
  unfold out5_7
  rw [View.canon_unit_zero origin]
  simp only [View.ld_unit_zero (S := S512x2048) origin, View.ld_unit_zero (S := S256x2048) origin, View.ld_unit_zero (S := S1x256) origin]
  funext j
  obtain ⟨e00, e01, e10, e11, e20, e21, e30, e31, e40, e41, e50, e51, e60, e61, e70, e71, e80, e81⟩ := idx_facts t
  show k5_pay8 (iblk5 V c 0 t) (iblk5 V c 1 t) (iblk5 V c 2 t) (iblk5 V c 3 t) (iblk5 V c 4 t) (iblk5 V c 5 t) (iblk5 V c 6 t) j
    = loAt (B := 2048) (Din := 2048) (Dout := 1024) false (V c main_v31_0) (V c main_v31_1) (V c main_arg17) (V c main_v44_0) (V c main_v44_1)
        (fun o => V c main_v45 (ix2 0 o)) (fun o => V c main_v46 (ix2 0 o))
        ((((cfg5.win 7).blk t).view.emb j) 0) ((((cfg5.win 7).blk t).view.emb j) 1)
  refine block_lo (V c main_v31_0) (V c main_v31_1) (V c main_arg17) (V c main_v44_0) (V c main_v44_1) (V c main_v45) (V c main_v46)
    (iblk5 V c 0 t) (iblk5 V c 1 t) (iblk5 V c 2 t) (iblk5 V c 3 t) (iblk5 V c 4 t) (iblk5 V c 5 t) (iblk5 V c 6 t) j _ _ ?_ ?_ ?_ ?_ ?_ ?_ ?_
  · intro k
    show V c main_v31_0 (((cfg5.win 0).blk t).view.emb (ix2 (j 0) k)) = V c main_v31_0 (ix2 ((((cfg5.win 7).blk t).view.emb j) 0) k)
    refine congrArg (V c main_v31_0) (funext fun a => Fin.ext ?_)
    match a with
    | ⟨0, _⟩ => show win5_0.index t (0 : Fin 2) * 512 + 1 * (j 0).val = win5_7.index t (0 : Fin 2) * 512 + 1 * (j 0).val; omega
    | ⟨1, _⟩ => show win5_0.index t (1 : Fin 2) * 2048 + 1 * k.val = k.val; omega
  · intro k
    show V c main_v31_1 (((cfg5.win 1).blk t).view.emb (ix2 (j 0) k)) = V c main_v31_1 (ix2 ((((cfg5.win 7).blk t).view.emb j) 0) k)
    refine congrArg (V c main_v31_1) (funext fun a => Fin.ext ?_)
    match a with
    | ⟨0, _⟩ => show win5_1.index t (0 : Fin 2) * 512 + 1 * (j 0).val = win5_7.index t (0 : Fin 2) * 512 + 1 * (j 0).val; omega
    | ⟨1, _⟩ => show win5_1.index t (1 : Fin 2) * 2048 + 1 * k.val = k.val; omega
  · intro k
    show V c main_arg17 (((cfg5.win 2).blk t).view.emb (ix2 (j 1) k)) = V c main_arg17 (ix2 ((((cfg5.win 7).blk t).view.emb j) 1) k)
    refine congrArg (V c main_arg17) (funext fun a => Fin.ext ?_)
    match a with
    | ⟨0, _⟩ => show win5_2.index t (0 : Fin 2) * 256 + 1 * (j 1).val = win5_7.index t (1 : Fin 2) * 256 + 1 * (j 1).val; omega
    | ⟨1, _⟩ => show win5_2.index t (1 : Fin 2) * 2048 + 1 * k.val = k.val; omega
  · intro k
    show V c main_v44_0 (((cfg5.win 3).blk t).view.emb (ix2 (j 1) k)) = V c main_v44_0 (ix2 ((((cfg5.win 7).blk t).view.emb j) 1) k)
    refine congrArg (V c main_v44_0) (funext fun a => Fin.ext ?_)
    match a with
    | ⟨0, _⟩ => show win5_3.index t (0 : Fin 2) * 256 + 1 * (j 1).val = win5_7.index t (1 : Fin 2) * 256 + 1 * (j 1).val; omega
    | ⟨1, _⟩ => show win5_3.index t (1 : Fin 2) * 2048 + 1 * k.val = k.val; omega
  · intro k
    show V c main_v44_1 (((cfg5.win 4).blk t).view.emb (ix2 (j 1) k)) = V c main_v44_1 (ix2 ((((cfg5.win 7).blk t).view.emb j) 1) k)
    refine congrArg (V c main_v44_1) (funext fun a => Fin.ext ?_)
    match a with
    | ⟨0, _⟩ => show win5_4.index t (0 : Fin 2) * 256 + 1 * (j 1).val = win5_7.index t (1 : Fin 2) * 256 + 1 * (j 1).val; omega
    | ⟨1, _⟩ => show win5_4.index t (1 : Fin 2) * 2048 + 1 * k.val = k.val; omega
  · show V c main_v45 (((cfg5.win 5).blk t).view.emb (ix2 0 (j 1))) = V c main_v45 (ix2 0 ((((cfg5.win 7).blk t).view.emb j) 1))
    refine congrArg (V c main_v45) (funext fun a => Fin.ext ?_)
    match a with
    | ⟨0, _⟩ => show win5_5.index t (0 : Fin 2) * 1 + 1 * 0 = 0; omega
    | ⟨1, _⟩ => show win5_5.index t (1 : Fin 2) * 256 + 1 * (j 1).val = win5_7.index t (1 : Fin 2) * 256 + 1 * (j 1).val; omega
  · show V c main_v46 (((cfg5.win 6).blk t).view.emb (ix2 0 (j 1))) = V c main_v46 (ix2 0 ((((cfg5.win 7).blk t).view.emb j) 1))
    refine congrArg (V c main_v46) (funext fun a => Fin.ext ?_)
    match a with
    | ⟨0, _⟩ => show win5_6.index t (0 : Fin 2) * 1 + 1 * 0 = 0; omega
    | ⟨1, _⟩ => show win5_6.index t (1 : Fin 2) * 256 + 1 * (j 1).val = win5_7.index t (1 : Fin 2) * 256 + 1 * (j 1).val; omega

set_option maxHeartbeats 1000000 in
/-- What point t writes back through the upper bound's window is block t of the layer's upper bound. -/
theorem flushed_up (c : Dev nD) (t : Fin cfg5.N) :
    (dat5 V c).flushed 8 t = ((cfg5.win 8).blk t).view.read (Elt Ideal)
      (fun i => upAt (B := 2048) (Din := 2048) (Dout := 1024) false (V c main_v31_0) (V c main_v31_1) (V c main_arg17) (V c main_v44_0) (V c main_v44_1)
        (fun o => V c main_v45 (ix2 0 o)) (fun o => V c main_v46 (ix2 0 o)) (i 0) (i 1)) := by
  show (cfg5.win 8).cut (grid5.coords t) ((dat5 V c).after 8 t) = _
  rw [after5_8]
  unfold out5_8
  rw [View.canon_unit_zero origin]
  simp only [View.ld_unit_zero (S := S512x2048) origin, View.ld_unit_zero (S := S256x2048) origin, View.ld_unit_zero (S := S1x256) origin]
  funext j
  obtain ⟨e00, e01, e10, e11, e20, e21, e30, e31, e40, e41, e50, e51, e60, e61, e70, e71, e80, e81⟩ := idx_facts t
  show k5_pay9 (iblk5 V c 0 t) (iblk5 V c 1 t) (iblk5 V c 2 t) (iblk5 V c 3 t) (iblk5 V c 4 t) (iblk5 V c 5 t) (iblk5 V c 6 t) j
    = upAt (B := 2048) (Din := 2048) (Dout := 1024) false (V c main_v31_0) (V c main_v31_1) (V c main_arg17) (V c main_v44_0) (V c main_v44_1)
        (fun o => V c main_v45 (ix2 0 o)) (fun o => V c main_v46 (ix2 0 o))
        ((((cfg5.win 8).blk t).view.emb j) 0) ((((cfg5.win 8).blk t).view.emb j) 1)
  refine block_up (V c main_v31_0) (V c main_v31_1) (V c main_arg17) (V c main_v44_0) (V c main_v44_1) (V c main_v45) (V c main_v46)
    (iblk5 V c 0 t) (iblk5 V c 1 t) (iblk5 V c 2 t) (iblk5 V c 3 t) (iblk5 V c 4 t) (iblk5 V c 5 t) (iblk5 V c 6 t) j _ _ ?_ ?_ ?_ ?_ ?_ ?_ ?_
  · intro k
    show V c main_v31_0 (((cfg5.win 0).blk t).view.emb (ix2 (j 0) k)) = V c main_v31_0 (ix2 ((((cfg5.win 8).blk t).view.emb j) 0) k)
    refine congrArg (V c main_v31_0) (funext fun a => Fin.ext ?_)
    match a with
    | ⟨0, _⟩ => show win5_0.index t (0 : Fin 2) * 512 + 1 * (j 0).val = win5_8.index t (0 : Fin 2) * 512 + 1 * (j 0).val; omega
    | ⟨1, _⟩ => show win5_0.index t (1 : Fin 2) * 2048 + 1 * k.val = k.val; omega
  · intro k
    show V c main_v31_1 (((cfg5.win 1).blk t).view.emb (ix2 (j 0) k)) = V c main_v31_1 (ix2 ((((cfg5.win 8).blk t).view.emb j) 0) k)
    refine congrArg (V c main_v31_1) (funext fun a => Fin.ext ?_)
    match a with
    | ⟨0, _⟩ => show win5_1.index t (0 : Fin 2) * 512 + 1 * (j 0).val = win5_8.index t (0 : Fin 2) * 512 + 1 * (j 0).val; omega
    | ⟨1, _⟩ => show win5_1.index t (1 : Fin 2) * 2048 + 1 * k.val = k.val; omega
  · intro k
    show V c main_arg17 (((cfg5.win 2).blk t).view.emb (ix2 (j 1) k)) = V c main_arg17 (ix2 ((((cfg5.win 8).blk t).view.emb j) 1) k)
    refine congrArg (V c main_arg17) (funext fun a => Fin.ext ?_)
    match a with
    | ⟨0, _⟩ => show win5_2.index t (0 : Fin 2) * 256 + 1 * (j 1).val = win5_8.index t (1 : Fin 2) * 256 + 1 * (j 1).val; omega
    | ⟨1, _⟩ => show win5_2.index t (1 : Fin 2) * 2048 + 1 * k.val = k.val; omega
  · intro k
    show V c main_v44_0 (((cfg5.win 3).blk t).view.emb (ix2 (j 1) k)) = V c main_v44_0 (ix2 ((((cfg5.win 8).blk t).view.emb j) 1) k)
    refine congrArg (V c main_v44_0) (funext fun a => Fin.ext ?_)
    match a with
    | ⟨0, _⟩ => show win5_3.index t (0 : Fin 2) * 256 + 1 * (j 1).val = win5_8.index t (1 : Fin 2) * 256 + 1 * (j 1).val; omega
    | ⟨1, _⟩ => show win5_3.index t (1 : Fin 2) * 2048 + 1 * k.val = k.val; omega
  · intro k
    show V c main_v44_1 (((cfg5.win 4).blk t).view.emb (ix2 (j 1) k)) = V c main_v44_1 (ix2 ((((cfg5.win 8).blk t).view.emb j) 1) k)
    refine congrArg (V c main_v44_1) (funext fun a => Fin.ext ?_)
    match a with
    | ⟨0, _⟩ => show win5_4.index t (0 : Fin 2) * 256 + 1 * (j 1).val = win5_8.index t (1 : Fin 2) * 256 + 1 * (j 1).val; omega
    | ⟨1, _⟩ => show win5_4.index t (1 : Fin 2) * 2048 + 1 * k.val = k.val; omega
  · show V c main_v45 (((cfg5.win 5).blk t).view.emb (ix2 0 (j 1))) = V c main_v45 (ix2 0 ((((cfg5.win 8).blk t).view.emb j) 1))
    refine congrArg (V c main_v45) (funext fun a => Fin.ext ?_)
    match a with
    | ⟨0, _⟩ => show win5_5.index t (0 : Fin 2) * 1 + 1 * 0 = 0; omega
    | ⟨1, _⟩ => show win5_5.index t (1 : Fin 2) * 256 + 1 * (j 1).val = win5_8.index t (1 : Fin 2) * 256 + 1 * (j 1).val; omega
  · show V c main_v46 (((cfg5.win 6).blk t).view.emb (ix2 0 (j 1))) = V c main_v46 (ix2 0 ((((cfg5.win 8).blk t).view.emb j) 1))
    refine congrArg (V c main_v46) (funext fun a => Fin.ext ?_)
    match a with
    | ⟨0, _⟩ => show win5_6.index t (0 : Fin 2) * 1 + 1 * 0 = 0; omega
    | ⟨1, _⟩ => show win5_6.index t (1 : Fin 2) * 256 + 1 * (j 1).val = win5_8.index t (1 : Fin 2) * 256 + 1 * (j 1).val; omega

/-! ## The blocks cover the outputs -/

/-- An entry of the output array is in point t's block iff it is in the block's rows and columns. -/
theorem mem_blk_lo (t : Fin cfg5.N) (i : S2048x1024.Idx) :
    i ∈ ((cfg5.win 7).blk t).view.set ↔ ∀ a : Fin 2, win5_7.index t a * S512x256.size a ≤ (i a).val ∧ (i a).val < win5_7.index t a * S512x256.size a + S512x256.size a := by
  show i ∈ ((View.whole main_v47_0).slice (win5_7.rect t)).set ↔ _
  rw [View.set_slice_whole, Rect.mem_set_unit]
  exact Iff.rfl

/-- The 16 rectangles fill the array: entry (r, o) is in the block of point 4 · (r / 512) + o / 256. -/
theorem cover_lo (i : S2048x1024.Idx) : ∃ t : Fin cfg5.N, (cfg5.win 7).flush t = true ∧ i ∈ ((cfg5.win 7).blk t).view.set := by
  have hi0 : (i 0).val < 2048 := (i 0).isLt
  have hi1 : (i 1).val < 1024 := (i 1).isLt
  have hN : cfg5.N = 16 := N_5
  refine ⟨⟨(i 0).val / 512 * 4 + (i 1).val / 256, by rw [hN]; omega⟩, flush5_7 _, ?_⟩
  rw [mem_blk_lo]
  obtain ⟨-, -, -, -, -, -, -, -, -, -, -, -, -, -, q70, q71, q80, q81⟩ := idx_facts ⟨(i 0).val / 512 * 4 + (i 1).val / 256, by rw [hN]; omega⟩
  intro a
  match a with
  | ⟨0, _⟩ => show win5_7.index _ (0 : Fin 2) * 512 ≤ (i 0).val ∧ (i 0).val < win5_7.index _ (0 : Fin 2) * 512 + 512; rw [q70]; show ((i 0).val / 512 * 4 + (i 1).val / 256) / 4 * 512 ≤ _ ∧ _ < ((i 0).val / 512 * 4 + (i 1).val / 256) / 4 * 512 + 512; omega
  | ⟨1, _⟩ => show win5_7.index _ (1 : Fin 2) * 256 ≤ (i 1).val ∧ (i 1).val < win5_7.index _ (1 : Fin 2) * 256 + 256; rw [q71]; show ((i 0).val / 512 * 4 + (i 1).val / 256) % 4 * 256 ≤ _ ∧ _ < ((i 0).val / 512 * 4 + (i 1).val / 256) % 4 * 256 + 256; omega

/-- An entry of the output array is in point t's block iff it is in the block's rows and columns. -/
theorem mem_blk_up (t : Fin cfg5.N) (i : S2048x1024.Idx) :
    i ∈ ((cfg5.win 8).blk t).view.set ↔ ∀ a : Fin 2, win5_8.index t a * S512x256.size a ≤ (i a).val ∧ (i a).val < win5_8.index t a * S512x256.size a + S512x256.size a := by
  show i ∈ ((View.whole main_v47_1).slice (win5_8.rect t)).set ↔ _
  rw [View.set_slice_whole, Rect.mem_set_unit]
  exact Iff.rfl

/-- The 16 rectangles fill the array: entry (r, o) is in the block of point 4 · (r / 512) + o / 256. -/
theorem cover_up (i : S2048x1024.Idx) : ∃ t : Fin cfg5.N, (cfg5.win 8).flush t = true ∧ i ∈ ((cfg5.win 8).blk t).view.set := by
  have hi0 : (i 0).val < 2048 := (i 0).isLt
  have hi1 : (i 1).val < 1024 := (i 1).isLt
  have hN : cfg5.N = 16 := N_5
  refine ⟨⟨(i 0).val / 512 * 4 + (i 1).val / 256, by rw [hN]; omega⟩, flush5_8 _, ?_⟩
  rw [mem_blk_up]
  obtain ⟨-, -, -, -, -, -, -, -, -, -, -, -, -, -, q70, q71, q80, q81⟩ := idx_facts ⟨(i 0).val / 512 * 4 + (i 1).val / 256, by rw [hN]; omega⟩
  intro a
  match a with
  | ⟨0, _⟩ => show win5_8.index _ (0 : Fin 2) * 512 ≤ (i 0).val ∧ (i 0).val < win5_8.index _ (0 : Fin 2) * 512 + 512; rw [q80]; show ((i 0).val / 512 * 4 + (i 1).val / 256) / 4 * 512 ≤ _ ∧ _ < ((i 0).val / 512 * 4 + (i 1).val / 256) / 4 * 512 + 512; omega
  | ⟨1, _⟩ => show win5_8.index _ (1 : Fin 2) * 256 ≤ (i 1).val ∧ (i 1).val < win5_8.index _ (1 : Fin 2) * 256 + 256; rw [q81]; show ((i 0).val / 512 * 4 + (i 1).val / 256) % 4 * 256 ≤ _ ∧ _ < ((i 0).val / 512 * 4 + (i 1).val / 256) % 4 * 256 + 256; omega

/-! ## The outputs after the region -/

/-- The lower bound's array after region 5. -/
theorem final_lo (c : Dev nD) : (dat5 V c).arrAt 7 cfg5.N
    = fun i => loAt (B := 2048) (Din := 2048) (Dout := 1024) false (V c main_v31_0) (V c main_v31_1) (V c main_arg17) (V c main_v44_0) (V c main_v44_1)
        (fun o => V c main_v45 (ix2 0 o)) (fun o => V c main_v46 (ix2 0 o)) (i 0) (i 1) :=
  (dat5 V c).arrAt_eq_of_cover 7 _ (fun t _ => flushed_lo V c t) cover_lo

/-- The upper bound's array after region 5. -/
theorem final_up (c : Dev nD) : (dat5 V c).arrAt 8 cfg5.N
    = fun i => upAt (B := 2048) (Din := 2048) (Dout := 1024) false (V c main_v31_0) (V c main_v31_1) (V c main_arg17) (V c main_v44_0) (V c main_v44_1)
        (fun o => V c main_v45 (ix2 0 o)) (fun o => V c main_v46 (ix2 0 o)) (i 0) (i 1) :=
  (dat5 V c).arrAt_eq_of_cover 8 _ (fun t _ => flushed_up V c t) cover_up

end Cert.KernelIdeal.Layer5

end
-- ==== Proof.Entry.lean ====
/-
  What each kernel region finds at entry, and what it leaves, as functions of the launch arrays.
  The program alternates host stretches and regions.  For layer ℓ: a host stretch computes the bias radius
  bEps b ba be bv from the layer's four bias vectors; a region computes the weight radius wEps w wa we wv (and,
  after the first layer, |w| + radius); a stretch reshapes the bias and its radius from [n] to [1, n]; a region
  computes the layer's lower and upper bounds from the previous bounds, the weights, the two weight-side
  arrays and the two bias rows.  Reading every buffer a region stages back to its writer gives each region's
  outputs as the network functions of Net.lean applied to the launch arrays.
-/
import proofs.«181910_j61117384622159_2_alg».proof.Proof.Back
import proofs.«181910_j61117384622159_2_alg».proof.Proof.Net
import proofs.«181910_j61117384622159_2_alg».proof.Proof.Prep0
import proofs.«181910_j61117384622159_2_alg».proof.Proof.Prep2
import proofs.«181910_j61117384622159_2_alg».proof.Proof.Prep4
import proofs.«181910_j61117384622159_2_alg».proof.Proof.Layer1
import proofs.«181910_j61117384622159_2_alg».proof.Proof.Layer3
import proofs.«181910_j61117384622159_2_alg».proof.Proof.Layer5
import Idealize.ShloMosaic.Lib.Pipeline.Value
import Idealize.ShloMosaic.Lib.StableHlo.Run

set_option maxRecDepth 16384

noncomputable section

namespace Cert.KernelIdeal.Entry

open Cert.KernelIdeal Cert.KernelIdeal.Gen Cert.KernelIdeal.Back Cert.Ibp
open Idealize.ShloMosaic Idealize.ShloMosaic.TcCoe Idealize.SL.Sem Idealize.ShloMosaic.ValueIdx

variable (m : (ℓ : Loc nD τ sig) → Buf (Elt Ideal) ℓ) (ρ : Dev nD → PrngReg)

/-- A vector reshaped to one row, read in that row. -/
theorem row_of_vec {n : Nat} (v : (⟨1, ![n]⟩ : Shape).Idx → EReal) (h : (⟨1, ![n]⟩ : Shape).ShapeCasts ⟨2, ![1, n]⟩) (o : Fin n) :
    shapeCast (⟨2, ![1, n]⟩ : Shape) v h (ix2 (0 : Fin 1) o) = v (ix1 o) := by
  refine (shapeCast_addUnit_apply (n := 1) ![n] v h (ix2 (0 : Fin 1) o)).trans ?_
  congr 1; funext a; match a with | ⟨0, _⟩ => rfl

/-! ## Layer 0 -/

set_option maxHeartbeats 4000000 in
/-- The first stretch leaves the first layer's bias radius, entry by entry. -/
theorem W1_v11 (c : Dev nD) : W1 m ρ c (Proc.devRef .tc main_v11)
    = fun i => eps (m ((c : Thread nD τ).loc main_arg2) i) (m ((c : Thread nD τ).loc main_arg4) i)
        (m ((c : Thread nD τ).loc main_arg6) i) (m ((c : Thread nD τ).loc main_arg8) i) := by
  show StableHlo.after hostOps0 (W0 m ρ c) (Proc.devRef .tc main_v11) = _
  have e2 : W0 m ρ c (Proc.devRef .tc main_arg2) = m ((c : Thread nD τ).loc main_arg2) := rfl
  have e4 : W0 m ρ c (Proc.devRef .tc main_arg4) = m ((c : Thread nD τ).loc main_arg4) := rfl
  have e6 : W0 m ρ c (Proc.devRef .tc main_arg6) = m ((c : Thread nD τ).loc main_arg6) := rfl
  have e8 : W0 m ρ c (Proc.devRef .tc main_arg8) = m ((c : Thread nD τ).loc main_arg8) := rfl
  generalize W0 m ρ c = Z at e2 e4 e6 e8 ⊢
  after_results_simp
  rw [e2, e4, e6, e8]
  funext i
  rfl

/-- Region 1 finds the first layer's weight radius where region 0 left it. -/
theorem V3_v12 (c : Dev nD) : V3 m ρ c main_v12
    = wEps (Dout := 2048) (Din := 1024) (m ((c : Thread nD τ).loc main_arg1)) (m ((c : Thread nD τ).loc main_arg3))
        (m ((c : Thread nD τ).loc main_arg5)) (m ((c : Thread nD τ).loc main_arg7)) := by
  have h : V3 m ρ c main_v12 = W2 m ρ c (Proc.devRef .tc main_v12) := StableHlo.after_of_forall_not_mem _ _ (by not_written)
  rw [h, W2_arr m ρ c 4, Prep0.final (V1 m ρ) c, V1_arg1, V1_arg3, V1_arg5, V1_arg7]

/-- Region 1 finds the bias as one row. -/
theorem V3_v13 (c : Dev nD) (o : Fin 2048) : V3 m ρ c main_v13 (ix2 (0 : Fin 1) o) = biasAt (Dout := 2048) (m ((c : Thread nD τ).loc main_arg2)) o := by
  have h : V3 m ρ c main_v13 = shapeCast S1x2048 (W2 m ρ c (Proc.devRef .tc main_arg2)) shapeCasts_S2048_S1x2048 := by
    show StableHlo.after hostOps1 (W2 m ρ c) (Proc.devRef .tc main_v13) = _
    generalize W2 m ρ c = Z
    after_results
    rfl
  rw [h, W2_arg2]
  exact row_of_vec _ _ o

/-- Region 1 finds the bias radius as one row. -/
theorem V3_v14 (c : Dev nD) (o : Fin 2048) : V3 m ρ c main_v14 (ix2 (0 : Fin 1) o)
    = bEps (Dout := 2048) (m ((c : Thread nD τ).loc main_arg2)) (m ((c : Thread nD τ).loc main_arg4))
        (m ((c : Thread nD τ).loc main_arg6)) (m ((c : Thread nD τ).loc main_arg8)) o := by
  have h : V3 m ρ c main_v14 = shapeCast S1x2048 (W2 m ρ c (Proc.devRef .tc main_v11)) shapeCasts_S2048_S1x2048 := by
    show StableHlo.after hostOps1 (W2 m ρ c) (Proc.devRef .tc main_v14) = _
    generalize W2 m ρ c = Z
    after_results
    rfl
  rw [h, W2_of_ne m ρ c main_v11 (by decide), W1_v11]
  exact row_of_vec _ _ o

/-! ## The bounds after the first layer -/

/-- The lower bound after the first layer, of the launch arrays. -/
abbrev lo1 (c : Dev nD) : Mat 2048 2048 :=
  firstLo (B := 2048) (Din := 1024) (Dout := 2048) (m ((c : Thread nD τ).loc main_arg0)) (m ((c : Thread nD τ).loc main_arg1)) (m ((c : Thread nD τ).loc main_arg3)) (m ((c : Thread nD τ).loc main_arg5)) (m ((c : Thread nD τ).loc main_arg7)) (m ((c : Thread nD τ).loc main_arg2)) (m ((c : Thread nD τ).loc main_arg4)) (m ((c : Thread nD τ).loc main_arg6)) (m ((c : Thread nD τ).loc main_arg8))
/-- The upper bound after the first layer. -/
abbrev up1 (c : Dev nD) : Mat 2048 2048 :=
  firstUp (B := 2048) (Din := 1024) (Dout := 2048) (m ((c : Thread nD τ).loc main_arg0)) (m ((c : Thread nD τ).loc main_arg1)) (m ((c : Thread nD τ).loc main_arg3)) (m ((c : Thread nD τ).loc main_arg5)) (m ((c : Thread nD τ).loc main_arg7)) (m ((c : Thread nD τ).loc main_arg2)) (m ((c : Thread nD τ).loc main_arg4)) (m ((c : Thread nD τ).loc main_arg6)) (m ((c : Thread nD τ).loc main_arg8))

theorem W4_v15_0 (c : Dev nD) : W4 m ρ c (Proc.devRef .tc main_v15_0) = lo1 m c := by
  rw [W4_arr m ρ c 5, Layer1.final_lo (V3 m ρ) c, V3_arg0, V3_arg1, V3_v12,
    show (fun o => V3 m ρ c main_v13 (ix2 (0 : Fin 1) o)) = biasAt (Dout := 2048) (m ((c : Thread nD τ).loc main_arg2)) from funext (V3_v13 m ρ c),
    show (fun o => V3 m ρ c main_v14 (ix2 (0 : Fin 1) o)) = bEps (Dout := 2048) (m ((c : Thread nD τ).loc main_arg2)) (m ((c : Thread nD τ).loc main_arg4)) (m ((c : Thread nD τ).loc main_arg6)) (m ((c : Thread nD τ).loc main_arg8)) from funext (V3_v14 m ρ c)]
  rfl
theorem W4_v15_1 (c : Dev nD) : W4 m ρ c (Proc.devRef .tc main_v15_1) = up1 m c := by
  rw [W4_arr m ρ c 6, Layer1.final_up (V3 m ρ) c, V3_arg0, V3_arg1, V3_v12,
    show (fun o => V3 m ρ c main_v13 (ix2 (0 : Fin 1) o)) = biasAt (Dout := 2048) (m ((c : Thread nD τ).loc main_arg2)) from funext (V3_v13 m ρ c),
    show (fun o => V3 m ρ c main_v14 (ix2 (0 : Fin 1) o)) = bEps (Dout := 2048) (m ((c : Thread nD τ).loc main_arg2)) (m ((c : Thread nD τ).loc main_arg4)) (m ((c : Thread nD τ).loc main_arg6)) (m ((c : Thread nD τ).loc main_arg8)) from funext (V3_v14 m ρ c)]
  rfl

/-! ## Layer 1 -/

set_option maxHeartbeats 4000000 in
theorem W5_v27 (c : Dev nD) : W5 m ρ c (Proc.devRef .tc main_v27)
    = fun i => eps ((m ((c : Thread nD τ).loc main_arg10)) i) ((m ((c : Thread nD τ).loc main_arg12)) i) ((m ((c : Thread nD τ).loc main_arg14)) i) ((m ((c : Thread nD τ).loc main_arg16)) i) := by
  show StableHlo.after hostOps2 (W4 m ρ c) (Proc.devRef .tc main_v27) = _
  have e10 := W4_arg10 m ρ c
  have e12 := W4_arg12 m ρ c
  have e14 := W4_arg14 m ρ c
  have e16 := W4_arg16 m ρ c
  generalize W4 m ρ c = Z at e10 e12 e14 e16 ⊢
  after_results_simp
  rw [e10, e12, e14, e16]
  funext i
  rfl

/-- A buffer region 1 wrote, found by region 3: no stretch and no region between them writes it. -/
theorem V7_of_W4 (c : Dev nD) (b : Ref sig .tc) (h3 : Skips (F := Ideal) hostOps3 b) (s2 : ∀ w, Pipeline.arrRef spec2 w ≠ b)
    (h2 : Skips (F := Ideal) hostOps2 b) : V7 m ρ c b = W4 m ρ c (Proc.devRef .tc b) :=
  (StableHlo.after_of_forall_not_mem _ _ h3).trans ((W6_of_ne m ρ c b s2).trans (StableHlo.after_of_forall_not_mem _ _ h2))

theorem V7_v15_0 (c : Dev nD) : V7 m ρ c main_v15_0 = lo1 m c :=
  (V7_of_W4 m ρ c main_v15_0 (by not_written) (by decide) (by not_written)).trans (W4_v15_0 m ρ c)
theorem V7_v15_1 (c : Dev nD) : V7 m ρ c main_v15_1 = up1 m c :=
  (V7_of_W4 m ρ c main_v15_1 (by not_written) (by decide) (by not_written)).trans (W4_v15_1 m ρ c)

theorem V7_v28_0 (c : Dev nD) : V7 m ρ c main_v28_0 = wEps (Dout := 2048) (Din := 2048) (m ((c : Thread nD τ).loc main_arg9)) (m ((c : Thread nD τ).loc main_arg11)) (m ((c : Thread nD τ).loc main_arg13)) (m ((c : Thread nD τ).loc main_arg15)) := by
  have h : V7 m ρ c main_v28_0 = W6 m ρ c (Proc.devRef .tc main_v28_0) := StableHlo.after_of_forall_not_mem _ _ (by not_written)
  rw [h, W6_arr m ρ c 4, Prep2.final_eps (V5 m ρ) c, V5_arg9, V5_arg11, V5_arg13, V5_arg15]
theorem V7_v28_1 (c : Dev nD) : V7 m ρ c main_v28_1
    = wAbsPlus (Dout := 2048) (Din := 2048) (m ((c : Thread nD τ).loc main_arg9)) (wEps (Dout := 2048) (Din := 2048) (m ((c : Thread nD τ).loc main_arg9)) (m ((c : Thread nD τ).loc main_arg11)) (m ((c : Thread nD τ).loc main_arg13)) (m ((c : Thread nD τ).loc main_arg15))) := by
  have h : V7 m ρ c main_v28_1 = W6 m ρ c (Proc.devRef .tc main_v28_1) := StableHlo.after_of_forall_not_mem _ _ (by not_written)
  rw [h, W6_arr m ρ c 5, Prep2.final_s (V5 m ρ) c, V5_arg9, V5_arg11, V5_arg13, V5_arg15]

theorem V7_v29 (c : Dev nD) (o : Fin 2048) : V7 m ρ c main_v29 (ix2 (0 : Fin 1) o) = biasAt (Dout := 2048) (m ((c : Thread nD τ).loc main_arg10)) o := by
  have h : V7 m ρ c main_v29 = shapeCast S1x2048 (W6 m ρ c (Proc.devRef .tc main_arg10)) shapeCasts_S2048_S1x2048 := by
    show StableHlo.after hostOps3 (W6 m ρ c) (Proc.devRef .tc main_v29) = _
    generalize W6 m ρ c = Z
    after_results
    rfl
  rw [h, W6_arg10]
  exact row_of_vec _ _ o
theorem V7_v30 (c : Dev nD) (o : Fin 2048) : V7 m ρ c main_v30 (ix2 (0 : Fin 1) o)
    = bEps (Dout := 2048) (m ((c : Thread nD τ).loc main_arg10)) (m ((c : Thread nD τ).loc main_arg12)) (m ((c : Thread nD τ).loc main_arg14)) (m ((c : Thread nD τ).loc main_arg16)) o := by
  have h : V7 m ρ c main_v30 = shapeCast S1x2048 (W6 m ρ c (Proc.devRef .tc main_v27)) shapeCasts_S2048_S1x2048 := by
    show StableHlo.after hostOps3 (W6 m ρ c) (Proc.devRef .tc main_v30) = _
    generalize W6 m ρ c = Z
    after_results
    rfl
  rw [h, W6_of_ne m ρ c main_v27 (by decide), W5_v27]
  exact row_of_vec _ _ o

/-- The lower bound after the second layer, of the launch arrays. -/
abbrev lo2 (c : Dev nD) : Mat 2048 2048 :=
  layerLo (B := 2048) (Din := 2048) (Dout := 2048) true (lo1 m c) (up1 m c) (m ((c : Thread nD τ).loc main_arg9)) (m ((c : Thread nD τ).loc main_arg11)) (m ((c : Thread nD τ).loc main_arg13)) (m ((c : Thread nD τ).loc main_arg15)) (m ((c : Thread nD τ).loc main_arg10)) (m ((c : Thread nD τ).loc main_arg12)) (m ((c : Thread nD τ).loc main_arg14)) (m ((c : Thread nD τ).loc main_arg16))
/-- The upper bound after the second layer. -/
abbrev up2 (c : Dev nD) : Mat 2048 2048 :=
  layerUp (B := 2048) (Din := 2048) (Dout := 2048) true (lo1 m c) (up1 m c) (m ((c : Thread nD τ).loc main_arg9)) (m ((c : Thread nD τ).loc main_arg11)) (m ((c : Thread nD τ).loc main_arg13)) (m ((c : Thread nD τ).loc main_arg15)) (m ((c : Thread nD τ).loc main_arg10)) (m ((c : Thread nD τ).loc main_arg12)) (m ((c : Thread nD τ).loc main_arg14)) (m ((c : Thread nD τ).loc main_arg16))

theorem W8_v31_0 (c : Dev nD) : W8 m ρ c (Proc.devRef .tc main_v31_0) = lo2 m c := by
  rw [W8_arr m ρ c 7, Layer3.final_lo (V7 m ρ) c, V7_v15_0, V7_v15_1, V7_arg9, V7_v28_0, V7_v28_1,
    show (fun o => V7 m ρ c main_v29 (ix2 (0 : Fin 1) o)) = biasAt (Dout := 2048) (m ((c : Thread nD τ).loc main_arg10)) from funext (V7_v29 m ρ c),
    show (fun o => V7 m ρ c main_v30 (ix2 (0 : Fin 1) o)) = bEps (Dout := 2048) (m ((c : Thread nD τ).loc main_arg10)) (m ((c : Thread nD τ).loc main_arg12)) (m ((c : Thread nD τ).loc main_arg14)) (m ((c : Thread nD τ).loc main_arg16)) from funext (V7_v30 m ρ c)]
  rfl
theorem W8_v31_1 (c : Dev nD) : W8 m ρ c (Proc.devRef .tc main_v31_1) = up2 m c := by
  rw [W8_arr m ρ c 8, Layer3.final_up (V7 m ρ) c, V7_v15_0, V7_v15_1, V7_arg9, V7_v28_0, V7_v28_1,
    show (fun o => V7 m ρ c main_v29 (ix2 (0 : Fin 1) o)) = biasAt (Dout := 2048) (m ((c : Thread nD τ).loc main_arg10)) from funext (V7_v29 m ρ c),
    show (fun o => V7 m ρ c main_v30 (ix2 (0 : Fin 1) o)) = bEps (Dout := 2048) (m ((c : Thread nD τ).loc main_arg10)) (m ((c : Thread nD τ).loc main_arg12)) (m ((c : Thread nD τ).loc main_arg14)) (m ((c : Thread nD τ).loc main_arg16)) from funext (V7_v30 m ρ c)]
  rfl

/-! ## Layer 2 -/

set_option maxHeartbeats 4000000 in
theorem W9_v43 (c : Dev nD) : W9 m ρ c (Proc.devRef .tc main_v43)
    = fun i => eps ((m ((c : Thread nD τ).loc main_arg18)) i) ((m ((c : Thread nD τ).loc main_arg20)) i) ((m ((c : Thread nD τ).loc main_arg22)) i) ((m ((c : Thread nD τ).loc main_arg24)) i) := by
  show StableHlo.after hostOps4 (W8 m ρ c) (Proc.devRef .tc main_v43) = _
  have e18 := W8_arg18 m ρ c
  have e20 := W8_arg20 m ρ c
  have e22 := W8_arg22 m ρ c
  have e24 := W8_arg24 m ρ c
  generalize W8 m ρ c = Z at e18 e20 e22 e24 ⊢
  after_results_simp
  rw [e18, e20, e22, e24]
  funext i
  rfl

/-- A buffer region 3 wrote, found by region 5. -/
theorem V11_of_W8 (c : Dev nD) (b : Ref sig .tc) (h5 : Skips (F := Ideal) hostOps5 b) (s4 : ∀ w, Pipeline.arrRef spec4 w ≠ b)
    (h4 : Skips (F := Ideal) hostOps4 b) : V11 m ρ c b = W8 m ρ c (Proc.devRef .tc b) :=
  (StableHlo.after_of_forall_not_mem _ _ h5).trans ((W10_of_ne m ρ c b s4).trans (StableHlo.after_of_forall_not_mem _ _ h4))

theorem V11_v31_0 (c : Dev nD) : V11 m ρ c main_v31_0 = lo2 m c :=
  (V11_of_W8 m ρ c main_v31_0 (by not_written) (by decide) (by not_written)).trans (W8_v31_0 m ρ c)
theorem V11_v31_1 (c : Dev nD) : V11 m ρ c main_v31_1 = up2 m c :=
  (V11_of_W8 m ρ c main_v31_1 (by not_written) (by decide) (by not_written)).trans (W8_v31_1 m ρ c)

theorem V11_v44_0 (c : Dev nD) : V11 m ρ c main_v44_0 = wEps (Dout := 1024) (Din := 2048) (m ((c : Thread nD τ).loc main_arg17)) (m ((c : Thread nD τ).loc main_arg19)) (m ((c : Thread nD τ).loc main_arg21)) (m ((c : Thread nD τ).loc main_arg23)) := by
  have h : V11 m ρ c main_v44_0 = W10 m ρ c (Proc.devRef .tc main_v44_0) := StableHlo.after_of_forall_not_mem _ _ (by not_written)
  rw [h, W10_arr m ρ c 4, Prep4.final_eps (V9 m ρ) c, V9_arg17, V9_arg19, V9_arg21, V9_arg23]
theorem V11_v44_1 (c : Dev nD) : V11 m ρ c main_v44_1
    = wAbsPlus (Dout := 1024) (Din := 2048) (m ((c : Thread nD τ).loc main_arg17)) (wEps (Dout := 1024) (Din := 2048) (m ((c : Thread nD τ).loc main_arg17)) (m ((c : Thread nD τ).loc main_arg19)) (m ((c : Thread nD τ).loc main_arg21)) (m ((c : Thread nD τ).loc main_arg23))) := by
  have h : V11 m ρ c main_v44_1 = W10 m ρ c (Proc.devRef .tc main_v44_1) := StableHlo.after_of_forall_not_mem _ _ (by not_written)
  rw [h, W10_arr m ρ c 5, Prep4.final_s (V9 m ρ) c, V9_arg17, V9_arg19, V9_arg21, V9_arg23]

theorem V11_v45 (c : Dev nD) (o : Fin 1024) : V11 m ρ c main_v45 (ix2 (0 : Fin 1) o) = biasAt (Dout := 1024) (m ((c : Thread nD τ).loc main_arg18)) o := by
  have h : V11 m ρ c main_v45 = shapeCast S1x1024 (W10 m ρ c (Proc.devRef .tc main_arg18)) shapeCasts_S1024_S1x1024 := by
    show StableHlo.after hostOps5 (W10 m ρ c) (Proc.devRef .tc main_v45) = _
    generalize W10 m ρ c = Z
    after_results
    rfl
  rw [h, W10_arg18]
  exact row_of_vec _ _ o
theorem V11_v46 (c : Dev nD) (o : Fin 1024) : V11 m ρ c main_v46 (ix2 (0 : Fin 1) o)
    = bEps (Dout := 1024) (m ((c : Thread nD τ).loc main_arg18)) (m ((c : Thread nD τ).loc main_arg20)) (m ((c : Thread nD τ).loc main_arg22)) (m ((c : Thread nD τ).loc main_arg24)) o := by
  have h : V11 m ρ c main_v46 = shapeCast S1x1024 (W10 m ρ c (Proc.devRef .tc main_v43)) shapeCasts_S1024_S1x1024 := by
    show StableHlo.after hostOps5 (W10 m ρ c) (Proc.devRef .tc main_v46) = _
    generalize W10 m ρ c = Z
    after_results
    rfl
  rw [h, W10_of_ne m ρ c main_v43 (by decide), W9_v43]
  exact row_of_vec _ _ o

/-- The lower bound after the last layer, of the launch arrays. -/
abbrev lo3 (c : Dev nD) : Mat 2048 1024 :=
  layerLo (B := 2048) (Din := 2048) (Dout := 1024) false (lo2 m c) (up2 m c) (m ((c : Thread nD τ).loc main_arg17)) (m ((c : Thread nD τ).loc main_arg19)) (m ((c : Thread nD τ).loc main_arg21)) (m ((c : Thread nD τ).loc main_arg23)) (m ((c : Thread nD τ).loc main_arg18)) (m ((c : Thread nD τ).loc main_arg20)) (m ((c : Thread nD τ).loc main_arg22)) (m ((c : Thread nD τ).loc main_arg24))
/-- The upper bound after the last layer. -/
abbrev up3 (c : Dev nD) : Mat 2048 1024 :=
  layerUp (B := 2048) (Din := 2048) (Dout := 1024) false (lo2 m c) (up2 m c) (m ((c : Thread nD τ).loc main_arg17)) (m ((c : Thread nD τ).loc main_arg19)) (m ((c : Thread nD τ).loc main_arg21)) (m ((c : Thread nD τ).loc main_arg23)) (m ((c : Thread nD τ).loc main_arg18)) (m ((c : Thread nD τ).loc main_arg20)) (m ((c : Thread nD τ).loc main_arg22)) (m ((c : Thread nD τ).loc main_arg24))

theorem W12_v47_0 (c : Dev nD) : W12 m ρ c (Proc.devRef .tc main_v47_0) = lo3 m c := by
  rw [W12_arr m ρ c 7, Layer5.final_lo (V11 m ρ) c, V11_v31_0, V11_v31_1, V11_arg17, V11_v44_0, V11_v44_1,
    show (fun o => V11 m ρ c main_v45 (ix2 (0 : Fin 1) o)) = biasAt (Dout := 1024) (m ((c : Thread nD τ).loc main_arg18)) from funext (V11_v45 m ρ c),
    show (fun o => V11 m ρ c main_v46 (ix2 (0 : Fin 1) o)) = bEps (Dout := 1024) (m ((c : Thread nD τ).loc main_arg18)) (m ((c : Thread nD τ).loc main_arg20)) (m ((c : Thread nD τ).loc main_arg22)) (m ((c : Thread nD τ).loc main_arg24)) from funext (V11_v46 m ρ c)]
  rfl
theorem W12_v47_1 (c : Dev nD) : W12 m ρ c (Proc.devRef .tc main_v47_1) = up3 m c := by
  rw [W12_arr m ρ c 8, Layer5.final_up (V11 m ρ) c, V11_v31_0, V11_v31_1, V11_arg17, V11_v44_0, V11_v44_1,
    show (fun o => V11 m ρ c main_v45 (ix2 (0 : Fin 1) o)) = biasAt (Dout := 1024) (m ((c : Thread nD τ).loc main_arg18)) from funext (V11_v45 m ρ c),
    show (fun o => V11 m ρ c main_v46 (ix2 (0 : Fin 1) o)) = bEps (Dout := 1024) (m ((c : Thread nD τ).loc main_arg18)) (m ((c : Thread nD τ).loc main_arg20)) (m ((c : Thread nD τ).loc main_arg22)) (m ((c : Thread nD τ).loc main_arg24)) from funext (V11_v46 m ρ c)]
  rfl

/-! ## The closing stretch: the two bounds stacked on a new last axis -/

/-- The last stretch's result as ONE function of the two bound arrays (both programs end with it). -/
def stack (lo up : Mat 2048 1024) : (⟨S2048x1024x2, .f32⟩ : BufTy).Contents (Elt Ideal) :=
  concatenate S2048x1024x2 2 [⟨S2048x1024x1, broadcastInDim S2048x1024x1 ![0, 1] bcast_S2048x1024_S2048x1024x1_0_1 lo⟩,
    ⟨S2048x1024x1, broadcastInDim S2048x1024x1 ![0, 1] bcast_S2048x1024_S2048x1024x1_0_1 up⟩] concatenates_S2048x1024x1_S2048x1024x1_S2048x1024x2_d2

theorem W13_v50 (c : Dev nD) : W13 m ρ c (Proc.devRef .tc main_v50) = stack (lo3 m c) (up3 m c) := by
  show StableHlo.after hostOps6 (W12 m ρ c) (Proc.devRef .tc main_v50) = _
  have e0 := W12_v47_0 m ρ c
  have e1 := W12_v47_1 m ρ c
  generalize W12 m ρ c = Z at e0 e1 ⊢
  after_results
  rw [e0, e1]
  rfl

end Cert.KernelIdeal.Entry

end
-- ==== Proof.RefSide.lean ====
/-
  The reference program, layer by layer, is the recomputed arrangement of interval bound propagation.  Each layer of
  the reference forms the clamped radii of the weights and of the bias, the endpoints w ∓ e of the weight interval,
  their transposes, the midpoint and radius of the incoming box and of the weight interval (each a sum or a difference
  times one half), three matrix products H, K₁, K₂, and then H ∓ (K₁ + K₂) plus the bias row b ∓ its radius, closed by a
  maximum with zero between layers.  Read at one index, every operation takes its operands at one index each (a
  transposition swaps the two coordinates, a broadcast forgets the row, a product sums over the feature k), so the
  result is, entry by entry, the specification's formula with the same operations in the same order: nothing is
  rearranged, no entry is assumed finite.
-/
import proofs.«181910_j61117384622159_2_alg».proof.Proof.RefRead
import proofs.«181910_j61117384622159_2_alg».proof.Proof.Net

set_option maxRecDepth 16384

noncomputable section

namespace Cert.ReferenceIdeal.RefValue

open Cert.ReferenceIdeal Idealize.ShloMosaic Idealize.ShloMosaic.ValueIdx

/-! ## Layer 0 -/

/-- The clamped weight radius, as the reference computes it, entry by entry. -/
theorem weps1 (x1 : (⟨S2048x1024, .f32⟩ : BufTy).Contents (Elt Ideal)) (x3 : (⟨S2048x1024, .f32⟩ : BufTy).Contents (Elt Ideal)) (x5 : (⟨S2048x1024, .f32⟩ : BufTy).Contents (Elt Ideal)) (x7 : (⟨S2048x1024, .f32⟩ : BufTy).Contents (Elt Ideal)) (j : S2048x1024.Idx) :
    Read.val_main_v11 (F := Ideal) x1 x3 x5 x7 j = Cert.Ibp.wEps (Dout := 2048) (Din := 1024) x1 x3 x5 x7 j := by
  simp only [Read.val_main_v11_apply, Read.val_main_v10_apply, Read.val_main_v9_apply, Read.val_main_cst_0_apply, Read.val_main_v8_apply, Read.val_main_v7_apply, Read.val_main_cst_apply, Read.val_main_v6_apply, Read.val_main_v5_apply, Read.val_main_v4_apply, Read.val_main_v3_apply, Read.val_main_v2_apply, Read.val_main_v1_apply, Read.val_main_v0_apply]
  rfl

/-- The clamped bias radius, entry by entry. -/
theorem beps1 (x2 : (⟨S2048, .f32⟩ : BufTy).Contents (Elt Ideal)) (x4 : (⟨S2048, .f32⟩ : BufTy).Contents (Elt Ideal)) (x6 : (⟨S2048, .f32⟩ : BufTy).Contents (Elt Ideal)) (x8 : (⟨S2048, .f32⟩ : BufTy).Contents (Elt Ideal)) (j : S2048.Idx) :
    Read.val_main_v23 (F := Ideal) x2 x4 x6 x8 j = Cert.Ibp.eps (x2 j) (x4 j) (x6 j) (x8 j) := by
  simp only [Read.val_main_v23_apply, Read.val_main_v22_apply, Read.val_main_v21_apply, Read.val_main_cst_2_apply, Read.val_main_v20_apply, Read.val_main_v19_apply, Read.val_main_cst_1_apply, Read.val_main_v18_apply, Read.val_main_v17_apply, Read.val_main_v16_apply, Read.val_main_v15_apply, Read.val_main_v14_apply, Read.val_main_v13_apply, Read.val_main_v12_apply]
  rfl

/-- The activations' midpoint and radius. -/
theorem mid1 (x0 : (⟨S2048x1024, .f32⟩ : BufTy).Contents (Elt Ideal)) (j : S2048x1024.Idx) :
    Read.val_main_v30 (F := Ideal) x0 j = (Cert.Ibp.mid (B := 2048) (Din := 1024) x0 x0) j := by
  simp only [Read.val_main_v30_apply, Read.val_main_v29_apply, Read.val_main_cst_3_apply, Read.val_main_v28_apply]
  rfl
theorem rad1 (x0 : (⟨S2048x1024, .f32⟩ : BufTy).Contents (Elt Ideal)) (j : S2048x1024.Idx) :
    Read.val_main_v33 (F := Ideal) x0 j = (Cert.Ibp.rad (B := 2048) (Din := 1024) x0 x0) j := by
  simp only [Read.val_main_v33_apply, Read.val_main_v32_apply, Read.val_main_cst_4_apply, Read.val_main_v31_apply]
  rfl
theorem absmid1 (x0 : (⟨S2048x1024, .f32⟩ : BufTy).Contents (Elt Ideal)) (j : S2048x1024.Idx) :
    Read.val_main_v41 (F := Ideal) x0 j = (fun j => Cert.Ibp.abs ((Cert.Ibp.mid (B := 2048) (Din := 1024) x0 x0) j)) j := by
  rw [Read.val_main_v41_apply, mid1]
  rfl

/-- The weight interval's midpoint and radius recomputed from its endpoints, read through the transposition:
    entry (k, o) of the transposed array is entry (o, k) of the weights. -/
theorem wmid1 (x1 : (⟨S2048x1024, .f32⟩ : BufTy).Contents (Elt Ideal)) (x3 : (⟨S2048x1024, .f32⟩ : BufTy).Contents (Elt Ideal)) (x5 : (⟨S2048x1024, .f32⟩ : BufTy).Contents (Elt Ideal)) (x7 : (⟨S2048x1024, .f32⟩ : BufTy).Contents (Elt Ideal)) (j : S1024x2048.Idx) :
    Read.val_main_v36 (F := Ideal) x1 x3 x5 x7 j = (Cert.Ibp.wMid x1 (Cert.Ibp.wEps (Dout := 2048) (Din := 1024) x1 x3 x5 x7)) (Read.idx_main_v26 j) := by
  simp only [Read.val_main_v36_apply, Read.val_main_v35_apply, Read.val_main_cst_5_apply, Read.val_main_v34_apply, Read.val_main_v26_apply, Read.val_main_v27_apply, Read.val_main_v24_apply, Read.val_main_v25_apply, weps1]
  rfl
theorem wrad1 (x1 : (⟨S2048x1024, .f32⟩ : BufTy).Contents (Elt Ideal)) (x3 : (⟨S2048x1024, .f32⟩ : BufTy).Contents (Elt Ideal)) (x5 : (⟨S2048x1024, .f32⟩ : BufTy).Contents (Elt Ideal)) (x7 : (⟨S2048x1024, .f32⟩ : BufTy).Contents (Elt Ideal)) (j : S1024x2048.Idx) :
    Read.val_main_v39 (F := Ideal) x1 x3 x5 x7 j = (Cert.Ibp.wRad x1 (Cert.Ibp.wEps (Dout := 2048) (Din := 1024) x1 x3 x5 x7)) (Read.idx_main_v26 j) := by
  simp only [Read.val_main_v39_apply, Read.val_main_v38_apply, Read.val_main_cst_6_apply, Read.val_main_v37_apply, Read.val_main_v26_apply, Read.val_main_v27_apply, Read.val_main_v24_apply, Read.val_main_v25_apply, weps1]
  rfl
theorem wsum1 (x1 : (⟨S2048x1024, .f32⟩ : BufTy).Contents (Elt Ideal)) (x3 : (⟨S2048x1024, .f32⟩ : BufTy).Contents (Elt Ideal)) (x5 : (⟨S2048x1024, .f32⟩ : BufTy).Contents (Elt Ideal)) (x7 : (⟨S2048x1024, .f32⟩ : BufTy).Contents (Elt Ideal)) (j : S1024x2048.Idx) :
    Read.val_main_v44 (F := Ideal) x1 x3 x5 x7 j = Cert.Ibp.wAbsPlus (Cert.Ibp.wMid x1 (Cert.Ibp.wEps (Dout := 2048) (Din := 1024) x1 x3 x5 x7)) (Cert.Ibp.wRad x1 (Cert.Ibp.wEps (Dout := 2048) (Din := 1024) x1 x3 x5 x7)) (Read.idx_main_v26 j) := by
  rw [Read.val_main_v44_apply, Read.val_main_v43_apply, wmid1, wrad1]
  rfl

/-- The contraction's operand indices: row r of the activations at feature k, and (through the transposition)
    row o of the weights at feature k. -/
theorem lidx40_1 (i : S2048x2048.Idx) (k : Fin 1024) :
    Read.lidx_main_v40 i k = ix2 (n0 := 2048) (n1 := 1024) (i 0) k := funext fun a => Fin.ext (by match a with | ⟨0, _⟩ => rfl | ⟨1, _⟩ => rfl)
theorem ridx40_1 (i : S2048x2048.Idx) (k : Fin 1024) :
    Read.idx_main_v26 (Read.ridx_main_v40 i k) = ix2 (n0 := 2048) (n1 := 1024) (i 1) k := funext fun a => Fin.ext (by match a with | ⟨0, _⟩ => rfl | ⟨1, _⟩ => rfl)
theorem lidx42_1 (i : S2048x2048.Idx) (k : Fin 1024) :
    Read.lidx_main_v42 i k = ix2 (n0 := 2048) (n1 := 1024) (i 0) k := funext fun a => Fin.ext (by match a with | ⟨0, _⟩ => rfl | ⟨1, _⟩ => rfl)
theorem ridx42_1 (i : S2048x2048.Idx) (k : Fin 1024) :
    Read.idx_main_v26 (Read.ridx_main_v42 i k) = ix2 (n0 := 2048) (n1 := 1024) (i 1) k := funext fun a => Fin.ext (by match a with | ⟨0, _⟩ => rfl | ⟨1, _⟩ => rfl)
theorem lidx45_1 (i : S2048x2048.Idx) (k : Fin 1024) :
    Read.lidx_main_v45 i k = ix2 (n0 := 2048) (n1 := 1024) (i 0) k := funext fun a => Fin.ext (by match a with | ⟨0, _⟩ => rfl | ⟨1, _⟩ => rfl)
theorem ridx45_1 (i : S2048x2048.Idx) (k : Fin 1024) :
    Read.idx_main_v26 (Read.ridx_main_v45 i k) = ix2 (n0 := 2048) (n1 := 1024) (i 1) k := funext fun a => Fin.ext (by match a with | ⟨0, _⟩ => rfl | ⟨1, _⟩ => rfl)

/-- The midpoint product H. -/
theorem H1 (x0 : (⟨S2048x1024, .f32⟩ : BufTy).Contents (Elt Ideal)) (x1 : (⟨S2048x1024, .f32⟩ : BufTy).Contents (Elt Ideal)) (x3 : (⟨S2048x1024, .f32⟩ : BufTy).Contents (Elt Ideal)) (x5 : (⟨S2048x1024, .f32⟩ : BufTy).Contents (Elt Ideal)) (x7 : (⟨S2048x1024, .f32⟩ : BufTy).Contents (Elt Ideal)) (i : S2048x2048.Idx) :
    Read.val_main_v40 (F := Ideal) x0 x1 x3 x5 x7 i = Cert.Ibp.dotT (B := 2048) (Din := 1024) (Dout := 2048) (Cert.Ibp.mid (B := 2048) (Din := 1024) x0 x0) (Cert.Ibp.wMid x1 (Cert.Ibp.wEps (Dout := 2048) (Din := 1024) x1 x3 x5 x7)) (i 0) (i 1) := by
  rw [Read.val_main_v40_apply]
  unfold Cert.Ibp.dotT
  refine Finset.sum_congr rfl fun k _ => ?_
  rw [mid1, wmid1, lidx40_1, ridx40_1]

/-- The first radius term: |midpoint| against the weight radius. -/
theorem K1 (x0 : (⟨S2048x1024, .f32⟩ : BufTy).Contents (Elt Ideal)) (x1 : (⟨S2048x1024, .f32⟩ : BufTy).Contents (Elt Ideal)) (x3 : (⟨S2048x1024, .f32⟩ : BufTy).Contents (Elt Ideal)) (x5 : (⟨S2048x1024, .f32⟩ : BufTy).Contents (Elt Ideal)) (x7 : (⟨S2048x1024, .f32⟩ : BufTy).Contents (Elt Ideal)) (i : S2048x2048.Idx) :
    Read.val_main_v42 (F := Ideal) x0 x1 x3 x5 x7 i = Cert.Ibp.dotT (B := 2048) (Din := 1024) (Dout := 2048) (fun j => Cert.Ibp.abs ((Cert.Ibp.mid (B := 2048) (Din := 1024) x0 x0) j)) (Cert.Ibp.wRad x1 (Cert.Ibp.wEps (Dout := 2048) (Din := 1024) x1 x3 x5 x7)) (i 0) (i 1) := by
  rw [Read.val_main_v42_apply]
  unfold Cert.Ibp.dotT
  refine Finset.sum_congr rfl fun k _ => ?_
  rw [absmid1, wrad1, lidx42_1, ridx42_1]

/-- The second radius term: the activations' radius against |weight midpoint| + weight radius. -/
theorem R1 (x0 : (⟨S2048x1024, .f32⟩ : BufTy).Contents (Elt Ideal)) (x1 : (⟨S2048x1024, .f32⟩ : BufTy).Contents (Elt Ideal)) (x3 : (⟨S2048x1024, .f32⟩ : BufTy).Contents (Elt Ideal)) (x5 : (⟨S2048x1024, .f32⟩ : BufTy).Contents (Elt Ideal)) (x7 : (⟨S2048x1024, .f32⟩ : BufTy).Contents (Elt Ideal)) (i : S2048x2048.Idx) :
    Read.val_main_v45 (F := Ideal) x0 x1 x3 x5 x7 i = Cert.Ibp.dotT (B := 2048) (Din := 1024) (Dout := 2048) (Cert.Ibp.rad (B := 2048) (Din := 1024) x0 x0) (Cert.Ibp.wAbsPlus (Cert.Ibp.wMid x1 (Cert.Ibp.wEps (Dout := 2048) (Din := 1024) x1 x3 x5 x7)) (Cert.Ibp.wRad x1 (Cert.Ibp.wEps (Dout := 2048) (Din := 1024) x1 x3 x5 x7))) (i 0) (i 1) := by
  rw [Read.val_main_v45_apply]
  unfold Cert.Ibp.dotT
  refine Finset.sum_congr rfl fun k _ => ?_
  rw [rad1, wsum1, lidx45_1, ridx45_1]

/-- The bias row b ∓ its radius, broadcast over the batch rows: entry (r, o) is entry o. -/
theorem blo1 (x2 : (⟨S2048, .f32⟩ : BufTy).Contents (Elt Ideal)) (x4 : (⟨S2048, .f32⟩ : BufTy).Contents (Elt Ideal)) (x6 : (⟨S2048, .f32⟩ : BufTy).Contents (Elt Ideal)) (x8 : (⟨S2048, .f32⟩ : BufTy).Contents (Elt Ideal)) (i : S2048x2048.Idx) :
    Read.val_main_v51 (F := Ideal) x2 x4 x6 x8 i = Cert.Ibp.biasAt x2 (i 1) - Cert.Ibp.bEps x2 x4 x6 x8 (i 1) := by
  have hj : Read.idx_main_v50 (Read.idx_main_v51 i) = ix1 (n := 2048) (i 1) :=
    funext fun a => Fin.ext (by match a with | ⟨0, _⟩ => rfl)
  rw [Read.val_main_v51_apply, Read.val_main_v50_apply, Read.val_main_v49_apply, beps1, hj]
  rfl
theorem bup1 (x2 : (⟨S2048, .f32⟩ : BufTy).Contents (Elt Ideal)) (x4 : (⟨S2048, .f32⟩ : BufTy).Contents (Elt Ideal)) (x6 : (⟨S2048, .f32⟩ : BufTy).Contents (Elt Ideal)) (x8 : (⟨S2048, .f32⟩ : BufTy).Contents (Elt Ideal)) (i : S2048x2048.Idx) :
    Read.val_main_v55 (F := Ideal) x2 x4 x6 x8 i = Cert.Ibp.biasAt x2 (i 1) + Cert.Ibp.bEps x2 x4 x6 x8 (i 1) := by
  have hj : Read.idx_main_v54 (Read.idx_main_v55 i) = ix1 (n := 2048) (i 1) :=
    funext fun a => Fin.ext (by match a with | ⟨0, _⟩ => rfl)
  rw [Read.val_main_v55_apply, Read.val_main_v54_apply, Read.val_main_v53_apply, beps1, hj]
  rfl

/-- The closing maximum's other operand is the zero word at every index. -/
theorem zlo1 (i : S2048x2048.Idx) : Read.val_main_call0_v0 (F := Ideal) i = Cert.Ibp.zero := by
  rw [Read.val_main_call0_v0_apply, Read.val_main_call0_cst_apply]; rfl
/-- The closing maximum's other operand is the zero word at every index. -/
theorem zup1 (i : S2048x2048.Idx) : Read.val_main_call1_v0 (F := Ideal) i = Cert.Ibp.zero := by
  rw [Read.val_main_call1_v0_apply, Read.val_main_call1_cst_apply]; rfl

/-- The lower bound after layer 0, as the reference computes it, is the recomputed arrangement's. -/
theorem lo1 (x0 : (⟨S2048x1024, .f32⟩ : BufTy).Contents (Elt Ideal)) (x1 : (⟨S2048x1024, .f32⟩ : BufTy).Contents (Elt Ideal)) (x2 : (⟨S2048, .f32⟩ : BufTy).Contents (Elt Ideal)) (x3 : (⟨S2048x1024, .f32⟩ : BufTy).Contents (Elt Ideal)) (x4 : (⟨S2048, .f32⟩ : BufTy).Contents (Elt Ideal)) (x5 : (⟨S2048x1024, .f32⟩ : BufTy).Contents (Elt Ideal)) (x6 : (⟨S2048, .f32⟩ : BufTy).Contents (Elt Ideal)) (x7 : (⟨S2048x1024, .f32⟩ : BufTy).Contents (Elt Ideal)) (x8 : (⟨S2048, .f32⟩ : BufTy).Contents (Elt Ideal)) :
    Read.val_main_v57 (F := Ideal) x0 x1 x2 x3 x4 x5 x6 x7 x8 = Cert.Ibp.refLayerLo (B := 2048) (Din := 1024) (Dout := 2048) true x0 x0 x1 x3 x5 x7 x2 x4 x6 x8 := by
  funext i
  rw [Read.val_main_v57_apply, Read.val_main_v52_apply, Read.val_main_v47_apply, Read.val_main_v46_apply, H1, K1, R1, blo1, zlo1]
  unfold Cert.Ibp.refLayerLo Cert.Ibp.refLoAt Cert.Ibp.loAt Cert.Ibp.act
  rw [if_pos rfl]
  rfl

/-- The upper bound after layer 0. -/
theorem up1 (x0 : (⟨S2048x1024, .f32⟩ : BufTy).Contents (Elt Ideal)) (x1 : (⟨S2048x1024, .f32⟩ : BufTy).Contents (Elt Ideal)) (x2 : (⟨S2048, .f32⟩ : BufTy).Contents (Elt Ideal)) (x3 : (⟨S2048x1024, .f32⟩ : BufTy).Contents (Elt Ideal)) (x4 : (⟨S2048, .f32⟩ : BufTy).Contents (Elt Ideal)) (x5 : (⟨S2048x1024, .f32⟩ : BufTy).Contents (Elt Ideal)) (x6 : (⟨S2048, .f32⟩ : BufTy).Contents (Elt Ideal)) (x7 : (⟨S2048x1024, .f32⟩ : BufTy).Contents (Elt Ideal)) (x8 : (⟨S2048, .f32⟩ : BufTy).Contents (Elt Ideal)) :
    Read.val_main_v58 (F := Ideal) x0 x1 x2 x3 x4 x5 x6 x7 x8 = Cert.Ibp.refLayerUp (B := 2048) (Din := 1024) (Dout := 2048) true x0 x0 x1 x3 x5 x7 x2 x4 x6 x8 := by
  funext i
  rw [Read.val_main_v58_apply, Read.val_main_v56_apply, Read.val_main_v48_apply, Read.val_main_v46_apply, H1, K1, R1, bup1, zup1]
  unfold Cert.Ibp.refLayerUp Cert.Ibp.refUpAt Cert.Ibp.upAt Cert.Ibp.act
  rw [if_pos rfl]
  rfl

/-! ## Layer 1 -/

/-- The clamped weight radius, as the reference computes it, entry by entry. -/
theorem weps2 (x9 : (⟨S2048x2048, .f32⟩ : BufTy).Contents (Elt Ideal)) (x11 : (⟨S2048x2048, .f32⟩ : BufTy).Contents (Elt Ideal)) (x13 : (⟨S2048x2048, .f32⟩ : BufTy).Contents (Elt Ideal)) (x15 : (⟨S2048x2048, .f32⟩ : BufTy).Contents (Elt Ideal)) (j : S2048x2048.Idx) :
    Read.val_main_v70 (F := Ideal) x9 x11 x13 x15 j = Cert.Ibp.wEps (Dout := 2048) (Din := 2048) x9 x11 x13 x15 j := by
  simp only [Read.val_main_v70_apply, Read.val_main_v69_apply, Read.val_main_v68_apply, Read.val_main_cst_8_apply, Read.val_main_v67_apply, Read.val_main_v66_apply, Read.val_main_cst_7_apply, Read.val_main_v65_apply, Read.val_main_v64_apply, Read.val_main_v63_apply, Read.val_main_v62_apply, Read.val_main_v61_apply, Read.val_main_v60_apply, Read.val_main_v59_apply]
  rfl

/-- The clamped bias radius, entry by entry. -/
theorem beps2 (x10 : (⟨S2048, .f32⟩ : BufTy).Contents (Elt Ideal)) (x12 : (⟨S2048, .f32⟩ : BufTy).Contents (Elt Ideal)) (x14 : (⟨S2048, .f32⟩ : BufTy).Contents (Elt Ideal)) (x16 : (⟨S2048, .f32⟩ : BufTy).Contents (Elt Ideal)) (j : S2048.Idx) :
    Read.val_main_v82 (F := Ideal) x10 x12 x14 x16 j = Cert.Ibp.eps (x10 j) (x12 j) (x14 j) (x16 j) := by
  simp only [Read.val_main_v82_apply, Read.val_main_v81_apply, Read.val_main_v80_apply, Read.val_main_cst_10_apply, Read.val_main_v79_apply, Read.val_main_v78_apply, Read.val_main_cst_9_apply, Read.val_main_v77_apply, Read.val_main_v76_apply, Read.val_main_v75_apply, Read.val_main_v74_apply, Read.val_main_v73_apply, Read.val_main_v72_apply, Read.val_main_v71_apply]
  rfl

/-- The activations' midpoint and radius. -/
theorem mid2 (x0 : (⟨S2048x1024, .f32⟩ : BufTy).Contents (Elt Ideal)) (x1 : (⟨S2048x1024, .f32⟩ : BufTy).Contents (Elt Ideal)) (x2 : (⟨S2048, .f32⟩ : BufTy).Contents (Elt Ideal)) (x3 : (⟨S2048x1024, .f32⟩ : BufTy).Contents (Elt Ideal)) (x4 : (⟨S2048, .f32⟩ : BufTy).Contents (Elt Ideal)) (x5 : (⟨S2048x1024, .f32⟩ : BufTy).Contents (Elt Ideal)) (x6 : (⟨S2048, .f32⟩ : BufTy).Contents (Elt Ideal)) (x7 : (⟨S2048x1024, .f32⟩ : BufTy).Contents (Elt Ideal)) (x8 : (⟨S2048, .f32⟩ : BufTy).Contents (Elt Ideal)) (j : S2048x2048.Idx) :
    Read.val_main_v89 (F := Ideal) x0 x1 x2 x3 x4 x5 x6 x7 x8 j = (Cert.Ibp.mid (B := 2048) (Din := 2048) (Read.val_main_v57 (F := Ideal) x0 x1 x2 x3 x4 x5 x6 x7 x8) (Read.val_main_v58 (F := Ideal) x0 x1 x2 x3 x4 x5 x6 x7 x8)) j := by
  simp only [Read.val_main_v89_apply, Read.val_main_v88_apply, Read.val_main_cst_11_apply, Read.val_main_v87_apply]
  generalize Read.val_main_v57 (F := Ideal) x0 x1 x2 x3 x4 x5 x6 x7 x8 = LO
  generalize Read.val_main_v58 (F := Ideal) x0 x1 x2 x3 x4 x5 x6 x7 x8 = UP
  rfl
theorem rad2 (x0 : (⟨S2048x1024, .f32⟩ : BufTy).Contents (Elt Ideal)) (x1 : (⟨S2048x1024, .f32⟩ : BufTy).Contents (Elt Ideal)) (x2 : (⟨S2048, .f32⟩ : BufTy).Contents (Elt Ideal)) (x3 : (⟨S2048x1024, .f32⟩ : BufTy).Contents (Elt Ideal)) (x4 : (⟨S2048, .f32⟩ : BufTy).Contents (Elt Ideal)) (x5 : (⟨S2048x1024, .f32⟩ : BufTy).Contents (Elt Ideal)) (x6 : (⟨S2048, .f32⟩ : BufTy).Contents (Elt Ideal)) (x7 : (⟨S2048x1024, .f32⟩ : BufTy).Contents (Elt Ideal)) (x8 : (⟨S2048, .f32⟩ : BufTy).Contents (Elt Ideal)) (j : S2048x2048.Idx) :
    Read.val_main_v92 (F := Ideal) x0 x1 x2 x3 x4 x5 x6 x7 x8 j = (Cert.Ibp.rad (B := 2048) (Din := 2048) (Read.val_main_v57 (F := Ideal) x0 x1 x2 x3 x4 x5 x6 x7 x8) (Read.val_main_v58 (F := Ideal) x0 x1 x2 x3 x4 x5 x6 x7 x8)) j := by
  simp only [Read.val_main_v92_apply, Read.val_main_v91_apply, Read.val_main_cst_12_apply, Read.val_main_v90_apply]
  generalize Read.val_main_v57 (F := Ideal) x0 x1 x2 x3 x4 x5 x6 x7 x8 = LO
  generalize Read.val_main_v58 (F := Ideal) x0 x1 x2 x3 x4 x5 x6 x7 x8 = UP
  rfl
theorem absmid2 (x0 : (⟨S2048x1024, .f32⟩ : BufTy).Contents (Elt Ideal)) (x1 : (⟨S2048x1024, .f32⟩ : BufTy).Contents (Elt Ideal)) (x2 : (⟨S2048, .f32⟩ : BufTy).Contents (Elt Ideal)) (x3 : (⟨S2048x1024, .f32⟩ : BufTy).Contents (Elt Ideal)) (x4 : (⟨S2048, .f32⟩ : BufTy).Contents (Elt Ideal)) (x5 : (⟨S2048x1024, .f32⟩ : BufTy).Contents (Elt Ideal)) (x6 : (⟨S2048, .f32⟩ : BufTy).Contents (Elt Ideal)) (x7 : (⟨S2048x1024, .f32⟩ : BufTy).Contents (Elt Ideal)) (x8 : (⟨S2048, .f32⟩ : BufTy).Contents (Elt Ideal)) (j : S2048x2048.Idx) :
    Read.val_main_v100 (F := Ideal) x0 x1 x2 x3 x4 x5 x6 x7 x8 j = (fun j => Cert.Ibp.abs ((Cert.Ibp.mid (B := 2048) (Din := 2048) (Read.val_main_v57 (F := Ideal) x0 x1 x2 x3 x4 x5 x6 x7 x8) (Read.val_main_v58 (F := Ideal) x0 x1 x2 x3 x4 x5 x6 x7 x8)) j)) j := by
  rw [Read.val_main_v100_apply, mid2]
  generalize Read.val_main_v57 (F := Ideal) x0 x1 x2 x3 x4 x5 x6 x7 x8 = LO
  generalize Read.val_main_v58 (F := Ideal) x0 x1 x2 x3 x4 x5 x6 x7 x8 = UP
  rfl

/-- The weight interval's midpoint and radius recomputed from its endpoints, read through the transposition:
    entry (k, o) of the transposed array is entry (o, k) of the weights. -/
theorem wmid2 (x9 : (⟨S2048x2048, .f32⟩ : BufTy).Contents (Elt Ideal)) (x11 : (⟨S2048x2048, .f32⟩ : BufTy).Contents (Elt Ideal)) (x13 : (⟨S2048x2048, .f32⟩ : BufTy).Contents (Elt Ideal)) (x15 : (⟨S2048x2048, .f32⟩ : BufTy).Contents (Elt Ideal)) (j : S2048x2048.Idx) :
    Read.val_main_v95 (F := Ideal) x9 x11 x13 x15 j = (Cert.Ibp.wMid x9 (Cert.Ibp.wEps (Dout := 2048) (Din := 2048) x9 x11 x13 x15)) (Read.idx_main_v85 j) := by
  simp only [Read.val_main_v95_apply, Read.val_main_v94_apply, Read.val_main_cst_13_apply, Read.val_main_v93_apply, Read.val_main_v85_apply, Read.val_main_v86_apply, Read.val_main_v83_apply, Read.val_main_v84_apply, weps2]
  rfl
theorem wrad2 (x9 : (⟨S2048x2048, .f32⟩ : BufTy).Contents (Elt Ideal)) (x11 : (⟨S2048x2048, .f32⟩ : BufTy).Contents (Elt Ideal)) (x13 : (⟨S2048x2048, .f32⟩ : BufTy).Contents (Elt Ideal)) (x15 : (⟨S2048x2048, .f32⟩ : BufTy).Contents (Elt Ideal)) (j : S2048x2048.Idx) :
    Read.val_main_v98 (F := Ideal) x9 x11 x13 x15 j = (Cert.Ibp.wRad x9 (Cert.Ibp.wEps (Dout := 2048) (Din := 2048) x9 x11 x13 x15)) (Read.idx_main_v85 j) := by
  simp only [Read.val_main_v98_apply, Read.val_main_v97_apply, Read.val_main_cst_14_apply, Read.val_main_v96_apply, Read.val_main_v85_apply, Read.val_main_v86_apply, Read.val_main_v83_apply, Read.val_main_v84_apply, weps2]
  rfl
theorem wsum2 (x9 : (⟨S2048x2048, .f32⟩ : BufTy).Contents (Elt Ideal)) (x11 : (⟨S2048x2048, .f32⟩ : BufTy).Contents (Elt Ideal)) (x13 : (⟨S2048x2048, .f32⟩ : BufTy).Contents (Elt Ideal)) (x15 : (⟨S2048x2048, .f32⟩ : BufTy).Contents (Elt Ideal)) (j : S2048x2048.Idx) :
    Read.val_main_v103 (F := Ideal) x9 x11 x13 x15 j = Cert.Ibp.wAbsPlus (Cert.Ibp.wMid x9 (Cert.Ibp.wEps (Dout := 2048) (Din := 2048) x9 x11 x13 x15)) (Cert.Ibp.wRad x9 (Cert.Ibp.wEps (Dout := 2048) (Din := 2048) x9 x11 x13 x15)) (Read.idx_main_v85 j) := by
  rw [Read.val_main_v103_apply, Read.val_main_v102_apply, wmid2, wrad2]
  rfl

/-- The contraction's operand indices: row r of the activations at feature k, and (through the transposition)
    row o of the weights at feature k. -/
theorem lidx40_2 (i : S2048x2048.Idx) (k : Fin 2048) :
    Read.lidx_main_v99 i k = ix2 (n0 := 2048) (n1 := 2048) (i 0) k := funext fun a => Fin.ext (by match a with | ⟨0, _⟩ => rfl | ⟨1, _⟩ => rfl)
theorem ridx40_2 (i : S2048x2048.Idx) (k : Fin 2048) :
    Read.idx_main_v85 (Read.ridx_main_v99 i k) = ix2 (n0 := 2048) (n1 := 2048) (i 1) k := funext fun a => Fin.ext (by match a with | ⟨0, _⟩ => rfl | ⟨1, _⟩ => rfl)
theorem lidx42_2 (i : S2048x2048.Idx) (k : Fin 2048) :
    Read.lidx_main_v101 i k = ix2 (n0 := 2048) (n1 := 2048) (i 0) k := funext fun a => Fin.ext (by match a with | ⟨0, _⟩ => rfl | ⟨1, _⟩ => rfl)
theorem ridx42_2 (i : S2048x2048.Idx) (k : Fin 2048) :
    Read.idx_main_v85 (Read.ridx_main_v101 i k) = ix2 (n0 := 2048) (n1 := 2048) (i 1) k := funext fun a => Fin.ext (by match a with | ⟨0, _⟩ => rfl | ⟨1, _⟩ => rfl)
theorem lidx45_2 (i : S2048x2048.Idx) (k : Fin 2048) :
    Read.lidx_main_v104 i k = ix2 (n0 := 2048) (n1 := 2048) (i 0) k := funext fun a => Fin.ext (by match a with | ⟨0, _⟩ => rfl | ⟨1, _⟩ => rfl)
theorem ridx45_2 (i : S2048x2048.Idx) (k : Fin 2048) :
    Read.idx_main_v85 (Read.ridx_main_v104 i k) = ix2 (n0 := 2048) (n1 := 2048) (i 1) k := funext fun a => Fin.ext (by match a with | ⟨0, _⟩ => rfl | ⟨1, _⟩ => rfl)

/-- The midpoint product H. -/
theorem H2 (x0 : (⟨S2048x1024, .f32⟩ : BufTy).Contents (Elt Ideal)) (x1 : (⟨S2048x1024, .f32⟩ : BufTy).Contents (Elt Ideal)) (x2 : (⟨S2048, .f32⟩ : BufTy).Contents (Elt Ideal)) (x3 : (⟨S2048x1024, .f32⟩ : BufTy).Contents (Elt Ideal)) (x4 : (⟨S2048, .f32⟩ : BufTy).Contents (Elt Ideal)) (x5 : (⟨S2048x1024, .f32⟩ : BufTy).Contents (Elt Ideal)) (x6 : (⟨S2048, .f32⟩ : BufTy).Contents (Elt Ideal)) (x7 : (⟨S2048x1024, .f32⟩ : BufTy).Contents (Elt Ideal)) (x8 : (⟨S2048, .f32⟩ : BufTy).Contents (Elt Ideal)) (x9 : (⟨S2048x2048, .f32⟩ : BufTy).Contents (Elt Ideal)) (x11 : (⟨S2048x2048, .f32⟩ : BufTy).Contents (Elt Ideal)) (x13 : (⟨S2048x2048, .f32⟩ : BufTy).Contents (Elt Ideal)) (x15 : (⟨S2048x2048, .f32⟩ : BufTy).Contents (Elt Ideal)) (i : S2048x2048.Idx) :
    Read.val_main_v99 (F := Ideal) x0 x1 x2 x3 x4 x5 x6 x7 x8 x9 x11 x13 x15 i = Cert.Ibp.dotT (B := 2048) (Din := 2048) (Dout := 2048) (Cert.Ibp.mid (B := 2048) (Din := 2048) (Read.val_main_v57 (F := Ideal) x0 x1 x2 x3 x4 x5 x6 x7 x8) (Read.val_main_v58 (F := Ideal) x0 x1 x2 x3 x4 x5 x6 x7 x8)) (Cert.Ibp.wMid x9 (Cert.Ibp.wEps (Dout := 2048) (Din := 2048) x9 x11 x13 x15)) (i 0) (i 1) := by
  rw [Read.val_main_v99_apply]
  unfold Cert.Ibp.dotT
  refine Finset.sum_congr rfl fun k _ => ?_
  rw [mid2, wmid2, lidx40_2, ridx40_2]

/-- The first radius term: |midpoint| against the weight radius. -/
theorem K2 (x0 : (⟨S2048x1024, .f32⟩ : BufTy).Contents (Elt Ideal)) (x1 : (⟨S2048x1024, .f32⟩ : BufTy).Contents (Elt Ideal)) (x2 : (⟨S2048, .f32⟩ : BufTy).Contents (Elt Ideal)) (x3 : (⟨S2048x1024, .f32⟩ : BufTy).Contents (Elt Ideal)) (x4 : (⟨S2048, .f32⟩ : BufTy).Contents (Elt Ideal)) (x5 : (⟨S2048x1024, .f32⟩ : BufTy).Contents (Elt Ideal)) (x6 : (⟨S2048, .f32⟩ : BufTy).Contents (Elt Ideal)) (x7 : (⟨S2048x1024, .f32⟩ : BufTy).Contents (Elt Ideal)) (x8 : (⟨S2048, .f32⟩ : BufTy).Contents (Elt Ideal)) (x9 : (⟨S2048x2048, .f32⟩ : BufTy).Contents (Elt Ideal)) (x11 : (⟨S2048x2048, .f32⟩ : BufTy).Contents (Elt Ideal)) (x13 : (⟨S2048x2048, .f32⟩ : BufTy).Contents (Elt Ideal)) (x15 : (⟨S2048x2048, .f32⟩ : BufTy).Contents (Elt Ideal)) (i : S2048x2048.Idx) :
    Read.val_main_v101 (F := Ideal) x0 x1 x2 x3 x4 x5 x6 x7 x8 x9 x11 x13 x15 i = Cert.Ibp.dotT (B := 2048) (Din := 2048) (Dout := 2048) (fun j => Cert.Ibp.abs ((Cert.Ibp.mid (B := 2048) (Din := 2048) (Read.val_main_v57 (F := Ideal) x0 x1 x2 x3 x4 x5 x6 x7 x8) (Read.val_main_v58 (F := Ideal) x0 x1 x2 x3 x4 x5 x6 x7 x8)) j)) (Cert.Ibp.wRad x9 (Cert.Ibp.wEps (Dout := 2048) (Din := 2048) x9 x11 x13 x15)) (i 0) (i 1) := by
  rw [Read.val_main_v101_apply]
  unfold Cert.Ibp.dotT
  refine Finset.sum_congr rfl fun k _ => ?_
  rw [absmid2, wrad2, lidx42_2, ridx42_2]

/-- The second radius term: the activations' radius against |weight midpoint| + weight radius. -/
theorem R2 (x0 : (⟨S2048x1024, .f32⟩ : BufTy).Contents (Elt Ideal)) (x1 : (⟨S2048x1024, .f32⟩ : BufTy).Contents (Elt Ideal)) (x2 : (⟨S2048, .f32⟩ : BufTy).Contents (Elt Ideal)) (x3 : (⟨S2048x1024, .f32⟩ : BufTy).Contents (Elt Ideal)) (x4 : (⟨S2048, .f32⟩ : BufTy).Contents (Elt Ideal)) (x5 : (⟨S2048x1024, .f32⟩ : BufTy).Contents (Elt Ideal)) (x6 : (⟨S2048, .f32⟩ : BufTy).Contents (Elt Ideal)) (x7 : (⟨S2048x1024, .f32⟩ : BufTy).Contents (Elt Ideal)) (x8 : (⟨S2048, .f32⟩ : BufTy).Contents (Elt Ideal)) (x9 : (⟨S2048x2048, .f32⟩ : BufTy).Contents (Elt Ideal)) (x11 : (⟨S2048x2048, .f32⟩ : BufTy).Contents (Elt Ideal)) (x13 : (⟨S2048x2048, .f32⟩ : BufTy).Contents (Elt Ideal)) (x15 : (⟨S2048x2048, .f32⟩ : BufTy).Contents (Elt Ideal)) (i : S2048x2048.Idx) :
    Read.val_main_v104 (F := Ideal) x0 x1 x2 x3 x4 x5 x6 x7 x8 x9 x11 x13 x15 i = Cert.Ibp.dotT (B := 2048) (Din := 2048) (Dout := 2048) (Cert.Ibp.rad (B := 2048) (Din := 2048) (Read.val_main_v57 (F := Ideal) x0 x1 x2 x3 x4 x5 x6 x7 x8) (Read.val_main_v58 (F := Ideal) x0 x1 x2 x3 x4 x5 x6 x7 x8)) (Cert.Ibp.wAbsPlus (Cert.Ibp.wMid x9 (Cert.Ibp.wEps (Dout := 2048) (Din := 2048) x9 x11 x13 x15)) (Cert.Ibp.wRad x9 (Cert.Ibp.wEps (Dout := 2048) (Din := 2048) x9 x11 x13 x15))) (i 0) (i 1) := by
  rw [Read.val_main_v104_apply]
  unfold Cert.Ibp.dotT
  refine Finset.sum_congr rfl fun k _ => ?_
  rw [rad2, wsum2, lidx45_2, ridx45_2]

/-- The bias row b ∓ its radius, broadcast over the batch rows: entry (r, o) is entry o. -/
theorem blo2 (x10 : (⟨S2048, .f32⟩ : BufTy).Contents (Elt Ideal)) (x12 : (⟨S2048, .f32⟩ : BufTy).Contents (Elt Ideal)) (x14 : (⟨S2048, .f32⟩ : BufTy).Contents (Elt Ideal)) (x16 : (⟨S2048, .f32⟩ : BufTy).Contents (Elt Ideal)) (i : S2048x2048.Idx) :
    Read.val_main_v110 (F := Ideal) x10 x12 x14 x16 i = Cert.Ibp.biasAt x10 (i 1) - Cert.Ibp.bEps x10 x12 x14 x16 (i 1) := by
  have hj : Read.idx_main_v109 (Read.idx_main_v110 i) = ix1 (n := 2048) (i 1) :=
    funext fun a => Fin.ext (by match a with | ⟨0, _⟩ => rfl)
  rw [Read.val_main_v110_apply, Read.val_main_v109_apply, Read.val_main_v108_apply, beps2, hj]
  rfl
theorem bup2 (x10 : (⟨S2048, .f32⟩ : BufTy).Contents (Elt Ideal)) (x12 : (⟨S2048, .f32⟩ : BufTy).Contents (Elt Ideal)) (x14 : (⟨S2048, .f32⟩ : BufTy).Contents (Elt Ideal)) (x16 : (⟨S2048, .f32⟩ : BufTy).Contents (Elt Ideal)) (i : S2048x2048.Idx) :
    Read.val_main_v114 (F := Ideal) x10 x12 x14 x16 i = Cert.Ibp.biasAt x10 (i 1) + Cert.Ibp.bEps x10 x12 x14 x16 (i 1) := by
  have hj : Read.idx_main_v113 (Read.idx_main_v114 i) = ix1 (n := 2048) (i 1) :=
    funext fun a => Fin.ext (by match a with | ⟨0, _⟩ => rfl)
  rw [Read.val_main_v114_apply, Read.val_main_v113_apply, Read.val_main_v112_apply, beps2, hj]
  rfl

/-- The closing maximum's other operand is the zero word at every index. -/
theorem zlo2 (i : S2048x2048.Idx) : Read.val_main_call2_v0 (F := Ideal) i = Cert.Ibp.zero := by
  rw [Read.val_main_call2_v0_apply, Read.val_main_call2_cst_apply]; rfl
/-- The closing maximum's other operand is the zero word at every index. -/
theorem zup2 (i : S2048x2048.Idx) : Read.val_main_call3_v0 (F := Ideal) i = Cert.Ibp.zero := by
  rw [Read.val_main_call3_v0_apply, Read.val_main_call3_cst_apply]; rfl

/-- The lower bound after layer 1, as the reference computes it, is the recomputed arrangement's. -/
theorem lo2 (x0 : (⟨S2048x1024, .f32⟩ : BufTy).Contents (Elt Ideal)) (x1 : (⟨S2048x1024, .f32⟩ : BufTy).Contents (Elt Ideal)) (x2 : (⟨S2048, .f32⟩ : BufTy).Contents (Elt Ideal)) (x3 : (⟨S2048x1024, .f32⟩ : BufTy).Contents (Elt Ideal)) (x4 : (⟨S2048, .f32⟩ : BufTy).Contents (Elt Ideal)) (x5 : (⟨S2048x1024, .f32⟩ : BufTy).Contents (Elt Ideal)) (x6 : (⟨S2048, .f32⟩ : BufTy).Contents (Elt Ideal)) (x7 : (⟨S2048x1024, .f32⟩ : BufTy).Contents (Elt Ideal)) (x8 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal)) (x15 : (⟨S2048x2048, .f32⟩ : BufTy).Contents (Elt Ideal)) (x16 : (⟨S2048, .f32⟩ : BufTy).Contents (Elt Ideal)) :
    Read.val_main_v116 (F := Ideal) x0 x1 x2 x3 x4 x5 x6 x7 x8 x9 x10 x11 x12 x13 x14 x15 x16 = Cert.Ibp.refLayerLo (B := 2048) (Din := 2048) (Dout := 2048) true (Read.val_main_v57 (F := Ideal) x0 x1 x2 x3 x4 x5 x6 x7 x8) (Read.val_main_v58 (F := Ideal) x0 x1 x2 x3 x4 x5 x6 x7 x8) x9 x11 x13 x15 x10 x12 x14 x16 := by
  funext i
  rw [Read.val_main_v116_apply, Read.val_main_v111_apply, Read.val_main_v106_apply, Read.val_main_v105_apply, H2, K2, R2, blo2, zlo2]
  generalize Read.val_main_v57 (F := Ideal) x0 x1 x2 x3 x4 x5 x6 x7 x8 = LO
  generalize Read.val_main_v58 (F := Ideal) x0 x1 x2 x3 x4 x5 x6 x7 x8 = UP
  unfold Cert.Ibp.refLayerLo Cert.Ibp.refLoAt Cert.Ibp.loAt Cert.Ibp.act
  rw [if_pos rfl]
  rfl

/-- The upper bound after layer 1. -/
theorem up2 (x0 : (⟨S2048x1024, .f32⟩ : BufTy).Contents (Elt Ideal)) (x1 : (⟨S2048x1024, .f32⟩ : BufTy).Contents (Elt Ideal)) (x2 : (⟨S2048, .f32⟩ : BufTy).Contents (Elt Ideal)) (x3 : (⟨S2048x1024, .f32⟩ : BufTy).Contents (Elt Ideal)) (x4 : (⟨S2048, .f32⟩ : BufTy).Contents (Elt Ideal)) (x5 : (⟨S2048x1024, .f32⟩ : BufTy).Contents (Elt Ideal)) (x6 : (⟨S2048, .f32⟩ : BufTy).Contents (Elt Ideal)) (x7 : (⟨S2048x1024, .f32⟩ : BufTy).Contents (Elt Ideal)) (x8 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal)) (x15 : (⟨S2048x2048, .f32⟩ : BufTy).Contents (Elt Ideal)) (x16 : (⟨S2048, .f32⟩ : BufTy).Contents (Elt Ideal)) :
    Read.val_main_v117 (F := Ideal) x0 x1 x2 x3 x4 x5 x6 x7 x8 x9 x10 x11 x12 x13 x14 x15 x16 = Cert.Ibp.refLayerUp (B := 2048) (Din := 2048) (Dout := 2048) true (Read.val_main_v57 (F := Ideal) x0 x1 x2 x3 x4 x5 x6 x7 x8) (Read.val_main_v58 (F := Ideal) x0 x1 x2 x3 x4 x5 x6 x7 x8) x9 x11 x13 x15 x10 x12 x14 x16 := by
  funext i
  rw [Read.val_main_v117_apply, Read.val_main_v115_apply, Read.val_main_v107_apply, Read.val_main_v105_apply, H2, K2, R2, bup2, zup2]
  generalize Read.val_main_v57 (F := Ideal) x0 x1 x2 x3 x4 x5 x6 x7 x8 = LO
  generalize Read.val_main_v58 (F := Ideal) x0 x1 x2 x3 x4 x5 x6 x7 x8 = UP
  unfold Cert.Ibp.refLayerUp Cert.Ibp.refUpAt Cert.Ibp.upAt Cert.Ibp.act
  rw [if_pos rfl]
  rfl

/-! ## Layer 2 -/

/-- The clamped weight radius, as the reference computes it, entry by entry. -/
theorem weps3 (x17 : (⟨S1024x2048, .f32⟩ : BufTy).Contents (Elt Ideal)) (x19 : (⟨S1024x2048, .f32⟩ : BufTy).Contents (Elt Ideal)) (x21 : (⟨S1024x2048, .f32⟩ : BufTy).Contents (Elt Ideal)) (x23 : (⟨S1024x2048, .f32⟩ : BufTy).Contents (Elt Ideal)) (j : S1024x2048.Idx) :
    Read.val_main_v129 (F := Ideal) x17 x19 x21 x23 j = Cert.Ibp.wEps (Dout := 1024) (Din := 2048) x17 x19 x21 x23 j := by
  simp only [Read.val_main_v129_apply, Read.val_main_v128_apply, Read.val_main_v127_apply, Read.val_main_cst_16_apply, Read.val_main_v126_apply, Read.val_main_v125_apply, Read.val_main_cst_15_apply, Read.val_main_v124_apply, Read.val_main_v123_apply, Read.val_main_v122_apply, Read.val_main_v121_apply, Read.val_main_v120_apply, Read.val_main_v119_apply, Read.val_main_v118_apply]
  rfl

/-- The clamped bias radius, entry by entry. -/
theorem beps3 (x18 : (⟨S1024, .f32⟩ : BufTy).Contents (Elt Ideal)) (x20 : (⟨S1024, .f32⟩ : BufTy).Contents (Elt Ideal)) (x22 : (⟨S1024, .f32⟩ : BufTy).Contents (Elt Ideal)) (x24 : (⟨S1024, .f32⟩ : BufTy).Contents (Elt Ideal)) (j : S1024.Idx) :
    Read.val_main_v141 (F := Ideal) x18 x20 x22 x24 j = Cert.Ibp.eps (x18 j) (x20 j) (x22 j) (x24 j) := by
  simp only [Read.val_main_v141_apply, Read.val_main_v140_apply, Read.val_main_v139_apply, Read.val_main_cst_18_apply, Read.val_main_v138_apply, Read.val_main_v137_apply, Read.val_main_cst_17_apply, Read.val_main_v136_apply, Read.val_main_v135_apply, Read.val_main_v134_apply, Read.val_main_v133_apply, Read.val_main_v132_apply, Read.val_main_v131_apply, Read.val_main_v130_apply]
  rfl

/-- The activations' midpoint and radius. -/
theorem mid3 (x0 : (⟨S2048x1024, .f32⟩ : BufTy).Contents (Elt Ideal)) (x1 : (⟨S2048x1024, .f32⟩ : BufTy).Contents (Elt Ideal)) (x2 : (⟨S2048, .f32⟩ : BufTy).Contents (Elt Ideal)) (x3 : (⟨S2048x1024, .f32⟩ : BufTy).Contents (Elt Ideal)) (x4 : (⟨S2048, .f32⟩ : BufTy).Contents (Elt Ideal)) (x5 : (⟨S2048x1024, .f32⟩ : BufTy).Contents (Elt Ideal)) (x6 : (⟨S2048, .f32⟩ : BufTy).Contents (Elt Ideal)) (x7 : (⟨S2048x1024, .f32⟩ : BufTy).Contents (Elt Ideal)) (x8 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal)) (x15 : (⟨S2048x2048, .f32⟩ : BufTy).Contents (Elt Ideal)) (x16 : (⟨S2048, .f32⟩ : BufTy).Contents (Elt Ideal)) (j : S2048x2048.Idx) :
    Read.val_main_v148 (F := Ideal) x0 x1 x2 x3 x4 x5 x6 x7 x8 x9 x10 x11 x12 x13 x14 x15 x16 j = (Cert.Ibp.mid (B := 2048) (Din := 2048) (Read.val_main_v116 (F := Ideal) x0 x1 x2 x3 x4 x5 x6 x7 x8 x9 x10 x11 x12 x13 x14 x15 x16) (Read.val_main_v117 (F := Ideal) x0 x1 x2 x3 x4 x5 x6 x7 x8 x9 x10 x11 x12 x13 x14 x15 x16)) j := by
  simp only [Read.val_main_v148_apply, Read.val_main_v147_apply, Read.val_main_cst_19_apply, Read.val_main_v146_apply]
  generalize Read.val_main_v116 (F := Ideal) x0 x1 x2 x3 x4 x5 x6 x7 x8 x9 x10 x11 x12 x13 x14 x15 x16 = LO
  generalize Read.val_main_v117 (F := Ideal) x0 x1 x2 x3 x4 x5 x6 x7 x8 x9 x10 x11 x12 x13 x14 x15 x16 = UP
  rfl
theorem rad3 (x0 : (⟨S2048x1024, .f32⟩ : BufTy).Contents (Elt Ideal)) (x1 : (⟨S2048x1024, .f32⟩ : BufTy).Contents (Elt Ideal)) (x2 : (⟨S2048, .f32⟩ : BufTy).Contents (Elt Ideal)) (x3 : (⟨S2048x1024, .f32⟩ : BufTy).Contents (Elt Ideal)) (x4 : (⟨S2048, .f32⟩ : BufTy).Contents (Elt Ideal)) (x5 : (⟨S2048x1024, .f32⟩ : BufTy).Contents (Elt Ideal)) (x6 : (⟨S2048, .f32⟩ : BufTy).Contents (Elt Ideal)) (x7 : (⟨S2048x1024, .f32⟩ : BufTy).Contents (Elt Ideal)) (x8 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal)) (x15 : (⟨S2048x2048, .f32⟩ : BufTy).Contents (Elt Ideal)) (x16 : (⟨S2048, .f32⟩ : BufTy).Contents (Elt Ideal)) (j : S2048x2048.Idx) :
    Read.val_main_v151 (F := Ideal) x0 x1 x2 x3 x4 x5 x6 x7 x8 x9 x10 x11 x12 x13 x14 x15 x16 j = (Cert.Ibp.rad (B := 2048) (Din := 2048) (Read.val_main_v116 (F := Ideal) x0 x1 x2 x3 x4 x5 x6 x7 x8 x9 x10 x11 x12 x13 x14 x15 x16) (Read.val_main_v117 (F := Ideal) x0 x1 x2 x3 x4 x5 x6 x7 x8 x9 x10 x11 x12 x13 x14 x15 x16)) j := by
  simp only [Read.val_main_v151_apply, Read.val_main_v150_apply, Read.val_main_cst_20_apply, Read.val_main_v149_apply]
  generalize Read.val_main_v116 (F := Ideal) x0 x1 x2 x3 x4 x5 x6 x7 x8 x9 x10 x11 x12 x13 x14 x15 x16 = LO
  generalize Read.val_main_v117 (F := Ideal) x0 x1 x2 x3 x4 x5 x6 x7 x8 x9 x10 x11 x12 x13 x14 x15 x16 = UP
  rfl
theorem absmid3 (x0 : (⟨S2048x1024, .f32⟩ : BufTy).Contents (Elt Ideal)) (x1 : (⟨S2048x1024, .f32⟩ : BufTy).Contents (Elt Ideal)) (x2 : (⟨S2048, .f32⟩ : BufTy).Contents (Elt Ideal)) (x3 : (⟨S2048x1024, .f32⟩ : BufTy).Contents (Elt Ideal)) (x4 : (⟨S2048, .f32⟩ : BufTy).Contents (Elt Ideal)) (x5 : (⟨S2048x1024, .f32⟩ : BufTy).Contents (Elt Ideal)) (x6 : (⟨S2048, .f32⟩ : BufTy).Contents (Elt Ideal)) (x7 : (⟨S2048x1024, .f32⟩ : BufTy).Contents (Elt Ideal)) (x8 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal)) (x15 : (⟨S2048x2048, .f32⟩ : BufTy).Contents (Elt Ideal)) (x16 : (⟨S2048, .f32⟩ : BufTy).Contents (Elt Ideal)) (j : S2048x2048.Idx) :
    Read.val_main_v159 (F := Ideal) x0 x1 x2 x3 x4 x5 x6 x7 x8 x9 x10 x11 x12 x13 x14 x15 x16 j = (fun j => Cert.Ibp.abs ((Cert.Ibp.mid (B := 2048) (Din := 2048) (Read.val_main_v116 (F := Ideal) x0 x1 x2 x3 x4 x5 x6 x7 x8 x9 x10 x11 x12 x13 x14 x15 x16) (Read.val_main_v117 (F := Ideal) x0 x1 x2 x3 x4 x5 x6 x7 x8 x9 x10 x11 x12 x13 x14 x15 x16)) j)) j := by
  rw [Read.val_main_v159_apply, mid3]
  generalize Read.val_main_v116 (F := Ideal) x0 x1 x2 x3 x4 x5 x6 x7 x8 x9 x10 x11 x12 x13 x14 x15 x16 = LO
  generalize Read.val_main_v117 (F := Ideal) x0 x1 x2 x3 x4 x5 x6 x7 x8 x9 x10 x11 x12 x13 x14 x15 x16 = UP
  rfl

/-- The weight interval's midpoint and radius recomputed from its endpoints, read through the transposition:
    entry (k, o) of the transposed array is entry (o, k) of the weights. -/
theorem wmid3 (x17 : (⟨S1024x2048, .f32⟩ : BufTy).Contents (Elt Ideal)) (x19 : (⟨S1024x2048, .f32⟩ : BufTy).Contents (Elt Ideal)) (x21 : (⟨S1024x2048, .f32⟩ : BufTy).Contents (Elt Ideal)) (x23 : (⟨S1024x2048, .f32⟩ : BufTy).Contents (Elt Ideal)) (j : S2048x1024.Idx) :
    Read.val_main_v154 (F := Ideal) x17 x19 x21 x23 j = (Cert.Ibp.wMid x17 (Cert.Ibp.wEps (Dout := 1024) (Din := 2048) x17 x19 x21 x23)) (Read.idx_main_v144 j) := by
  simp only [Read.val_main_v154_apply, Read.val_main_v153_apply, Read.val_main_cst_21_apply, Read.val_main_v152_apply, Read.val_main_v144_apply, Read.val_main_v145_apply, Read.val_main_v142_apply, Read.val_main_v143_apply, weps3]
  rfl
theorem wrad3 (x17 : (⟨S1024x2048, .f32⟩ : BufTy).Contents (Elt Ideal)) (x19 : (⟨S1024x2048, .f32⟩ : BufTy).Contents (Elt Ideal)) (x21 : (⟨S1024x2048, .f32⟩ : BufTy).Contents (Elt Ideal)) (x23 : (⟨S1024x2048, .f32⟩ : BufTy).Contents (Elt Ideal)) (j : S2048x1024.Idx) :
    Read.val_main_v157 (F := Ideal) x17 x19 x21 x23 j = (Cert.Ibp.wRad x17 (Cert.Ibp.wEps (Dout := 1024) (Din := 2048) x17 x19 x21 x23)) (Read.idx_main_v144 j) := by
  simp only [Read.val_main_v157_apply, Read.val_main_v156_apply, Read.val_main_cst_22_apply, Read.val_main_v155_apply, Read.val_main_v144_apply, Read.val_main_v145_apply, Read.val_main_v142_apply, Read.val_main_v143_apply, weps3]
  rfl
theorem wsum3 (x17 : (⟨S1024x2048, .f32⟩ : BufTy).Contents (Elt Ideal)) (x19 : (⟨S1024x2048, .f32⟩ : BufTy).Contents (Elt Ideal)) (x21 : (⟨S1024x2048, .f32⟩ : BufTy).Contents (Elt Ideal)) (x23 : (⟨S1024x2048, .f32⟩ : BufTy).Contents (Elt Ideal)) (j : S2048x1024.Idx) :
    Read.val_main_v162 (F := Ideal) x17 x19 x21 x23 j = Cert.Ibp.wAbsPlus (Cert.Ibp.wMid x17 (Cert.Ibp.wEps (Dout := 1024) (Din := 2048) x17 x19 x21 x23)) (Cert.Ibp.wRad x17 (Cert.Ibp.wEps (Dout := 1024) (Din := 2048) x17 x19 x21 x23)) (Read.idx_main_v144 j) := by
  rw [Read.val_main_v162_apply, Read.val_main_v161_apply, wmid3, wrad3]
  rfl

/-- The contraction's operand indices: row r of the activations at feature k, and (through the transposition)
    row o of the weights at feature k. -/
theorem lidx40_3 (i : S2048x1024.Idx) (k : Fin 2048) :
    Read.lidx_main_v158 i k = ix2 (n0 := 2048) (n1 := 2048) (i 0) k := funext fun a => Fin.ext (by match a with | ⟨0, _⟩ => rfl | ⟨1, _⟩ => rfl)
theorem ridx40_3 (i : S2048x1024.Idx) (k : Fin 2048) :
    Read.idx_main_v144 (Read.ridx_main_v158 i k) = ix2 (n0 := 1024) (n1 := 2048) (i 1) k := funext fun a => Fin.ext (by match a with | ⟨0, _⟩ => rfl | ⟨1, _⟩ => rfl)
theorem lidx42_3 (i : S2048x1024.Idx) (k : Fin 2048) :
    Read.lidx_main_v160 i k = ix2 (n0 := 2048) (n1 := 2048) (i 0) k := funext fun a => Fin.ext (by match a with | ⟨0, _⟩ => rfl | ⟨1, _⟩ => rfl)
theorem ridx42_3 (i : S2048x1024.Idx) (k : Fin 2048) :
    Read.idx_main_v144 (Read.ridx_main_v160 i k) = ix2 (n0 := 1024) (n1 := 2048) (i 1) k := funext fun a => Fin.ext (by match a with | ⟨0, _⟩ => rfl | ⟨1, _⟩ => rfl)
theorem lidx45_3 (i : S2048x1024.Idx) (k : Fin 2048) :
    Read.lidx_main_v163 i k = ix2 (n0 := 2048) (n1 := 2048) (i 0) k := funext fun a => Fin.ext (by match a with | ⟨0, _⟩ => rfl | ⟨1, _⟩ => rfl)
theorem ridx45_3 (i : S2048x1024.Idx) (k : Fin 2048) :
    Read.idx_main_v144 (Read.ridx_main_v163 i k) = ix2 (n0 := 1024) (n1 := 2048) (i 1) k := funext fun a => Fin.ext (by match a with | ⟨0, _⟩ => rfl | ⟨1, _⟩ => rfl)

/-- The midpoint product H. -/
theorem H3 (x0 : (⟨S2048x1024, .f32⟩ : BufTy).Contents (Elt Ideal)) (x1 : (⟨S2048x1024, .f32⟩ : BufTy).Contents (Elt Ideal)) (x2 : (⟨S2048, .f32⟩ : BufTy).Contents (Elt Ideal)) (x3 : (⟨S2048x1024, .f32⟩ : BufTy).Contents (Elt Ideal)) (x4 : (⟨S2048, .f32⟩ : BufTy).Contents (Elt Ideal)) (x5 : (⟨S2048x1024, .f32⟩ : BufTy).Contents (Elt Ideal)) (x6 : (⟨S2048, .f32⟩ : BufTy).Contents (Elt Ideal)) (x7 : (⟨S2048x1024, .f32⟩ : BufTy).Contents (Elt Ideal)) (x8 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal)) (x15 : (⟨S2048x2048, .f32⟩ : BufTy).Contents (Elt Ideal)) (x16 : (⟨S2048, .f32⟩ : BufTy).Contents (Elt Ideal)) (x17 : (⟨S1024x2048, .f32⟩ : BufTy).Contents (Elt Ideal)) (x19 : (⟨S1024x2048, .f32⟩ : BufTy).Contents (Elt Ideal)) (x21 : (⟨S1024x2048, .f32⟩ : BufTy).Contents (Elt Ideal)) (x23 : (⟨S1024x2048, .f32⟩ : BufTy).Contents (Elt Ideal)) (i : S2048x1024.Idx) :
    Read.val_main_v158 (F := Ideal) x0 x1 x2 x3 x4 x5 x6 x7 x8 x9 x10 x11 x12 x13 x14 x15 x16 x17 x19 x21 x23 i = Cert.Ibp.dotT (B := 2048) (Din := 2048) (Dout := 1024) (Cert.Ibp.mid (B := 2048) (Din := 2048) (Read.val_main_v116 (F := Ideal) x0 x1 x2 x3 x4 x5 x6 x7 x8 x9 x10 x11 x12 x13 x14 x15 x16) (Read.val_main_v117 (F := Ideal) x0 x1 x2 x3 x4 x5 x6 x7 x8 x9 x10 x11 x12 x13 x14 x15 x16)) (Cert.Ibp.wMid x17 (Cert.Ibp.wEps (Dout := 1024) (Din := 2048) x17 x19 x21 x23)) (i 0) (i 1) := by
  rw [Read.val_main_v158_apply]
  unfold Cert.Ibp.dotT
  refine Finset.sum_congr rfl fun k _ => ?_
  rw [mid3, wmid3, lidx40_3, ridx40_3]

/-- The first radius term: |midpoint| against the weight radius. -/
theorem K3 (x0 : (⟨S2048x1024, .f32⟩ : BufTy).Contents (Elt Ideal)) (x1 : (⟨S2048x1024, .f32⟩ : BufTy).Contents (Elt Ideal)) (x2 : (⟨S2048, .f32⟩ : BufTy).Contents (Elt Ideal)) (x3 : (⟨S2048x1024, .f32⟩ : BufTy).Contents (Elt Ideal)) (x4 : (⟨S2048, .f32⟩ : BufTy).Contents (Elt Ideal)) (x5 : (⟨S2048x1024, .f32⟩ : BufTy).Contents (Elt Ideal)) (x6 : (⟨S2048, .f32⟩ : BufTy).Contents (Elt Ideal)) (x7 : (⟨S2048x1024, .f32⟩ : BufTy).Contents (Elt Ideal)) (x8 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal)) (x15 : (⟨S2048x2048, .f32⟩ : BufTy).Contents (Elt Ideal)) (x16 : (⟨S2048, .f32⟩ : BufTy).Contents (Elt Ideal)) (x17 : (⟨S1024x2048, .f32⟩ : BufTy).Contents (Elt Ideal)) (x19 : (⟨S1024x2048, .f32⟩ : BufTy).Contents (Elt Ideal)) (x21 : (⟨S1024x2048, .f32⟩ : BufTy).Contents (Elt Ideal)) (x23 : (⟨S1024x2048, .f32⟩ : BufTy).Contents (Elt Ideal)) (i : S2048x1024.Idx) :
    Read.val_main_v160 (F := Ideal) x0 x1 x2 x3 x4 x5 x6 x7 x8 x9 x10 x11 x12 x13 x14 x15 x16 x17 x19 x21 x23 i = Cert.Ibp.dotT (B := 2048) (Din := 2048) (Dout := 1024) (fun j => Cert.Ibp.abs ((Cert.Ibp.mid (B := 2048) (Din := 2048) (Read.val_main_v116 (F := Ideal) x0 x1 x2 x3 x4 x5 x6 x7 x8 x9 x10 x11 x12 x13 x14 x15 x16) (Read.val_main_v117 (F := Ideal) x0 x1 x2 x3 x4 x5 x6 x7 x8 x9 x10 x11 x12 x13 x14 x15 x16)) j)) (Cert.Ibp.wRad x17 (Cert.Ibp.wEps (Dout := 1024) (Din := 2048) x17 x19 x21 x23)) (i 0) (i 1) := by
  rw [Read.val_main_v160_apply]
  unfold Cert.Ibp.dotT
  refine Finset.sum_congr rfl fun k _ => ?_
  rw [absmid3, wrad3, lidx42_3, ridx42_3]

/-- The second radius term: the activations' radius against |weight midpoint| + weight radius. -/
theorem R3 (x0 : (⟨S2048x1024, .f32⟩ : BufTy).Contents (Elt Ideal)) (x1 : (⟨S2048x1024, .f32⟩ : BufTy).Contents (Elt Ideal)) (x2 : (⟨S2048, .f32⟩ : BufTy).Contents (Elt Ideal)) (x3 : (⟨S2048x1024, .f32⟩ : BufTy).Contents (Elt Ideal)) (x4 : (⟨S2048, .f32⟩ : BufTy).Contents (Elt Ideal)) (x5 : (⟨S2048x1024, .f32⟩ : BufTy).Contents (Elt Ideal)) (x6 : (⟨S2048, .f32⟩ : BufTy).Contents (Elt Ideal)) (x7 : (⟨S2048x1024, .f32⟩ : BufTy).Contents (Elt Ideal)) (x8 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal)) (x15 : (⟨S2048x2048, .f32⟩ : BufTy).Contents (Elt Ideal)) (x16 : (⟨S2048, .f32⟩ : BufTy).Contents (Elt Ideal)) (x17 : (⟨S1024x2048, .f32⟩ : BufTy).Contents (Elt Ideal)) (x19 : (⟨S1024x2048, .f32⟩ : BufTy).Contents (Elt Ideal)) (x21 : (⟨S1024x2048, .f32⟩ : BufTy).Contents (Elt Ideal)) (x23 : (⟨S1024x2048, .f32⟩ : BufTy).Contents (Elt Ideal)) (i : S2048x1024.Idx) :
    Read.val_main_v163 (F := Ideal) x0 x1 x2 x3 x4 x5 x6 x7 x8 x9 x10 x11 x12 x13 x14 x15 x16 x17 x19 x21 x23 i = Cert.Ibp.dotT (B := 2048) (Din := 2048) (Dout := 1024) (Cert.Ibp.rad (B := 2048) (Din := 2048) (Read.val_main_v116 (F := Ideal) x0 x1 x2 x3 x4 x5 x6 x7 x8 x9 x10 x11 x12 x13 x14 x15 x16) (Read.val_main_v117 (F := Ideal) x0 x1 x2 x3 x4 x5 x6 x7 x8 x9 x10 x11 x12 x13 x14 x15 x16)) (Cert.Ibp.wAbsPlus (Cert.Ibp.wMid x17 (Cert.Ibp.wEps (Dout := 1024) (Din := 2048) x17 x19 x21 x23)) (Cert.Ibp.wRad x17 (Cert.Ibp.wEps (Dout := 1024) (Din := 2048) x17 x19 x21 x23))) (i 0) (i 1) := by
  rw [Read.val_main_v163_apply]
  unfold Cert.Ibp.dotT
  refine Finset.sum_congr rfl fun k _ => ?_
  rw [rad3, wsum3, lidx45_3, ridx45_3]

/-- The bias row b ∓ its radius, broadcast over the batch rows: entry (r, o) is entry o. -/
theorem blo3 (x18 : (⟨S1024, .f32⟩ : BufTy).Contents (Elt Ideal)) (x20 : (⟨S1024, .f32⟩ : BufTy).Contents (Elt Ideal)) (x22 : (⟨S1024, .f32⟩ : BufTy).Contents (Elt Ideal)) (x24 : (⟨S1024, .f32⟩ : BufTy).Contents (Elt Ideal)) (i : S2048x1024.Idx) :
    Read.val_main_v169 (F := Ideal) x18 x20 x22 x24 i = Cert.Ibp.biasAt x18 (i 1) - Cert.Ibp.bEps x18 x20 x22 x24 (i 1) := by
  have hj : Read.idx_main_v168 (Read.idx_main_v169 i) = ix1 (n := 1024) (i 1) :=
    funext fun a => Fin.ext (by match a with | ⟨0, _⟩ => rfl)
  rw [Read.val_main_v169_apply, Read.val_main_v168_apply, Read.val_main_v167_apply, beps3, hj]
  rfl
theorem bup3 (x18 : (⟨S1024, .f32⟩ : BufTy).Contents (Elt Ideal)) (x20 : (⟨S1024, .f32⟩ : BufTy).Contents (Elt Ideal)) (x22 : (⟨S1024, .f32⟩ : BufTy).Contents (Elt Ideal)) (x24 : (⟨S1024, .f32⟩ : BufTy).Contents (Elt Ideal)) (i : S2048x1024.Idx) :
    Read.val_main_v173 (F := Ideal) x18 x20 x22 x24 i = Cert.Ibp.biasAt x18 (i 1) + Cert.Ibp.bEps x18 x20 x22 x24 (i 1) := by
  have hj : Read.idx_main_v172 (Read.idx_main_v173 i) = ix1 (n := 1024) (i 1) :=
    funext fun a => Fin.ext (by match a with | ⟨0, _⟩ => rfl)
  rw [Read.val_main_v173_apply, Read.val_main_v172_apply, Read.val_main_v171_apply, beps3, hj]
  rfl

/-- The lower bound after layer 2, as the reference computes it, is the recomputed arrangement's. -/
theorem lo3 (x0 : (⟨S2048x1024, .f32⟩ : BufTy).Contents (Elt Ideal)) (x1 : (⟨S2048x1024, .f32⟩ : BufTy).Contents (Elt Ideal)) (x2 : (⟨S2048, .f32⟩ : BufTy).Contents (Elt Ideal)) (x3 : (⟨S2048x1024, .f32⟩ : BufTy).Contents (Elt Ideal)) (x4 : (⟨S2048, .f32⟩ : BufTy).Contents (Elt Ideal)) (x5 : (⟨S2048x1024, .f32⟩ : BufTy).Contents (Elt Ideal)) (x6 : (⟨S2048, .f32⟩ : BufTy).Contents (Elt Ideal)) (x7 : (⟨S2048x1024, .f32⟩ : BufTy).Contents (Elt Ideal)) (x8 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal)) (x15 : (⟨S2048x2048, .f32⟩ : BufTy).Contents (Elt Ideal)) (x16 : (⟨S2048, .f32⟩ : BufTy).Contents (Elt Ideal)) (x17 : (⟨S1024x2048, .f32⟩ : BufTy).Contents (Elt Ideal)) (x18 : (⟨S1024, .f32⟩ : BufTy).Contents (Elt Ideal)) (x19 : (⟨S1024x2048, .f32⟩ : BufTy).Contents (Elt Ideal)) (x20 : (⟨S1024, .f32⟩ : BufTy).Contents (Elt Ideal)) (x21 : (⟨S1024x2048, .f32⟩ : BufTy).Contents (Elt Ideal)) (x22 : (⟨S1024, .f32⟩ : BufTy).Contents (Elt Ideal)) (x23 : (⟨S1024x2048, .f32⟩ : BufTy).Contents (Elt Ideal)) (x24 : (⟨S1024, .f32⟩ : BufTy).Contents (Elt Ideal)) :
    Read.val_main_v170 (F := Ideal) x0 x1 x2 x3 x4 x5 x6 x7 x8 x9 x10 x11 x12 x13 x14 x15 x16 x17 x18 x19 x20 x21 x22 x23 x24 = Cert.Ibp.refLayerLo (B := 2048) (Din := 2048) (Dout := 1024) false (Read.val_main_v116 (F := Ideal) x0 x1 x2 x3 x4 x5 x6 x7 x8 x9 x10 x11 x12 x13 x14 x15 x16) (Read.val_main_v117 (F := Ideal) x0 x1 x2 x3 x4 x5 x6 x7 x8 x9 x10 x11 x12 x13 x14 x15 x16) x17 x19 x21 x23 x18 x20 x22 x24 := by
  funext i
  rw [Read.val_main_v170_apply, Read.val_main_v165_apply, Read.val_main_v164_apply, H3, K3, R3, blo3]
  generalize Read.val_main_v116 (F := Ideal) x0 x1 x2 x3 x4 x5 x6 x7 x8 x9 x10 x11 x12 x13 x14 x15 x16 = LO
  generalize Read.val_main_v117 (F := Ideal) x0 x1 x2 x3 x4 x5 x6 x7 x8 x9 x10 x11 x12 x13 x14 x15 x16 = UP
  unfold Cert.Ibp.refLayerLo Cert.Ibp.refLoAt Cert.Ibp.loAt Cert.Ibp.act
  rw [if_neg Bool.false_ne_true]
  rfl

/-- The upper bound after layer 2. -/
theorem up3 (x0 : (⟨S2048x1024, .f32⟩ : BufTy).Contents (Elt Ideal)) (x1 : (⟨S2048x1024, .f32⟩ : BufTy).Contents (Elt Ideal)) (x2 : (⟨S2048, .f32⟩ : BufTy).Contents (Elt Ideal)) (x3 : (⟨S2048x1024, .f32⟩ : BufTy).Contents (Elt Ideal)) (x4 : (⟨S2048, .f32⟩ : BufTy).Contents (Elt Ideal)) (x5 : (⟨S2048x1024, .f32⟩ : BufTy).Contents (Elt Ideal)) (x6 : (⟨S2048, .f32⟩ : BufTy).Contents (Elt Ideal)) (x7 : (⟨S2048x1024, .f32⟩ : BufTy).Contents (Elt Ideal)) (x8 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal)) (x15 : (⟨S2048x2048, .f32⟩ : BufTy).Contents (Elt Ideal)) (x16 : (⟨S2048, .f32⟩ : BufTy).Contents (Elt Ideal)) (x17 : (⟨S1024x2048, .f32⟩ : BufTy).Contents (Elt Ideal)) (x18 : (⟨S1024, .f32⟩ : BufTy).Contents (Elt Ideal)) (x19 : (⟨S1024x2048, .f32⟩ : BufTy).Contents (Elt Ideal)) (x20 : (⟨S1024, .f32⟩ : BufTy).Contents (Elt Ideal)) (x21 : (⟨S1024x2048, .f32⟩ : BufTy).Contents (Elt Ideal)) (x22 : (⟨S1024, .f32⟩ : BufTy).Contents (Elt Ideal)) (x23 : (⟨S1024x2048, .f32⟩ : BufTy).Contents (Elt Ideal)) (x24 : (⟨S1024, .f32⟩ : BufTy).Contents (Elt Ideal)) :
    Read.val_main_v174 (F := Ideal) x0 x1 x2 x3 x4 x5 x6 x7 x8 x9 x10 x11 x12 x13 x14 x15 x16 x17 x18 x19 x20 x21 x22 x23 x24 = Cert.Ibp.refLayerUp (B := 2048) (Din := 2048) (Dout := 1024) false (Read.val_main_v116 (F := Ideal) x0 x1 x2 x3 x4 x5 x6 x7 x8 x9 x10 x11 x12 x13 x14 x15 x16) (Read.val_main_v117 (F := Ideal) x0 x1 x2 x3 x4 x5 x6 x7 x8 x9 x10 x11 x12 x13 x14 x15 x16) x17 x19 x21 x23 x18 x20 x22 x24 := by
  funext i
  rw [Read.val_main_v174_apply, Read.val_main_v166_apply, Read.val_main_v164_apply, H3, K3, R3, bup3]
  generalize Read.val_main_v116 (F := Ideal) x0 x1 x2 x3 x4 x5 x6 x7 x8 x9 x10 x11 x12 x13 x14 x15 x16 = LO
  generalize Read.val_main_v117 (F := Ideal) x0 x1 x2 x3 x4 x5 x6 x7 x8 x9 x10 x11 x12 x13 x14 x15 x16 = UP
  unfold Cert.Ibp.refLayerUp Cert.Ibp.refUpAt Cert.Ibp.upAt Cert.Ibp.act
  rw [if_neg Bool.false_ne_true]
  rfl

end Cert.ReferenceIdeal.RefValue

end
-- ==== Proof.FiniteArgs.lean ====
/-
  Finiteness of the weight-side arrays, read back from the precondition.  The precondition says that a single
  truth value is 1: the conjunction, over the 25 argument arrays, of "every entry x of the array has |x| < +∞".
  A conjunction of truth values is 1 only if each is; an all-reduction by "and" is 1 only if every entry reduced
  is 1; and |x| = max x (-x) lies strictly below +∞ on the extended reals only when x is neither +∞ nor -∞, that
  is, when x is a real number.  So every entry of every argument array is real; the thirteen arrays the layers'
  weights and the input come from are the ones kept.
-/
import proofs.«181910_j61117384622159_2_alg».proof.Defs
import proofs.«181910_j61117384622159_2_alg».proof.Proof.Spec
import Idealize.ShloMosaic.Lib.ReduceAll

set_option maxRecDepth 16384

noncomputable section

namespace Cert.FiniteArgs

open Cert.KernelIdeal
open Idealize.ShloMosaic Idealize.SL.Sem

/-- The result of an all-reduction has exactly one index. -/
instance : Subsingleton Cert.Pre_finite_inputs.S_.Idx := ⟨fun a b => funext fun d => d.elim0⟩

/-- The pattern 0x7F800000 is +∞. -/
theorem inf_eq : Ideal.ofBits .f32 0x7F800000#32 = (⊤ : EReal) := by simp [Ideal.ofBits, Ideal.ieee]

/-- An extended real whose absolute value max x (-x) is strictly below +∞ is a real number: at +∞ the maximum is
    +∞ itself, and at -∞ it is -(-∞) = +∞, so in both cases the strict comparison fails. -/
theorem real_of_abs_lt (x : EReal)
    (h : Ideal.cmp .olt (max x (-x)) (Ideal.ofBits .f32 0x7F800000#32) = 1#1) : ∃ r : ℝ, x = (r : EReal) := by
  rw [inf_eq] at h
  induction x using EReal.rec with
  | bot => simp [Ideal.cmp] at h
  | coe r => exact ⟨r, rfl⟩
  | top => simp [Ideal.cmp] at h

/-- One array: if the all-reduction by "and" of the entrywise test |x| < +∞ is 1, every entry of x is real. -/
theorem finite_of_all {s t u : Shape} {axes : List (Fin s.rank)} [Subsingleton t.Idx] (x : FVec Ideal s .f32)
    (hb : Cert.Pre_finite_inputs.S_.BroadcastsInDim s (![] : Fin 0 → Fin s.rank)) (hr : s.ReducesTo axes t) (hu : 0 < u.numel)
    (init : IVec u 1) (j : t.Idx)
    (e : Host.reduce IntOp.andi
          (cmpf .olt (Host.absf x) (broadcastInDim s ![] hb (constant (F := Ideal) Cert.Pre_finite_inputs.S_ .f32 0x7F800000#32)))
          init hr hu j = 1#1) :
    Cert.Ibp.Finite (S := s) x := fun i =>
  real_of_abs_lt (x i) (Host.reduce_andi_all _ init hr hu j e i)

/-- Every entry of the thirteen kept argument arrays is a real number, from the precondition at device c. -/
theorem of_pre [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    Cert.Ibp.Finite (S := S2048x1024) (m ((c.tc : Thread Cert.KernelIdeal.nD Cert.KernelIdeal.τ).loc Cert.KernelIdeal.main_arg0))
    ∧ Cert.Ibp.Finite (S := S2048x1024) (m ((c.tc : Thread Cert.KernelIdeal.nD Cert.KernelIdeal.τ).loc Cert.KernelIdeal.main_arg1)) ∧ Cert.Ibp.Finite (S := S2048x1024) (m ((c.tc : Thread Cert.KernelIdeal.nD Cert.KernelIdeal.τ).loc Cert.KernelIdeal.main_arg3))
    ∧ Cert.Ibp.Finite (S := S2048x1024) (m ((c.tc : Thread Cert.KernelIdeal.nD Cert.KernelIdeal.τ).loc Cert.KernelIdeal.main_arg5)) ∧ Cert.Ibp.Finite (S := S2048x1024) (m ((c.tc : Thread Cert.KernelIdeal.nD Cert.KernelIdeal.τ).loc Cert.KernelIdeal.main_arg7))
    ∧ Cert.Ibp.Finite (S := S2048x2048) (m ((c.tc : Thread Cert.KernelIdeal.nD Cert.KernelIdeal.τ).loc Cert.KernelIdeal.main_arg9)) ∧ Cert.Ibp.Finite (S := S2048x2048) (m ((c.tc : Thread Cert.KernelIdeal.nD Cert.KernelIdeal.τ).loc Cert.KernelIdeal.main_arg11))
    ∧ Cert.Ibp.Finite (S := S2048x2048) (m ((c.tc : Thread Cert.KernelIdeal.nD Cert.KernelIdeal.τ).loc Cert.KernelIdeal.main_arg13)) ∧ Cert.Ibp.Finite (S := S2048x2048) (m ((c.tc : Thread Cert.KernelIdeal.nD Cert.KernelIdeal.τ).loc Cert.KernelIdeal.main_arg15))
    ∧ Cert.Ibp.Finite (S := S1024x2048) (m ((c.tc : Thread Cert.KernelIdeal.nD Cert.KernelIdeal.τ).loc Cert.KernelIdeal.main_arg17)) ∧ Cert.Ibp.Finite (S := S1024x2048) (m ((c.tc : Thread Cert.KernelIdeal.nD Cert.KernelIdeal.τ).loc Cert.KernelIdeal.main_arg19))
    ∧ Cert.Ibp.Finite (S := S1024x2048) (m ((c.tc : Thread Cert.KernelIdeal.nD Cert.KernelIdeal.τ).loc Cert.KernelIdeal.main_arg21)) ∧ Cert.Ibp.Finite (S := S1024x2048) (m ((c.tc : Thread Cert.KernelIdeal.nD Cert.KernelIdeal.τ).loc Cert.KernelIdeal.main_arg23)) := by
  have e := congrFun (h c) ValueIdx.ix0
  dsimp only [Cert.Pre_finite_inputs.fn, Cert.Pre_finite_inputs.fn_part1, Cert.Pre_finite_inputs.fn_part2, Cert.Pre_finite_inputs.fn_part3,
    Cert.Pre_finite_inputs.fn_part4, Cert.Pre_finite_inputs.fn_part5, Cert.Pre_finite_inputs.fn_part6, Cert.Pre_finite_inputs.fn_part7] at e
  simp only [andi, IntOp.andi_eq_one] at e
  obtain ⟨⟨⟨⟨⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩, h20⟩, h21⟩, h22⟩, h23⟩, h24⟩ := e
  exact ⟨finite_of_all _ _ _ _ _ _ h0,
    finite_of_all _ _ _ _ _ _ h1,
    finite_of_all _ _ _ _ _ _ h3,
    finite_of_all _ _ _ _ _ _ h5,
    finite_of_all _ _ _ _ _ _ h7,
    finite_of_all _ _ _ _ _ _ h9,
    finite_of_all _ _ _ _ _ _ h11,
    finite_of_all _ _ _ _ _ _ h13,
    finite_of_all _ _ _ _ _ _ h15,
    finite_of_all _ _ _ _ _ _ h17,
    finite_of_all _ _ _ _ _ _ h19,
    finite_of_all _ _ _ _ _ _ h21,
    finite_of_all _ _ _ _ _ _ h23⟩

end Cert.FiniteArgs

end
-- ==== Proof.lean ====
/-
  Interval bound propagation through three linear layers with clamped weight and bias radii: the kernel
  against its jnp reference, as extended reals.

  Both programs push a box [lo, up] of activations through each layer by Rump's midpoint–radius product,
     H ∓ K + (b ∓ be),   H = mid · wm,   K = |mid| · wr + rad · (|wm| + wr),
  with wm, wr the midpoint and radius of the weight interval [w - e, w + e] and e, be the clamped radii.  The
  reference forms the interval's endpoints and recomputes wm = ((w - e) + (w + e))/2, wr = ((w + e) - (w - e))/2;
  the kernel takes wm = w and wr = e directly, precomputes |w| + e, and in the first layer, where lo = up = x,
  drops the term in rad.  On the extended reals these are the same function exactly when the weights (hence
  the radii, a sigmoid times a minimum of sums of them) and the input x are finite: (w - e) + (w + e) = 2w and
  x - x = 0 fail at an infinity.  The precondition says every input is finite, and that is all that is used of
  it; the bounds between layers enter both programs through the same formulas, so nothing is asked of them.
  The sigmoid is one operation in the kernel and the quotient 1 / (1 + exp (-v)) in the reference: one function.
  Sums are compared term by term (same summands, same index set), so no reordering is needed.

  The kernel's value is read region by region off its run (what each region's output arrays hold after the
  region, as functions of what the region found), the reference's operation by operation; both end by stacking
  the two final bounds on a new last axis, which is carried as one function.
-/
import proofs.«181910_j61117384622159_2_alg».proof.Defs
import proofs.«181910_j61117384622159_2_alg».proof.Proof.Gen.Kernel
import proofs.«181910_j61117384622159_2_alg».proof.Proof.Gen.Kernel.Frame
import proofs.«181910_j61117384622159_2_alg».proof.Proof.Gen.KernelIdeal
import proofs.«181910_j61117384622159_2_alg».proof.Proof.Gen.KernelIdeal.Frame
import proofs.«181910_j61117384622159_2_alg».proof.Proof.Gen.ReferenceIdeal
import proofs.«181910_j61117384622159_2_alg».proof.Proof.Gen.Pre_finite_inputs
import proofs.«181910_j61117384622159_2_alg».proof.Proof.KernelRun
import proofs.«181910_j61117384622159_2_alg».proof.Proof.Entry
import proofs.«181910_j61117384622159_2_alg».proof.Proof.RefRun
import proofs.«181910_j61117384622159_2_alg».proof.Proof.RefRead
import proofs.«181910_j61117384622159_2_alg».proof.Proof.RefSide
import proofs.«181910_j61117384622159_2_alg».proof.Proof.FiniteArgs
import Idealize.ShloMosaic.Adequacy
import Idealize.ShloMosaic.Init

set_option maxRecDepth 16384

noncomputable section

namespace Cert.Proof

open Idealize.ShloMosaic Idealize.ShloMosaic.TcCoe Idealize.SL.Sem Cert.Ibp

theorem frame_kernel : Cert.frame_Kernel := fun m ρ _ => Cert.Kernel.Gen.frame m ρ
theorem frame_kernelIdeal : Cert.frame_KernelIdeal := fun m ρ _ => Cert.KernelIdeal.Gen.frame m ρ
/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- The reference's result on finite weights and a finite input, over arbitrary arrays: each layer's recomputed
    arrangement is the direct one (finite weights), the first layer's the radius-free form (finite input); what is
    left is the two final bounds stacked. -/
theorem reference_value_of (x0 x1 x3 x5 x7 : Mat 2048 1024) (x2 x4 x6 x8 : Vc 2048) (x9 x11 x13 x15 : Mat 2048 2048)
    (x10 x12 x14 x16 : Vc 2048) (x17 x19 x21 x23 : Mat 1024 2048) (x18 x20 x22 x24 : Vc 1024)
    (f0 : Finite x0) (f1 : Finite x1) (f3 : Finite x3) (f5 : Finite x5) (f7 : Finite x7)
    (f9 : Finite x9) (f11 : Finite x11) (f13 : Finite x13) (f15 : Finite x15)
    (f17 : Finite x17) (f19 : Finite x19) (f21 : Finite x21) (f23 : Finite x23) :
    Cert.ReferenceIdeal.Read.val_main_v177 (F := Ideal) x0 x1 x2 x3 x4 x5 x6 x7 x8 x9 x10 x11 x12 x13 x14 x15 x16 x17 x18 x19 x20 x21 x22 x23 x24
      = Cert.KernelIdeal.Entry.stack (layerLo (B := 2048) (Din := 2048) (Dout := 1024) false (layerLo (B := 2048) (Din := 2048) (Dout := 2048) true (firstLo (B := 2048) (Din := 1024) (Dout := 2048) x0 x1 x3 x5 x7 x2 x4 x6 x8) (firstUp (B := 2048) (Din := 1024) (Dout := 2048) x0 x1 x3 x5 x7 x2 x4 x6 x8) x9 x11 x13 x15 x10 x12 x14 x16) (layerUp (B := 2048) (Din := 2048) (Dout := 2048) true (firstLo (B := 2048) (Din := 1024) (Dout := 2048) x0 x1 x3 x5 x7 x2 x4 x6 x8) (firstUp (B := 2048) (Din := 1024) (Dout := 2048) x0 x1 x3 x5 x7 x2 x4 x6 x8) x9 x11 x13 x15 x10 x12 x14 x16) x17 x19 x21 x23 x18 x20 x22 x24)
          (layerUp (B := 2048) (Din := 2048) (Dout := 1024) false (layerLo (B := 2048) (Din := 2048) (Dout := 2048) true (firstLo (B := 2048) (Din := 1024) (Dout := 2048) x0 x1 x3 x5 x7 x2 x4 x6 x8) (firstUp (B := 2048) (Din := 1024) (Dout := 2048) x0 x1 x3 x5 x7 x2 x4 x6 x8) x9 x11 x13 x15 x10 x12 x14 x16) (layerUp (B := 2048) (Din := 2048) (Dout := 2048) true (firstLo (B := 2048) (Din := 1024) (Dout := 2048) x0 x1 x3 x5 x7 x2 x4 x6 x8) (firstUp (B := 2048) (Din := 1024) (Dout := 2048) x0 x1 x3 x5 x7 x2 x4 x6 x8) x9 x11 x13 x15 x10 x12 x14 x16) x17 x19 x21 x23 x18 x20 x22 x24) := by
  unfold Cert.ReferenceIdeal.Read.val_main_v177 Cert.ReferenceIdeal.Read.val_main_v175 Cert.ReferenceIdeal.Read.val_main_v176
  rw [Cert.ReferenceIdeal.RefValue.lo3, Cert.ReferenceIdeal.RefValue.up3, Cert.ReferenceIdeal.RefValue.lo2, Cert.ReferenceIdeal.RefValue.up2,
    Cert.ReferenceIdeal.RefValue.lo1, Cert.ReferenceIdeal.RefValue.up1]
  rw [refLayerLo_self f0 f1 f3 f5 f7, refLayerUp_self f0 f1 f3 f5 f7]
  rw [refLayerLo_eq true _ _ f9 f11 f13 f15, refLayerUp_eq true _ _ f9 f11 f13 f15]
  rw [refLayerLo_eq false _ _ f17 f19 f21 f23, refLayerUp_eq false _ _ f17 f19 f21 f23]
  rfl

/-- The same at the launch arrays, their finiteness from the precondition. -/
theorem reference_value (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.Read.val_main_v177 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))
      = Cert.KernelIdeal.Entry.stack (Cert.KernelIdeal.Entry.lo3 m c) (Cert.KernelIdeal.Entry.up3 m c) := by
  obtain ⟨f0, f1, f3, f5, f7, f9, f11, f13, f15, f17, f19, f21, f23⟩ := Cert.FiniteArgs.of_pre m hpre c
  exact reference_value_of _ _ _ _ _ _ _ _ _ _ _ _ _ _ _ _ _ _ _ _ _ _ _ _ _ f0 f1 f3 f5 f7 f9 f11 f13 f15 f17 f19 f21 f23

theorem algebraic : Cert.algebraic_KernelIdeal_ReferenceIdeal := by
  intro m ρ m' ρ' hpre hagree
  refine ⟨fun c => Cert.KernelIdeal.Entry.stack (Cert.KernelIdeal.Entry.lo3 m c) (Cert.KernelIdeal.Entry.up3 m c), ?_, ?_⟩
  · exact (θ_run Cert.KernelIdeal.defs _ _).mono
      (fun r h c => ⟨(h c).1.trans (Cert.KernelIdeal.Entry.W13_v50 m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v177_eq]
    obtain ⟨a0, a1, a2, a3, a4, a5, a6, a7, a8, a9, a10, a11, a12, a13, a14, a15, a16, a17, a18, a19, a20, a21, a22, a23, a24⟩ := hagree c
    rw [a0, a1, a2, a3, a4, a5, a6, a7, a8, a9, a10, a11, a12, a13, a14, a15, a16, a17, a18, a19, a20, a21, a22, a23, a24]
    exact reference_value m hpre c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
